-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S50000x64 : Shape := ⟨2, ![50000, 64]⟩
abbrev S2000000 : Shape := ⟨1, ![2000000]⟩
abbrev S8192 : Shape := ⟨1, ![8192]⟩
abbrev S8192x2 : Shape := ⟨2, ![8192, 2]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S2000000 : S_.BroadcastsInDim S2000000 (![] : Fin 0 → Fin S2000000.rank)
  reducesTo_S2000000_S_d0 : S2000000.ReducesTo [0] S_
  bcast_S_S8192x2 : S_.BroadcastsInDim S8192x2 (![] : Fin 0 → Fin S8192x2.rank)
  reducesTo_S8192x2_S_d0_1 : S8192x2.ReducesTo [0, 1] S_

variable [Facts]

def fn_part1 {F : FTy → Type} [FloatOps F] (main_v13 : IVec S_ 1) (main_v16 : IVec S8192x2 1) : IVec S_ 1 :=
  let main_c_5 : IVec S_ 1 := constantI S_ 1 1#1
  let main_v17 : IVec S_ 1 := (fun x v => Host.reduce IntOp.andi x v reducesTo_S8192x2_S_d0_1 h_S_) main_v16 main_c_5
  let main_v18 : IVec S_ 1 := andi main_v13 main_v17
  main_v18

def fn {F : FTy → Type} [FloatOps F] (main_arg0 : FVec F S100000x64 .f32) (main_arg1 : FVec F S50000x64 .f32) (main_arg2 : IVec S2000000 32) (main_arg3 : IVec S2000000 32) (main_arg4 : FVec F S2000000 .f32) (main_arg5 : IVec S8192 32) (main_arg6 : IVec S8192 32) (main_arg7 : IVec S8192x2 32) (main_arg8 : FVec F S8192x2 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S2000000 .f32 := Host.absf main_arg4
  let main_cst_2 : FVec F S_ .f32 := constant S_ .f32 0x7F800000#32
  let main_v10 : FVec F S2000000 .f32 := broadcastInDim S2000000 ![] bcast_S_S2000000 main_cst_2
  let main_v11 : IVec S2000000 1 := cmpf .olt main_v9 main_v10
  let main_c_3 : IVec S_ 1 := constantI S_ 1 1#1
  let main_v12 : IVec S_ 1 := (fun x v => Host.reduce IntOp.andi x v reducesTo_S2000000_S_d0 h_S_) main_v11 main_c_3
  let main_v13 : IVec S_ 1 := andi main_v8 main_v12
  let main_v14 : FVec F S8192x2 .f32 := Host.absf main_arg8
  let main_cst_4 : FVec F S_ .f32 := constant S_ .f32 0x7F800000#32
  let main_v15 : FVec F S8192x2 .f32 := broadcastInDim S8192x2 ![] bcast_S_S8192x2 main_cst_4
  let main_v16 : IVec S8192x2 1 := cmpf .olt main_v14 main_v15
  fn_part1 (F := F) main_v13 main_v16
-- ==== Kernel.lean ====
abbrev S100000x64 : Shape := ⟨2, ![100000, 64]⟩
abbrev S50000x64 : Shape := ⟨2, ![50000, 64]⟩
abbrev S2000000 : Shape := ⟨1, ![2000000]⟩
abbrev S8192 : Shape := ⟨1, ![8192]⟩
abbrev S8192x2 : Shape := ⟨2, ![8192, 2]⟩
abbrev S150000x64 : Shape := ⟨2, ![150000, 64]⟩
abbrev S2000000x1 : Shape := ⟨2, ![2000000, 1]⟩
abbrev S_ : Shape := ⟨0, ![]⟩
abbrev S2000000x64 : Shape := ⟨2, ![2000000, 64]⟩
abbrev S2000x64 : Shape := ⟨2, ![2000, 64]⟩
abbrev S8192x1 : Shape := ⟨2, ![8192, 1]⟩
abbrev S8192x64 : Shape := ⟨2, ![8192, 64]⟩
abbrev S1x1 : Shape := ⟨2, ![1, 1]⟩
abbrev S2048x64 : Shape := ⟨2, ![2048, 64]⟩
abbrev S2048 : Shape := ⟨1, ![2048]⟩
abbrev S2048x1 : Shape := ⟨2, ![2048, 1]⟩
abbrev S1 : Shape := ⟨1, ![1]⟩

abbrev nBuf : Space → Nat
  | .hbm => 92
  | .vmem => 18
  | .smem => 0
  | _ => 0

abbrev bufTy : (tb : Table) → Fin (tcTables nBuf tb) → BufTy
  | .hbm, ⟨0, _⟩ => ⟨S100000x64, .f32⟩
  | .hbm, ⟨1, _⟩ => ⟨S50000x64, .f32⟩
  | .hbm, ⟨2, _⟩ => ⟨S2000000, .i32⟩
  | .hbm, ⟨3, _⟩ => ⟨S2000000, .i32⟩
  | .hbm, ⟨4, _⟩ => ⟨S2000000, .f32⟩
  | .hbm, ⟨5, _⟩ => ⟨S8192, .i32⟩
  | .hbm, ⟨6, _⟩ => ⟨S8192, .i32⟩
  | .hbm, ⟨7, _⟩ => ⟨S8192x2, .i32⟩
  | .hbm, ⟨8, _⟩ => ⟨S8192x2, .f32⟩
  | .hbm, ⟨9, _⟩ => ⟨S150000x64, .f32⟩
  | .hbm, ⟨10, _⟩ => ⟨S2000000x1, .f32⟩
  | .hbm, ⟨11, _⟩ => ⟨S_, .i32⟩
  | .hbm, ⟨12, _⟩ => ⟨S2000000, .i32⟩
  | .hbm, ⟨13, _⟩ => ⟨S2000000, .i1⟩
  | .hbm, ⟨14, _⟩ => ⟨S_, .i32⟩
  | .hbm, ⟨15, _⟩ => ⟨S2000000, .i32⟩
  | .hbm, ⟨16, _⟩ => ⟨S2000000, .i32⟩
  | .hbm, ⟨17, _⟩ => ⟨S2000000, .i32⟩
  | .hbm, ⟨18, _⟩ => ⟨S2000000x1, .i32⟩
  | .hbm, ⟨19, _⟩ => ⟨S2000000x64, .f32⟩
  | .hbm, ⟨20, _⟩ => ⟨S2000000x64, .f32⟩
  | .hbm, ⟨21, _⟩ => ⟨S2000000x64, .f32⟩
  | .hbm, ⟨22, _⟩ => ⟨S_, .f32⟩
  | .hbm, ⟨23, _⟩ => ⟨S150000x64, .f32⟩
  | .hbm, ⟨24, _⟩ => ⟨S2000000x1, .i32⟩
  | .hbm, ⟨25, _⟩ => ⟨S150000x64, .f32⟩
  | .hbm, ⟨26, _⟩ => ⟨S2000000x1, .f32⟩
  | .hbm, ⟨27, _⟩ => ⟨S_, .i32⟩
  | .hbm, ⟨28, _⟩ => ⟨S2000000, .i32⟩
  | .hbm, ⟨29, _⟩ => ⟨S2000000, .i1⟩
  | .hbm, ⟨30, _⟩ => ⟨S_, .i32⟩
  | .hbm, ⟨31, _⟩ => ⟨S2000000, .i32⟩
  | .hbm, ⟨32, _⟩ => ⟨S2000000, .i32⟩
  | .hbm, ⟨33, _⟩ => ⟨S2000000, .i32⟩
  | .hbm, ⟨34, _⟩ => ⟨S2000000x1, .i32⟩
  | .hbm, ⟨35, _⟩ => ⟨S2000000x64, .f32⟩
  | .hbm, ⟨36, _⟩ => ⟨S2000000x64, .f32⟩
  | .hbm, ⟨37, _⟩ => ⟨S2000000x64, .f32⟩
  | .hbm, ⟨38, _⟩ => ⟨S_, .f32⟩
  | .hbm, ⟨39, _⟩ => ⟨S150000x64, .f32⟩
  | .hbm, ⟨40, _⟩ => ⟨S2000000x1, .i32⟩
  | .hbm, ⟨41, _⟩ => ⟨S150000x64, .f32⟩
  | .hbm, ⟨42, _⟩ => ⟨S2000000x1, .f32⟩
  | .hbm, ⟨43, _⟩ => ⟨S_, .i32⟩
  | .hbm, ⟨44, _⟩ => ⟨S2000000, .i32⟩
  | .hbm, ⟨45, _⟩ => ⟨S2000000, .i1⟩
  | .hbm, ⟨46, _⟩ => ⟨S_, .i32⟩
  | .hbm, ⟨47, _⟩ => ⟨S2000000, .i32⟩
  | .hbm, ⟨48, _⟩ => ⟨S2000000, .i32⟩
  | .hbm, ⟨49, _⟩ => ⟨S2000000, .i32⟩
  | .hbm, ⟨50, _⟩ => ⟨S2000000x1, .i32⟩
  | .hbm, ⟨51, _⟩ => ⟨S2000000x64, .f32⟩
  | .hbm, ⟨52, _⟩ => ⟨S2000000x64, .f32⟩
  | .hbm, ⟨53, _⟩ => ⟨S2000000x64, .f32⟩
  | .hbm, ⟨54, _⟩ => ⟨S_, .f32⟩
  | .hbm, ⟨55, _⟩ => ⟨S150000x64, .f32⟩
  | .hbm, ⟨56, _⟩ => ⟨S2000000x1, .i32⟩
  | .hbm, ⟨57, _⟩ => ⟨S150000x64, .f32⟩
  | .hbm, ⟨58, _⟩ => ⟨S150000x64, .f32⟩
  | .hbm, ⟨59, _⟩ => ⟨S100000x64, .f32⟩
  | .hbm, ⟨60, _⟩ => ⟨S50000x64, .f32⟩
  | .hbm, ⟨61, _⟩ => ⟨S8192x1, .i32⟩
  | .hbm, ⟨62, _⟩ => ⟨S8192, .i32⟩
  | .hbm, ⟨63, _⟩ => ⟨S_, .i32⟩
  | .hbm, ⟨64, _⟩ => ⟨S8192, .i32⟩
  | .hbm, ⟨65, _⟩ => ⟨S8192, .i1⟩
  | .hbm, ⟨66, _⟩ => ⟨S_, .i32⟩
  | .hbm, ⟨67, _⟩ => ⟨S8192, .i32⟩
  | .hbm, ⟨68, _⟩ => ⟨S8192, .i32⟩
  | .hbm, ⟨69, _⟩ => ⟨S8192, .i32⟩
  | .hbm, ⟨70, _⟩ => ⟨S8192x1, .i32⟩
  | .hbm, ⟨71, _⟩ => ⟨S8192x64, .f32⟩
  | .hbm, ⟨72, _⟩ => ⟨S_, .i32⟩
  | .hbm, ⟨73, _⟩ => ⟨S8192, .i32⟩
  | .hbm, ⟨74, _⟩ => ⟨S8192, .i1⟩
  | .hbm, ⟨75, _⟩ => ⟨S_, .i32⟩
  | .hbm, ⟨76, _⟩ => ⟨S8192, .i32⟩
  | .hbm, ⟨77, _⟩ => ⟨S8192, .i32⟩
  | .hbm, ⟨78, _⟩ => ⟨S8192, .i32⟩
  | .hbm, ⟨79, _⟩ => ⟨S8192x1, .i32⟩
  | .hbm, ⟨80, _⟩ => ⟨S8192x64, .f32⟩
  | .hbm, ⟨81, _⟩ => ⟨S_, .i32⟩
  | .hbm, ⟨82, _⟩ => ⟨S8192, .i32⟩
  | .hbm, ⟨83, _⟩ => ⟨S8192, .i1⟩
  | .hbm, ⟨84, _⟩ => ⟨S_, .i32⟩
  | .hbm, ⟨85, _⟩ => ⟨S8192, .i32⟩
  | .hbm, ⟨86, _⟩ => ⟨S8192, .i32⟩
  | .hbm, ⟨87, _⟩ => ⟨S8192, .i32⟩
  | .hbm, ⟨88, _⟩ => ⟨S8192x1, .i32⟩
  | .hbm, ⟨89, _⟩ => ⟨S8192x64, .f32⟩
  | .hbm, ⟨90, _⟩ => ⟨S1x1, .f32⟩
  | .hbm, ⟨91, _⟩ => ⟨S_, .f32⟩
  | .local _ .vmem, ⟨0, _⟩ => ⟨S2000x64, .f32⟩
  | .local _ .vmem, ⟨1, _⟩ => ⟨S2000x64, .f32⟩
  | .local _ .vmem, ⟨2, _⟩ => ⟨S2000x64, .f32⟩
  | .local _ .vmem, ⟨3, _⟩ => ⟨S2000x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S2000x64, .f32⟩
  | .local _ .vmem, ⟨8, _⟩ => ⟨S2000x64, .f32⟩
  | .local _ .vmem, ⟨9, _⟩ => ⟨S2000x64, .f32⟩
  | .local _ .vmem, ⟨10, _⟩ => ⟨S2048x64, .f32⟩
  | .local _ .vmem, ⟨11, _⟩ => ⟨S2048x64, .f32⟩
  | .local _ .vmem, ⟨12, _⟩ => ⟨S2048x64, .f32⟩
  | .local _ .vmem, ⟨13, _⟩ => ⟨S2048x64, .f32⟩
  | .local _ .vmem, ⟨14, _⟩ => ⟨S2048x64, .f32⟩
  | .local _ .vmem, ⟨15, _⟩ => ⟨S2048x64, .f32⟩
  | .local _ .vmem, ⟨16, _⟩ => ⟨S1x1, .f32⟩
  | .local _ .vmem, ⟨17, _⟩ => ⟨S1x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_1 : Ref sig .tc := ⟨.hbm, 27, rfl⟩
abbrev main_v15 : Ref sig .tc := ⟨.hbm, 28, rfl⟩
abbrev main_v16 : Ref sig .tc := ⟨.hbm, 29, rfl⟩
abbrev main_c_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_4 : Ref sig .tc := ⟨.hbm, 43, rfl⟩
abbrev main_v28 : Ref sig .tc := ⟨.hbm, 44, rfl⟩
abbrev main_v29 : Ref sig .tc := ⟨.hbm, 45, rfl⟩
abbrev main_c_5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_6 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_c_7 : Ref sig .tc := ⟨.hbm, 63, rfl⟩
abbrev main_v45 : Ref sig .tc := ⟨.hbm, 64, rfl⟩
abbrev main_v46 : Ref sig .tc := ⟨.hbm, 65, rfl⟩
abbrev main_c_8 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_c_9 : Ref sig .tc := ⟨.hbm, 72, rfl⟩
abbrev main_v52 : Ref sig .tc := ⟨.hbm, 73, rfl⟩
abbrev main_v53 : Ref sig .tc := ⟨.hbm, 74, rfl⟩
abbrev main_c_10 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_c_11 : Ref sig .tc := ⟨.hbm, 81, rfl⟩
abbrev main_v59 : Ref sig .tc := ⟨.hbm, 82, rfl⟩
abbrev main_v60 : Ref sig .tc := ⟨.hbm, 83, rfl⟩
abbrev main_c_12 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16

abbrev nD : Nat := 1
abbrev τ : Topo := Topo.v7x

variable {F : FTy → Type} [FloatOps F]

abbrev grid0 : Pipeline.Grid := ⟨1, ![75], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![4], ![false]⟩

def k1_cond2 (i : grid1.Coords) : BitVec 1 :=
  let arg0 : BitVec 32 := BitVec.ofNat 32 (i 0).val
  let c3_i32 : BitVec 32 := 3#32
  let v37 : BitVec 1 := Scalar.cmpi .eq arg0 c3_i32
  let v38 : BitVec 32 := Scalar.extui v37
  let c0_i32_14 : BitVec 32 := 0#32
  let v39 : BitVec 1 := Scalar.cmpi .ne v38 c0_i32_14
  v39

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2048x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

class Facts₀ : Prop where
  concatenates_S100000x64_S50000x64_S150000x64_d0 : Shape.Concatenates [S100000x64, S50000x64] S150000x64 0
  bcast_S2000000_S2000000x1_0 : S2000000.BroadcastsInDim S2000000x1 (![0] : Fin 1 → Fin S2000000x1.rank)
  bcast_S_S2000000 : S_.BroadcastsInDim S2000000 (![] : Fin 0 → Fin S2000000.rank)
  bcast_S2000000x1_S2000000x64_0_1 : S2000000x1.BroadcastsInDim S2000000x64 (![0, 1] : Fin 2 → Fin S2000000x64.rank)
  bcast_S_S150000x64 : S_.BroadcastsInDim S150000x64 (![] : Fin 0 → Fin S150000x64.rank)
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  slices_S150000x64_S100000x64_0_0 : S150000x64.Slices ![0, 0] S100000x64
  slices_S150000x64_S50000x64_100000_0 : S150000x64.Slices ![100000, 0] S50000x64
  slices_S8192x2_S8192x1_0_1 : S8192x2.Slices ![0, 1] S8192x1
  shapeCasts_S8192x1_S8192 : S8192x1.ShapeCasts S8192
  bcast_S_S8192 : S_.BroadcastsInDim S8192 (![] : Fin 0 → Fin S8192.rank)
  bcast_S8192_S8192x1_0 : S8192.BroadcastsInDim S8192x1 (![0] : Fin 1 → Fin S8192x1.rank)
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  reduces_S2048x64_S2048 : S2048x64.Reduces [1] S2048
  shapeCasts_S2048_S2048x1 : S2048.ShapeCasts S2048x1
  reduces_S2048x1_S1 : S2048x1.Reduces [0] S1
  shapeCasts_S1_S1x1 : S1.ShapeCasts S1x1
  shapeCasts_S1x1_S_ : S1x1.ShapeCasts S_
  gather_S150000x64_S2000000x1_S2000000x64_1_0_n_n_0_1_164_wf : GatherDims.WF S150000x64 S2000000x1 S2000000x64 [1] [0] [] [0] [] 1 ![1, 64]
  scatter_S150000x64_S2000000x1_S2000000x64_1_0_0_1_wf : ScatterDims.WF S150000x64 S2000000x1 S2000000x64 [1] [0] [0] 1
  gather_S100000x64_S8192x1_S8192x64_1_0_n_n_0_1_164_wf : GatherDims.WF S100000x64 S8192x1 S8192x64 [1] [0] [] [0] [] 1 ![1, 64]
  gather_S50000x64_S8192x1_S8192x64_1_0_n_n_0_1_164_wf : GatherDims.WF S50000x64 S8192x1 S8192x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S150000x64.size a
  hwx0_0 : ∀ i : grid0.Coords, EltTy.bits .f32 = 32 ∨ (Rect.block (s := S150000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S150000x64.size a
  hwx0_1 : ∀ i : grid0.Coords, EltTy.bits .f32 = 32 ∨ (Rect.block (s := S150000x64) S2000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S150000x64.size a
  hwx0_2 : ∀ i : grid0.Coords, EltTy.bits .f32 = 32 ∨ (Rect.block (s := S150000x64) S2000x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x64.size a ≤ S150000x64.size a
  hwx0_3 : ∀ i : grid0.Coords, EltTy.bits .f32 = 32 ∨ (Rect.block (s := S150000x64) S2000x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x64.size a ≤ S150000x64.size a
  hwx0_4 : ∀ i : grid0.Coords, EltTy.bits .f32 = 32 ∨ (Rect.block (s := S150000x64) S2000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x64.size a ≤ S8192x64.size a
  hwx1_0 : ∀ i : grid1.Coords, EltTy.bits .f32 = 32 ∨ (Rect.block (s := S8192x64) S2048x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x64.size a ≤ S8192x64.size a
  hwx1_1 : ∀ i : grid1.Coords, EltTy.bits .f32 = 32 ∨ (Rect.block (s := S8192x64) S2048x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x64.size a ≤ S8192x64.size a
  hwx1_2 : ∀ i : grid1.Coords, EltTy.bits .f32 = 32 ∨ (Rect.block (s := S8192x64) S2048x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)

variable [Facts₀]

def gather_S150000x64_S2000000x1_S2000000x64_1_0_n_n_0_1_164 : GatherDims S150000x64 S2000000x1 S2000000x64 where
  offsetDims := [1]
  collapsedSliceDims := [0]
  operandBatchingDims := []
  startIndicesBatchingDims := []
  startIndexMap := [0]
  indexVectorDim := 1
  sliceSizes := ![1, 64]
  wf := gather_S150000x64_S2000000x1_S2000000x64_1_0_n_n_0_1_164_wf
def scatter_S150000x64_S2000000x1_S2000000x64_1_0_0_1 : ScatterDims S150000x64 S2000000x1 S2000000x64 where
  updateWindowDims := [1]
  insertedWindowDims := [0]
  scatterDimsToOperandDims := [0]
  indexVectorDim := 1
  wf := scatter_S150000x64_S2000000x1_S2000000x64_1_0_0_1_wf
def gather_S100000x64_S8192x1_S8192x64_1_0_n_n_0_1_164 : GatherDims S100000x64 S8192x1 S8192x64 where
  offsetDims := [1]
  collapsedSliceDims := [0]
  operandBatchingDims := []
  startIndicesBatchingDims := []
  startIndexMap := [0]
  indexVectorDim := 1
  sliceSizes := ![1, 64]
  wf := gather_S100000x64_S8192x1_S8192x64_1_0_n_n_0_1_164_wf
def gather_S50000x64_S8192x1_S8192x64_1_0_n_n_0_1_164 : GatherDims S50000x64 S8192x1 S8192x64 where
  offsetDims := [1]
  collapsedSliceDims := [0]
  operandBatchingDims := []
  startIndicesBatchingDims := []
  startIndexMap := [0]
  indexVectorDim := 1
  sliceSizes := ![1, 64]
  wf := gather_S50000x64_S8192x1_S8192x64_1_0_n_n_0_1_164_wf

abbrev win0_0 : Pipeline.Window sig grid0 :=
  Pipeline.Window.ofSpec (Memref.whole main_v0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v26) S2000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v39) S2000x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v40) S2000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v51) S2048x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v58) S2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v65) S2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v66) S1x1.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S100000x64 : Shape := ⟨2, ![100000, 64]⟩
abbrev S50000x64 : Shape := ⟨2, ![50000, 64]⟩
abbrev S2000000 : Shape := ⟨1, ![2000000]⟩
abbrev S8192 : Shape := ⟨1, ![8192]⟩
abbrev S8192x2 : Shape := ⟨2, ![8192, 2]⟩
abbrev S150000x64 : Shape := ⟨2, ![150000, 64]⟩
abbrev S2000000x1 : Shape := ⟨2, ![2000000, 1]⟩
abbrev S_ : Shape := ⟨0, ![]⟩
abbrev S2000000x64 : Shape := ⟨2, ![2000000, 64]⟩
abbrev S8192x1 : Shape := ⟨2, ![8192, 1]⟩
abbrev S8192x64 : Shape := ⟨2, ![8192, 64]⟩

abbrev nBuf : Space → Nat
  | .hbm => 122
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S50000x64, .f32⟩
  | .hbm, ⟨2, _⟩ => ⟨S2000000, .i32⟩
  | .hbm, ⟨3, _⟩ => ⟨S2000000, .i32⟩
  | .hbm, ⟨4, _⟩ => ⟨S2000000, .f32⟩
  | .hbm, ⟨5, _⟩ => ⟨S8192, .i32⟩
  | .hbm, ⟨6, _⟩ => ⟨S8192, .i32⟩
  | .hbm, ⟨7, _⟩ => ⟨S8192x2, .i32⟩
  | .hbm, ⟨8, _⟩ => ⟨S8192x2, .f32⟩
  | .hbm, ⟨9, _⟩ => ⟨S150000x64, .f32⟩
  | .hbm, ⟨10, _⟩ => ⟨S2000000x1, .f32⟩
  | .hbm, ⟨11, _⟩ => ⟨S_, .i32⟩
  | .hbm, ⟨12, _⟩ => ⟨S2000000, .i32⟩
  | .hbm, ⟨13, _⟩ => ⟨S2000000, .i1⟩
  | .hbm, ⟨14, _⟩ => ⟨S_, .i32⟩
  | .hbm, ⟨15, _⟩ => ⟨S2000000, .i32⟩
  | .hbm, ⟨16, _⟩ => ⟨S2000000, .i32⟩
  | .hbm, ⟨17, _⟩ => ⟨S2000000, .i32⟩
  | .hbm, ⟨18, _⟩ => ⟨S2000000x1, .i32⟩
  | .hbm, ⟨19, _⟩ => ⟨S2000000x64, .f32⟩
  | .hbm, ⟨20, _⟩ => ⟨S2000000x64, .f32⟩
  | .hbm, ⟨21, _⟩ => ⟨S2000000x64, .f32⟩
  | .hbm, ⟨22, _⟩ => ⟨S_, .f32⟩
  | .hbm, ⟨23, _⟩ => ⟨S150000x64, .f32⟩
  | .hbm, ⟨24, _⟩ => ⟨S2000000x1, .i32⟩
  | .hbm, ⟨25, _⟩ => ⟨S150000x64, .f32⟩
  | .hbm, ⟨26, _⟩ => ⟨S150000x64, .f32⟩
  | .hbm, ⟨27, _⟩ => ⟨S2000000x1, .f32⟩
  | .hbm, ⟨28, _⟩ => ⟨S_, .i32⟩
  | .hbm, ⟨29, _⟩ => ⟨S2000000, .i32⟩
  | .hbm, ⟨30, _⟩ => ⟨S2000000, .i1⟩
  | .hbm, ⟨31, _⟩ => ⟨S_, .i32⟩
  | .hbm, ⟨32, _⟩ => ⟨S2000000, .i32⟩
  | .hbm, ⟨33, _⟩ => ⟨S2000000, .i32⟩
  | .hbm, ⟨34, _⟩ => ⟨S2000000, .i32⟩
  | .hbm, ⟨35, _⟩ => ⟨S2000000x1, .i32⟩
  | .hbm, ⟨36, _⟩ => ⟨S2000000x64, .f32⟩
  | .hbm, ⟨37, _⟩ => ⟨S2000000x64, .f32⟩
  | .hbm, ⟨38, _⟩ => ⟨S2000000x64, .f32⟩
  | .hbm, ⟨39, _⟩ => ⟨S_, .f32⟩
  | .hbm, ⟨40, _⟩ => ⟨S150000x64, .f32⟩
  | .hbm, ⟨41, _⟩ => ⟨S2000000x1, .i32⟩
  | .hbm, ⟨42, _⟩ => ⟨S150000x64, .f32⟩
  | .hbm, ⟨43, _⟩ => ⟨S150000x64, .f32⟩
  | .hbm, ⟨44, _⟩ => ⟨S2000000x1, .f32⟩
  | .hbm, ⟨45, _⟩ => ⟨S_, .i32⟩
  | .hbm, ⟨46, _⟩ => ⟨S2000000, .i32⟩
  | .hbm, ⟨47, _⟩ => ⟨S2000000, .i1⟩
  | .hbm, ⟨48, _⟩ => ⟨S_, .i32⟩
  | .hbm, ⟨49, _⟩ => ⟨S2000000, .i32⟩
  | .hbm, ⟨50, _⟩ => ⟨S2000000, .i32⟩
  | .hbm, ⟨51, _⟩ => ⟨S2000000, .i32⟩
  | .hbm, ⟨52, _⟩ => ⟨S2000000x1, .i32⟩
  | .hbm, ⟨53, _⟩ => ⟨S2000000x64, .f32⟩
  | .hbm, ⟨54, _⟩ => ⟨S2000000x64, .f32⟩
  | .hbm, ⟨55, _⟩ => ⟨S2000000x64, .f32⟩
  | .hbm, ⟨56, _⟩ => ⟨S_, .f32⟩
  | .hbm, ⟨57, _⟩ => ⟨S150000x64, .f32⟩
  | .hbm, ⟨58, _⟩ => ⟨S2000000x1, .i32⟩
  | .hbm, ⟨59, _⟩ => ⟨S150000x64, .f32⟩
  | .hbm, ⟨60, _⟩ => ⟨S150000x64, .f32⟩
  | .hbm, ⟨61, _⟩ => ⟨S_, .f32⟩
  | .hbm, ⟨62, _⟩ => ⟨S150000x64, .f32⟩
  | .hbm, ⟨63, _⟩ => ⟨S150000x64, .f32⟩
  | .hbm, ⟨64, _⟩ => ⟨S100000x64, .f32⟩
  | .hbm, ⟨65, _⟩ => ⟨S50000x64, .f32⟩
  | .hbm, ⟨66, _⟩ => ⟨S8192x1, .i32⟩
  | .hbm, ⟨67, _⟩ => ⟨S8192, .i32⟩
  | .hbm, ⟨68, _⟩ => ⟨S8192x1, .i32⟩
  | .hbm, ⟨69, _⟩ => ⟨S8192, .i32⟩
  | .hbm, ⟨70, _⟩ => ⟨S_, .i32⟩
  | .hbm, ⟨71, _⟩ => ⟨S8192, .i32⟩
  | .hbm, ⟨72, _⟩ => ⟨S8192, .i1⟩
  | .hbm, ⟨73, _⟩ => ⟨S_, .i32⟩
  | .hbm, ⟨74, _⟩ => ⟨S8192, .i32⟩
  | .hbm, ⟨75, _⟩ => ⟨S8192, .i32⟩
  | .hbm, ⟨76, _⟩ => ⟨S8192, .i32⟩
  | .hbm, ⟨77, _⟩ => ⟨S8192x1, .i32⟩
  | .hbm, ⟨78, _⟩ => ⟨S8192x64, .f32⟩
  | .hbm, ⟨79, _⟩ => ⟨S_, .i32⟩
  | .hbm, ⟨80, _⟩ => ⟨S8192, .i32⟩
  | .hbm, ⟨81, _⟩ => ⟨S8192, .i1⟩
  | .hbm, ⟨82, _⟩ => ⟨S_, .i32⟩
  | .hbm, ⟨83, _⟩ => ⟨S8192, .i32⟩
  | .hbm, ⟨84, _⟩ => ⟨S8192, .i32⟩
  | .hbm, ⟨85, _⟩ => ⟨S8192, .i32⟩
  | .hbm, ⟨86, _⟩ => ⟨S8192x1, .i32⟩
  | .hbm, ⟨87, _⟩ => ⟨S8192x64, .f32⟩
  | .hbm, ⟨88, _⟩ => ⟨S_, .i32⟩
  | .hbm, ⟨89, _⟩ => ⟨S8192, .i32⟩
  | .hbm, ⟨90, _⟩ => ⟨S8192, .i1⟩
  | .hbm, ⟨91, _⟩ => ⟨S_, .i32⟩
  | .hbm, ⟨92, _⟩ => ⟨S8192, .i32⟩
  | .hbm, ⟨93, _⟩ => ⟨S8192, .i32⟩
  | .hbm, ⟨94, _⟩ => ⟨S8192, .i32⟩
  | .hbm, ⟨95, _⟩ => ⟨S8192x1, .i32⟩
  | .hbm, ⟨96, _⟩ => ⟨S8192x64, .f32⟩
  | .hbm, ⟨97, _⟩ => ⟨S8192x64, .f32⟩
  | .hbm, ⟨98, _⟩ => ⟨S_, .f32⟩
  | .hbm, ⟨99, _⟩ => ⟨S8192, .f32⟩
  | .hbm, ⟨100, _⟩ => ⟨S8192x64, .f32⟩
  | .hbm, ⟨101, _⟩ => ⟨S_, .f32⟩
  | .hbm, ⟨102, _⟩ => ⟨S8192, .f32⟩
  | .hbm, ⟨103, _⟩ => ⟨S8192, .f32⟩
  | .hbm, ⟨104, _⟩ => ⟨S_, .f32⟩
  | .hbm, ⟨105, _⟩ => ⟨S8192, .f32⟩
  | .hbm, ⟨106, _⟩ => ⟨S8192, .f32⟩
  | .hbm, ⟨107, _⟩ => ⟨S8192, .f32⟩
  | .hbm, ⟨108, _⟩ => ⟨S8192, .f32⟩
  | .hbm, ⟨109, _⟩ => ⟨S8192, .i1⟩
  | .hbm, ⟨110, _⟩ => ⟨S8192, .f32⟩
  | .hbm, ⟨111, _⟩ => ⟨S8192, .f32⟩
  | .hbm, ⟨112, _⟩ => ⟨S8192, .f32⟩
  | .hbm, ⟨113, _⟩ => ⟨S8192, .f32⟩
  | .hbm, ⟨114, _⟩ => ⟨S8192, .f32⟩
  | .hbm, ⟨115, _⟩ => ⟨S8192, .f32⟩
  | .hbm, ⟨116, _⟩ => ⟨S8192, .f32⟩
  | .hbm, ⟨117, _⟩ => ⟨S8192, .f32⟩
  | .hbm, ⟨118, _⟩ => ⟨S_, .f32⟩
  | .hbm, ⟨119, _⟩ => ⟨S_, .f32⟩
  | .hbm, ⟨120, _⟩ => ⟨S_, .f32⟩
  | .hbm, ⟨121, _⟩ => ⟨S_, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c_1 : Ref sig .tc := ⟨.hbm, 28, rfl⟩
abbrev main_v16 : Ref sig .tc := ⟨.hbm, 29, rfl⟩
abbrev main_v17 : Ref sig .tc := ⟨.hbm, 30, rfl⟩
abbrev main_c_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_4 : Ref sig .tc := ⟨.hbm, 45, rfl⟩
abbrev main_v30 : Ref sig .tc := ⟨.hbm, 46, rfl⟩
abbrev main_v31 : Ref sig .tc := ⟨.hbm, 47, rfl⟩
abbrev main_c_5 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_6 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_7 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_c_8 : Ref sig .tc := ⟨.hbm, 70, rfl⟩
abbrev main_v51 : Ref sig .tc := ⟨.hbm, 71, rfl⟩
abbrev main_v52 : Ref sig .tc := ⟨.hbm, 72, rfl⟩
abbrev main_c_9 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_c_10 : Ref sig .tc := ⟨.hbm, 79, rfl⟩
abbrev main_v58 : Ref sig .tc := ⟨.hbm, 80, rfl⟩
abbrev main_v59 : Ref sig .tc := ⟨.hbm, 81, rfl⟩
abbrev main_c_11 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_c_12 : Ref sig .tc := ⟨.hbm, 88, rfl⟩
abbrev main_v65 : Ref sig .tc := ⟨.hbm, 89, rfl⟩
abbrev main_v66 : Ref sig .tc := ⟨.hbm, 90, rfl⟩
abbrev main_c_13 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_cst_14 : Ref sig .tc := ⟨.hbm, 98, rfl⟩
abbrev main_v73 : Ref sig .tc := ⟨.hbm, 99, rfl⟩
abbrev main_v74 : Ref sig .tc := ⟨.hbm, 100, rfl⟩
abbrev main_cst_15 : Ref sig .tc := ⟨.hbm, 101, rfl⟩
abbrev main_v75 : Ref sig .tc := ⟨.hbm, 102, rfl⟩
abbrev main_v76 : Ref sig .tc := ⟨.hbm, 103, rfl⟩
abbrev main_call0_cst : Ref sig .tc := ⟨.hbm, 104, rfl⟩
abbrev main_call0_v0 : Ref sig .tc := ⟨.hbm, 105, rfl⟩
abbrev main_call0_v1 : Ref sig .tc := ⟨.hbm, 106, rfl⟩
abbrev main_call0_v2 : Ref sig .tc := ⟨.hbm, 107, rfl⟩
abbrev main_call0_v3 : Ref sig .tc := ⟨.hbm, 108, rfl⟩
abbrev main_call0_v4 : Ref sig .tc := ⟨.hbm, 109, rfl⟩
abbrev main_call0_v5 : Ref sig .tc := ⟨.hbm, 110, rfl⟩
abbrev main_call0_v6 : Ref sig .tc := ⟨.hbm, 111, rfl⟩
abbrev main_call0_v7 : Ref sig .tc := ⟨.hbm, 112, rfl⟩
abbrev main_call0_v8 : Ref sig .tc := ⟨.hbm, 113, rfl⟩
abbrev main_call0_v9 : Ref sig .tc := ⟨.hbm, 114, rfl⟩
abbrev main_call0_v10 : Ref sig .tc := ⟨.hbm, 115, rfl⟩
abbrev main_call0_v11 : Ref sig .tc := ⟨.hbm, 116, rfl⟩
abbrev main_v77 : Ref sig .tc := ⟨.hbm, 117, rfl⟩
abbrev main_cst_16 : Ref sig .tc := ⟨.hbm, 118, rfl⟩
abbrev main_v78 : Ref sig .tc := ⟨.hbm, 119, rfl⟩
abbrev main_cst_17 : Ref sig .tc := ⟨.hbm, 120, rfl⟩
abbrev main_v79 : Ref sig .tc := ⟨.hbm, 121, rfl⟩

abbrev nD : Nat := 1
abbrev τ : Topo := Topo.v7x

variable {F : FTy → Type} [FloatOps F]

class Facts₀ : Prop where
  concatenates_S100000x64_S50000x64_S150000x64_d0 : Shape.Concatenates [S100000x64, S50000x64] S150000x64 0
  bcast_S2000000_S2000000x1_0 : S2000000.BroadcastsInDim S2000000x1 (![0] : Fin 1 → Fin S2000000x1.rank)
  bcast_S_S2000000 : S_.BroadcastsInDim S2000000 (![] : Fin 0 → Fin S2000000.rank)
  bcast_S2000000x1_S2000000x64_0_1 : S2000000x1.BroadcastsInDim S2000000x64 (![0, 1] : Fin 2 → Fin S2000000x64.rank)
  bcast_S_S150000x64 : S_.BroadcastsInDim S150000x64 (![] : Fin 0 → Fin S150000x64.rank)
  slices_S150000x64_S100000x64_0_0 : S150000x64.Slices ![0, 0] S100000x64
  slices_S150000x64_S50000x64_100000_0 : S150000x64.Slices ![100000, 0] S50000x64
  slices_S8192x2_S8192x1_0_0 : S8192x2.Slices ![0, 0] S8192x1
  shapeCasts_S8192x1_S8192 : S8192x1.ShapeCasts S8192
  slices_S8192x2_S8192x1_0_1 : S8192x2.Slices ![0, 1] S8192x1
  bcast_S_S8192 : S_.BroadcastsInDim S8192 (![] : Fin 0 → Fin S8192.rank)
  bcast_S8192_S8192x1_0 : S8192.BroadcastsInDim S8192x1 (![0] : Fin 1 → Fin S8192x1.rank)
  reducesTo_S8192x64_S8192_d1 : S8192x64.ReducesTo [1] S8192
  h_S_ : 0 < S_.numel
  reducesTo_S8192_S_d0 : S8192.ReducesTo [0] S_
  gather_S150000x64_S2000000x1_S2000000x64_1_0_n_n_0_1_164_wf : GatherDims.WF S150000x64 S2000000x1 S2000000x64 [1] [0] [] [0] [] 1 ![1, 64]
  scatter_S150000x64_S2000000x1_S2000000x64_1_0_0_1_wf : ScatterDims.WF S150000x64 S2000000x1 S2000000x64 [1] [0] [0] 1
  gather_S100000x64_S8192x1_S8192x64_1_0_n_n_0_1_164_wf : GatherDims.WF S100000x64 S8192x1 S8192x64 [1] [0] [] [0] [] 1 ![1, 64]
  gather_S50000x64_S8192x1_S8192x64_1_0_n_n_0_1_164_wf : GatherDims.WF S50000x64 S8192x1 S8192x64 [1] [0] [] [0] [] 1 ![1, 64]

variable [Facts₀]

def gather_S150000x64_S2000000x1_S2000000x64_1_0_n_n_0_1_164 : GatherDims S150000x64 S2000000x1 S2000000x64 where
  offsetDims := [1]
  collapsedSliceDims := [0]
  operandBatchingDims := []
  startIndicesBatchingDims := []
  startIndexMap := [0]
  indexVectorDim := 1
  sliceSizes := ![1, 64]
  wf := gather_S150000x64_S2000000x1_S2000000x64_1_0_n_n_0_1_164_wf
def scatter_S150000x64_S2000000x1_S2000000x64_1_0_0_1 : ScatterDims S150000x64 S2000000x1 S2000000x64 where
  updateWindowDims := [1]
  insertedWindowDims := [0]
  scatterDimsToOperandDims := [0]
  indexVectorDim := 1
  wf := scatter_S150000x64_S2000000x1_S2000000x64_1_0_0_1_wf
def gather_S100000x64_S8192x1_S8192x64_1_0_n_n_0_1_164 : GatherDims S100000x64 S8192x1 S8192x64 where
  offsetDims := [1]
  collapsedSliceDims := [0]
  operandBatchingDims := []
  startIndicesBatchingDims := []
  startIndexMap := [0]
  indexVectorDim := 1
  sliceSizes := ![1, 64]
  wf := gather_S100000x64_S8192x1_S8192x64_1_0_n_n_0_1_164_wf
def gather_S50000x64_S8192x1_S8192x64_1_0_n_n_0_1_164 : GatherDims S50000x64 S8192x1 S8192x64 where
  offsetDims := [1]
  collapsedSliceDims := [0]
  operandBatchingDims := []
  startIndicesBatchingDims := []
  startIndexMap := [0]
  indexVectorDim := 1
  sliceSizes := ![1, 64]
  wf := gather_S50000x64_S8192x1_S8192x64_1_0_n_n_0_1_164_wf

class Facts : Prop extends Facts₀ where

variable [Facts]
-- ==== Proof.BitsPool.lean ====
/-
  Region 0 (the pooling call), for any float instance: what each grid point's body does to its five staging
  buffers, as the pipeline's proof data and body obligation.

  The grid has 75 points; point t stages rows [2000 t, 2000 t + 2000) of each of the four layer tables (windows
  0-3, inputs, fetched at every point) and of the pooled table (window 4, the output, written back at every
  point). The body loads the four input blocks whole, adds them from the left, scales the sum, and stores the
  result over the whole output block: one store whose rectangle is the block, so the block afterwards is that
  one payload. The region's invariant is the bare one: the scoped buffers it does not stage and the generator
  register pass through untouched, and the core owes nothing.
-/
import proofs.«136069_j31147102830628_1_alg».proof.Proof.Gen.Kernel.Launch
import proofs.«136069_j31147102830628_1_alg».proof.Proof.Gen.Kernel.Skeleton
import proofs.«136069_j31147102830628_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Pool

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t: rows [2000 t, 2000 t + 2000) of its table, as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole [2000, 64] block as one rectangle. -/
abbrev whole : Rect S2000x64 := Rect.unit (s := S2000x64) ![0, 0] S2000x64.size inb_S2000x64_S2000x64_0_0

/-- The output block after the body, from the four input blocks: its one whole-block store read back. -/
def pooled (x0 x1 x2 x3 : Vec F S2000x64 .f32) : Vec F S2000x64 .f32 :=
  View.canon [⟨whole, k0_pay1 (View.ld x0 whole) (View.ld x1 whole) (View.ld x2 whole) (View.ld x3 whole)⟩]

/-- The one store's rectangle is the block: it covers every index. -/
theorem whole_covers (p : Vec F S2000x64 .f32) (y : S2000x64.Idx) :
    ∃ pc ∈ ([⟨whole, p⟩] : List (View.Piece (Elt F) S2000x64 .f32)), y ∈ pc.1.set :=
  View.cover_of_tiled [⟨whole, p⟩] S2000x64.size (by rfl) y

set_option maxHeartbeats 2000000 in
/-- The body on whole staging buffers: the four inputs at x0 … x3 and the output at anything; it ends with the
    inputs as they were and the output at `pooled x0 x1 x2 x3`. -/
theorem body_triple (c : Dev nD) (E : Set ℕ) (i : grid0.Coords)
    (a1 : Memref sig .tc .vmem S2000x64 .f32) (h1 : a1.IsWhole) (a2 : Memref sig .tc .vmem S2000x64 .f32) (h2 : a2.IsWhole)
    (a3 : Memref sig .tc .vmem S2000x64 .f32) (h3 : a3.IsWhole) (a4 : Memref sig .tc .vmem S2000x64 .f32) (h4 : a4.IsWhole)
    (a5 : Memref sig .tc .vmem S2000x64 .f32) (h5 : a5.IsWhole)
    (x0 x1 x2 x3 : Vec F S2000x64 .f32) (K : PUnit → sProp 𝕄) :
    iprop(owns (c : Thread nD τ) a1 fullShare x0 ∗ owns (c : Thread nD τ) a2 fullShare x1
        ∗ owns (c : Thread nD τ) a3 fullShare x2 ∗ owns (c : Thread nD τ) a4 fullShare x3
        ∗ (∃ d, owns (c : Thread nD τ) a5 fullShare d)
        ∗ (iprop(owns (c : Thread nD τ) a1 fullShare x0 ∗ owns (c : Thread nD τ) a2 fullShare x1
            ∗ owns (c : Thread nD τ) a3 fullShare x2 ∗ owns (c : Thread nD τ) a4 fullShare x3
            ∗ owns (c : Thread nD τ) a5 fullShare (pooled x0 x1 x2 x3)) -∗ K ⟨⟩))
      ⊢ wp frame (wpE (defs₀ (F := F)) Variants.none c none) E (cc0__meanpool_kernel i a1 h1 a2 h2 a3 h3 a4 h4 a5 h5) K := by
  simp only [cc0__meanpool_kernel_eq_skeleton]; unfold cc0__meanpool_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (whole_covers _)

/-- The proof data of the pooling pipeline on core c: the tables as the region finds them; after the body at
    point t each input buffer still at its block and the output buffer at the pooled block; the bare invariant;
    full shares; nothing owed. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => blk V c 3 t
    | ⟨4, _⟩ => pooled (blk V c 0 t) (blk V c 1 t) (blk V c 2 t) (blk V c 3 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = blk V c 0 t := by dsimp only [dat]
theorem after_1 (c : Dev nD) (t : Fin cfg0.N) : (dat V c).after 1 t = blk V c 1 t := by dsimp only [dat]
theorem after_2 (c : Dev nD) (t : Fin cfg0.N) : (dat V c).after 2 t = blk V c 2 t := by dsimp only [dat]
theorem after_3 (c : Dev nD) (t : Fin cfg0.N) : (dat V c).after 3 t = blk V c 3 t := by dsimp only [dat]
theorem after_4 (c : Dev nD) (t : Fin cfg0.N) :
    (dat V c).after 4 t = pooled (blk V c 0 t) (blk V c 1 t) (blk V c 2 t) (blk V c 3 t) := by dsimp only [dat]

/-- An input buffer holds its block when the body runs, fetched at this point or not: the body leaves the block in
    place and the window is never idle, so an unfetched buffer still holds the block of an unmoved index. -/
theorem before_0 (c : Dev nD) (t : Fin cfg0.N) (d) : (dat V c).before 0 t d = blk V c 0 t :=
  ((dat V c).before_in_eq_fetched 0 rfl (fun _ => rfl) (fun _ _ _ => rfl)
    (fun t => by rw [after_0]; unfold Dat.blockOf blk; rw [A_eq]; try rfl) t d).trans
    (by unfold Dat.fetched Dat.blockOf blk; rw [A_eq]; try rfl)
theorem before_1 (c : Dev nD) (t : Fin cfg0.N) (d) : (dat V c).before 1 t d = blk V c 1 t :=
  ((dat V c).before_in_eq_fetched 1 rfl (fun _ => rfl) (fun _ _ _ => rfl)
    (fun t => by rw [after_1]; unfold Dat.blockOf blk; rw [A_eq]; try rfl) t d).trans
    (by unfold Dat.fetched Dat.blockOf blk; rw [A_eq]; try rfl)
theorem before_2 (c : Dev nD) (t : Fin cfg0.N) (d) : (dat V c).before 2 t d = blk V c 2 t :=
  ((dat V c).before_in_eq_fetched 2 rfl (fun _ => rfl) (fun _ _ _ => rfl)
    (fun t => by rw [after_2]; unfold Dat.blockOf blk; rw [A_eq]; try rfl) t d).trans
    (by unfold Dat.fetched Dat.blockOf blk; rw [A_eq]; try rfl)
theorem before_3 (c : Dev nD) (t : Fin cfg0.N) (d) : (dat V c).before 3 t d = blk V c 3 t :=
  ((dat V c).before_in_eq_fetched 3 rfl (fun _ => rfl) (fun _ _ _ => rfl)
    (fun t => by rw [after_3]; unfold Dat.blockOf blk; rw [A_eq]; try rfl) t d).trans
    (by unfold Dat.fetched Dat.blockOf blk; rw [A_eq]; try rfl)

/-- The body at any point: its inputs hold their blocks, so the triple applies; the invariant and the core's
    debts pass through unread. -/
theorem body_at (c : Dev nD) (t : Fin cfg0.N) :
    iprop((dat V c).Φ t.castSucc ∗ (dat V c).owesAt () t.castSucc
      ∗ (∃ d, owns (c : Thread nD τ) (st0_0 t) fullShare ((dat V c).before 0 t d))
      ∗ (∃ d, owns (c : Thread nD τ) (st0_1 t) fullShare ((dat V c).before 1 t d))
      ∗ (∃ d, owns (c : Thread nD τ) (st0_2 t) fullShare ((dat V c).before 2 t d))
      ∗ (∃ d, owns (c : Thread nD τ) (st0_3 t) fullShare ((dat V c).before 3 t d))
      ∗ (∃ d, owns (c : Thread nD τ) (st0_4 t) fullShare ((dat V c).before 4 t d)))
    ⊢ wp frame (wpE (defs₀ (F := F)) Variants.none c none) Set.univ (bodyAt0 t) (fun _ =>
      iprop((dat V c).Φ t.succ ∗ (dat V c).owesAt () t.succ
        ∗ owns (c : Thread nD τ) (st0_0 t) fullShare ((dat V c).after 0 t)
        ∗ owns (c : Thread nD τ) (st0_1 t) fullShare ((dat V c).after 1 t)
        ∗ owns (c : Thread nD τ) (st0_2 t) fullShare ((dat V c).after 2 t)
        ∗ owns (c : Thread nD τ) (st0_3 t) fullShare ((dat V c).after 3 t)
        ∗ owns (c : Thread nD τ) (st0_4 t) fullShare ((dat V c).after 4 t))) := by
  unfold bodyAt0
  simp only [before_0, before_1, before_2, before_3]
  rw [show (dat V c).Φ t.succ = (dat V c).Φ t.castSucc from rfl,
    show (dat V c).owesAt () t.succ = (dat V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (body_triple c Set.univ _ _ _ _ _ _ _ _ _ _ _ (blk V c 0 t) (blk V c 1 t) (blk V c 2 t) (blk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation (c : Dev nD) : BodyObligation (dat (F := F) V c) (defs₀ (F := F)) Variants.none () Set.univ := fun t => by
  rw [bigSep_W0, bigSep_W0]
  exact body_at V c t

end Cert.Kernel.Pool

end
-- ==== Proof.BitsLoss.lean ====
/-
  Region 1 (the loss call), for any float instance: what each of its four grid points does to its staging buffers
  and to the one-cell scratch accumulator it carries from point to point.

  Point t stages rows [2048 t, 2048 t + 2048) of the three gathered embedding tables (windows 0-2: user, adjacent
  item, strong item; inputs fetched at every point); window 3, the [1, 1] result, keeps one block for the whole
  grid and is written back after the last point only. The body: at the first point it resets the accumulator to
  zero; at every point it adds the block's summed row losses to the accumulator; at the last point it stores the
  accumulator, scaled, into the result block. So after point n the accumulator holds the n-fold nested block
  payload over the zero payload, and the result block is named only at the last point — at the other points the
  window is idle and its buffer is handed back as found.

  The invariant before the first point is the bare one (every scoped buffer the call does not stage at some
  contents, the generator register at some state); after point n it holds the scratch cell at the accumulator's
  value, the other scoped buffers unopened, and the register.
-/
import proofs.«136069_j31147102830628_1_alg».proof.Proof.Gen.Kernel.Launch
import proofs.«136069_j31147102830628_1_alg».proof.Proof.Gen.Kernel.Skeleton
import proofs.«136069_j31147102830628_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Loss

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Whole-block rectangles -/

theorem off0 : (![0, 0] : Fin 2 → Nat) = fun _ => 0 := by funext a; fin_cases a <;> rfl

/-- A rectangle at offset zero with the shape's own extents holds every index. -/
theorem mem_whole_rect {S : Shape} {off : Fin S.rank → Nat} (h : off = fun _ => 0) (inb : ∀ a, off a + S.size a ≤ S.size a)
    (y : S.Idx) : y ∈ (Rect.unit off S.size inb).set := by
  subst h; show y ∈ (Rect.whole S).set; rw [Rect.set_whole]; exact Finset.mem_univ y

/-- After a list of stores whose LAST is a whole-block store of w, the buffer reads w. -/
theorem read_after_whole_store {sg : RefSig} {κ : Kind} {sp : Space} {S : Shape} {e : EltTy} (v : View sg κ sp S e)
    (f : v.ty.Contents (Elt F)) {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self .., mem_whole_rect h inb y⟩),
    View.canon_cons_unit_zero h inb]

/-! ## The body's three cases -/

set_option maxHeartbeats 4000000 in
/-- The first point: the accumulator, whatever it held, is reset and then holds the first block's payload over zero;
    the result block keeps what it held. -/
theorem first_triple (c : Dev nD) (E : Set ℕ) (i : grid1.Coords)
    (a1 : Memref sig .tc .vmem S2048x64 .f32) (h1 : a1.IsWhole) (a2 : Memref sig .tc .vmem S2048x64 .f32) (h2 : a2.IsWhole)
    (a3 : Memref sig .tc .vmem S2048x64 .f32) (h3 : a3.IsWhole) (a4 : Memref sig .tc .vmem S1x1 .f32) (h4 : a4.IsWhole)
    (a5 : Memref sig .tc .vmem S1x1 .f32) (h5 : a5.IsWhole)
    (x0 x1 x2 : Vec F S2048x64 .f32) (K : PUnit → sProp 𝕄) (y : Vec F S1x1 .f32) (hi : (i 0).val = 0) :
    iprop(owns (c : Thread nD τ) a1 fullShare x0 ∗ owns (c : Thread nD τ) a2 fullShare x1
        ∗ owns (c : Thread nD τ) a3 fullShare x2 ∗ owns (c : Thread nD τ) a4 fullShare y
        ∗ (∃ d, owns (c : Thread nD τ) a5 fullShare d)
        ∗ (iprop(owns (c : Thread nD τ) a1 fullShare x0 ∗ owns (c : Thread nD τ) a2 fullShare x1
            ∗ owns (c : Thread nD τ) a3 fullShare x2 ∗ owns (c : Thread nD τ) a4 fullShare y
            ∗ owns (c : Thread nD τ) a5 fullShare (k1_pay3 x0 x1 x2 k1_pay2)) -∗ K ⟨⟩))
      ⊢ wp frame (wpE (defs₀ (F := F)) Variants.none c none) E (cc1__loss_kernel i a1 h1 a2 h2 a3 h3 a4 h4 a5 h5) K := by
  have hr : Scalar.cmpi .ne (Scalar.extui (Scalar.cmpi .eq (BitVec.ofNat 32 (i 0).val) 0#32)) 0#32 = 1#1 := by rw [hi]; decide
  have hl : ¬ (k1_cond2 i = 1#1) := by unfold k1_cond2; rw [hi]; decide
  simp only [cc1__loss_kernel_eq_skeleton]; unfold cc1__loss_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  sl_unfold_words
  rw [read_after_whole_store _ _ off0, View.readCov_unit_zero _ off0]
  simp only [View.readAt_eq_ld, View.ld_unit_zero (S := S2048x64) off0]

set_option maxHeartbeats 4000000 in
/-- A middle point: the accumulator at a ends at this block's payload over a; the result block keeps what it held. -/
theorem middle_triple (c : Dev nD) (E : Set ℕ) (i : grid1.Coords)
    (a1 : Memref sig .tc .vmem S2048x64 .f32) (h1 : a1.IsWhole) (a2 : Memref sig .tc .vmem S2048x64 .f32) (h2 : a2.IsWhole)
    (a3 : Memref sig .tc .vmem S2048x64 .f32) (h3 : a3.IsWhole) (a4 : Memref sig .tc .vmem S1x1 .f32) (h4 : a4.IsWhole)
    (a5 : Memref sig .tc .vmem S1x1 .f32) (h5 : a5.IsWhole)
    (x0 x1 x2 : Vec F S2048x64 .f32) (K : PUnit → sProp 𝕄) (y a : Vec F S1x1 .f32) (hi0 : (i 0).val ≠ 0) (hi3 : (i 0).val ≠ 3) :
    iprop(owns (c : Thread nD τ) a1 fullShare x0 ∗ owns (c : Thread nD τ) a2 fullShare x1
        ∗ owns (c : Thread nD τ) a3 fullShare x2 ∗ owns (c : Thread nD τ) a4 fullShare y
        ∗ owns (c : Thread nD τ) a5 fullShare a
        ∗ (iprop(owns (c : Thread nD τ) a1 fullShare x0 ∗ owns (c : Thread nD τ) a2 fullShare x1
            ∗ owns (c : Thread nD τ) a3 fullShare x2 ∗ owns (c : Thread nD τ) a4 fullShare y
            ∗ owns (c : Thread nD τ) a5 fullShare (k1_pay3 x0 x1 x2 a)) -∗ K ⟨⟩))
      ⊢ wp frame (wpE (defs₀ (F := F)) Variants.none c none) E (cc1__loss_kernel i a1 h1 a2 h2 a3 h3 a4 h4 a5 h5) K := by
  have hlt : (i 0).val < 4 := (i 0).isLt
  have hr : ¬ (Scalar.cmpi .ne (Scalar.extui (Scalar.cmpi .eq (BitVec.ofNat 32 (i 0).val) 0#32)) 0#32 = 1#1) := by
    have : (i 0).val = 1 ∨ (i 0).val = 2 := by omega
    rcases this with h | h <;> rw [h] <;> decide
  have hl : ¬ (k1_cond2 i = 1#1) := by
    have : (i 0).val = 1 ∨ (i 0).val = 2 := by omega
    unfold k1_cond2
    rcases this with h | h <;> rw [h] <;> decide
  simp only [cc1__loss_kernel_eq_skeleton]; unfold cc1__loss_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  rw [read_after_whole_store _ _ off0]
  simp only [View.readAt_eq_ld, View.ld_unit_zero (S := S2048x64) off0, View.ld_unit_zero (S := S1x1) off0]

set_option maxHeartbeats 4000000 in
/-- The last point: the accumulator at a ends at this block's payload over a, and the result block, whatever it
    held, ends at that value scaled. -/
theorem last_triple (c : Dev nD) (E : Set ℕ) (i : grid1.Coords)
    (a1 : Memref sig .tc .vmem S2048x64 .f32) (h1 : a1.IsWhole) (a2 : Memref sig .tc .vmem S2048x64 .f32) (h2 : a2.IsWhole)
    (a3 : Memref sig .tc .vmem S2048x64 .f32) (h3 : a3.IsWhole) (a4 : Memref sig .tc .vmem S1x1 .f32) (h4 : a4.IsWhole)
    (a5 : Memref sig .tc .vmem S1x1 .f32) (h5 : a5.IsWhole)
    (x0 x1 x2 : Vec F S2048x64 .f32) (K : PUnit → sProp 𝕄) (a : Vec F S1x1 .f32) (hi : (i 0).val = 3) :
    iprop(owns (c : Thread nD τ) a1 fullShare x0 ∗ owns (c : Thread nD τ) a2 fullShare x1
        ∗ owns (c : Thread nD τ) a3 fullShare x2 ∗ (∃ d, owns (c : Thread nD τ) a4 fullShare d)
        ∗ owns (c : Thread nD τ) a5 fullShare a
        ∗ (iprop(owns (c : Thread nD τ) a1 fullShare x0 ∗ owns (c : Thread nD τ) a2 fullShare x1
            ∗ owns (c : Thread nD τ) a3 fullShare x2 ∗ owns (c : Thread nD τ) a4 fullShare (k1_pay1 (k1_pay3 x0 x1 x2 a))
            ∗ owns (c : Thread nD τ) a5 fullShare (k1_pay3 x0 x1 x2 a)) -∗ K ⟨⟩))
      ⊢ wp frame (wpE (defs₀ (F := F)) Variants.none c none) E (cc1__loss_kernel i a1 h1 a2 h2 a3 h3 a4 h4 a5 h5) K := by
  have hr : ¬ (Scalar.cmpi .ne (Scalar.extui (Scalar.cmpi .eq (BitVec.ofNat 32 (i 0).val) 0#32)) 0#32 = 1#1) := by rw [hi]; decide
  have hl : k1_cond2 i = 1#1 := by unfold k1_cond2; rw [hi]; decide
  simp only [cc1__loss_kernel_eq_skeleton]; unfold cc1__loss_kernel_skel
  simp only [k1_part1_eq_skeleton]; unfold k1_part1_skel
  unfold owns
  iintro ⟨⟨%f0, %hf0, H0⟩, ⟨%f1, %hf1, H1⟩, ⟨%f2, %hf2, H2⟩, ⟨%d3, %f3, -, H3⟩, ⟨%f4, %hf4, H4⟩, Hk⟩
  subst hf0; subst hf1; subst hf2; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_words
    refine (read_after_whole_store (S := S1x1) a4.view f3 off0 inb_S1x1_S1x1_0_0 _ []).trans ?_
    refine congrArg k1_pay1 ?_
    refine (View.readCov_unit_zero (S := S1x1) a5.view off0 inb_S1x1_S1x1_0_0 _).trans ?_
    simp only [View.readAt_eq_ld, View.ld_unit_zero (S := S2048x64) off0, View.ld_unit_zero (S := S1x1) off0]
  iexists _; isplitr
  swap; · iexact H4
  ipureintro
  sl_unfold_words
  rw [read_after_whole_store _ _ off0]
  simp only [View.readAt_eq_ld, View.ld_unit_zero (S := S2048x64) off0, View.ld_unit_zero (S := S1x1) off0]

/-! ## The blocks, the accumulator and the invariant -/

section Data

-- the TensorCore's buffer contents when the region is entered
variable (V : (c : Dev nD) → (b : Ref sig .tc) → Buf (Elt F) ((c : Thread nD τ).loc b))

/-- Window w's block at point t: rows [2048 t, 2048 t + 2048) of its table (the one result cell for window 3). -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem three_lt : 3 < cfg1.N := lt_of_lt_of_eq (by decide : 3 < 4) N_1.symm

/-- The accumulator after point n: the block payload of point n over the accumulator after point n - 1, over the
    zero payload at the first point. -/
def acc (c : Dev nD) : (n : ℕ) → n < cfg1.N → Vec F S1x1 .f32
  | 0, h => k1_pay3 (blk V c 0 ⟨0, h⟩) (blk V c 1 ⟨0, h⟩) (blk V c 2 ⟨0, h⟩) k1_pay2
  | n + 1, h => k1_pay3 (blk V c 0 ⟨n + 1, h⟩) (blk V c 1 ⟨n + 1, h⟩) (blk V c 2 ⟨n + 1, h⟩) (acc c n (Nat.lt_of_succ_lt h))

theorem acc_first (c : Dev nD) (t : Fin cfg1.N) (ht : t.val = 0) :
    acc V c t.val t.isLt = k1_pay3 (blk V c 0 t) (blk V c 1 t) (blk V c 2 t) k1_pay2 := by
  obtain ⟨n, hn⟩ := t; dsimp only at ht; subst ht; rfl

theorem acc_later (c : Dev nD) (t : Fin cfg1.N) (ht : t.val ≠ 0) :
    acc V c t.val t.isLt
      = k1_pay3 (blk V c 0 t) (blk V c 1 t) (blk V c 2 t) (acc V c (t.val - 1) (Nat.lt_of_le_of_lt (Nat.sub_le _ _) t.isLt)) := by
  obtain ⟨n, hn⟩ := t
  cases n with
  | zero => exact absurd rfl ht
  | succ n => rfl

/-- The result block after the last point: the last accumulator, scaled. -/
def result (c : Dev nD) : Vec F S1x1 .f32 := k1_pay1 (acc V c 3 three_lt)

/-- The scratch cell as a whole memref. -/
abbrev scr : Memref sig .tc .vmem S1x1 .f32 := Memref.whole cc1_scratch0

/-- The scoped buffers of the core other than this call's staging buffers and its scratch cell, unopened. -/
abbrev others (c : Dev nD) : sProp 𝕄 :=
  Pipeline.scopedRestBut (Ix := Unit) (Name := ℕ) (U := UR sig nD τ) (Lvl := ℕ) (Val := Elt F) spec1 c [cc1_scratch0]

/-- The invariant before position n: the bare one before the first point; then the scratch cell at the accumulator
    after point n - 1, the other scoped buffers unopened, the generator register at some state. -/
def Phi (c : Dev nD) : (n : ℕ) → n ≤ cfg1.N → sProp 𝕄
  | 0, _ => Pipeline.ΦA spec1 c
  | n + 1, hn => iprop((owns (c : Thread nD τ) scr fullShare (acc V c n hn) ∗ others c) ∗ ∃ r, prngReg c r)

theorem Phi_zero (c : Dev nD) (n : ℕ) (h : n ≤ cfg1.N) (hz : n = 0) : Phi V c n h = Pipeline.ΦA spec1 c := by
  subst hz; rfl

theorem Phi_succ (c : Dev nD) (n : ℕ) (hn : n < cfg1.N) :
    Phi V c (n + 1) hn = iprop((owns (c : Thread nD τ) scr fullShare (acc V c n hn) ∗ others c) ∗ ∃ r, prngReg c r) := rfl

theorem Phi_pos (c : Dev nD) (n : ℕ) (h : n ≤ cfg1.N) (hz : n ≠ 0) :
    Phi V c n h = iprop((owns (c : Thread nD τ) scr fullShare (acc V c (n - 1) (by omega)) ∗ others c) ∗ ∃ r, prngReg c r) := by
  cases n with
  | zero => exact absurd rfl hz
  | succ n => rfl

/-- The bare invariant with the scratch cell split off the scoped rest and owned, at some contents, as a memref. -/
theorem bare_split (c : Dev nD) :
    (Pipeline.ΦA spec1 c : sProp 𝕄)
      = iprop(((∃ d, owns (c : Thread nD τ) scr fullShare d) ∗ others c) ∗ ∃ r, prngReg c r) := by
  unfold Pipeline.ΦA
  rw [Pipeline.scopedRest_split_of_list spec1 c [cc1_scratch0] (by decide) (by decide)]
  simp only [bigSepL_singleton, scr, owns_whole]
  try rfl

end Data

/-! ## The proof data and the body obligation -/

section Body

-- the TensorCore's buffer contents when the region is entered
variable (V : (c : Dev nD) → (b : Ref sig .tc) → Buf (Elt F) ((c : Thread nD τ).loc b))

/-- The proof data of the loss pipeline on core c: the tables as the region finds them; after the body at point t
    each input buffer still at its block; the result buffer, where it is named at all (the last point), at the scaled
    last accumulator; the invariant above; full shares; nothing owed. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => result V c
  Φ t := Phi V c t.val (Nat.le_of_lt_succ t.isLt)
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) : (dat V c).after 2 t = blk V c 2 t := by dsimp only [dat]
theorem after_3 (c : Dev nD) (t : Fin cfg1.N) : (dat V c).after 3 t = result V c := by dsimp only [dat]

theorem Phi_start (c : Dev nD) (t : Fin cfg1.N) :
    (dat V c).Φ t.castSucc = Phi V c t.val (Nat.le_of_lt t.isLt) := by
  dsimp only [dat]; simp only [Fin.coe_castSucc]

/-- An input buffer holds its block when the body runs, fetched at this point or not. -/
theorem before_0 (c : Dev nD) (t : Fin cfg1.N) (d) : (dat V c).before 0 t d = blk V c 0 t :=
  ((dat V c).before_in_eq_fetched 0 rfl (fun _ => rfl) (fun _ _ _ => rfl)
    (fun t => by rw [after_0]; unfold Dat.blockOf blk; rw [A_eq]; try rfl) t d).trans
    (by unfold Dat.fetched Dat.blockOf blk; rw [A_eq]; try rfl)
theorem before_1 (c : Dev nD) (t : Fin cfg1.N) (d) : (dat V c).before 1 t d = blk V c 1 t :=
  ((dat V c).before_in_eq_fetched 1 rfl (fun _ => rfl) (fun _ _ _ => rfl)
    (fun t => by rw [after_1]; unfold Dat.blockOf blk; rw [A_eq]; try rfl) t d).trans
    (by unfold Dat.fetched Dat.blockOf blk; rw [A_eq]; try rfl)
theorem before_2 (c : Dev nD) (t : Fin cfg1.N) (d) : (dat V c).before 2 t d = blk V c 2 t :=
  ((dat V c).before_in_eq_fetched 2 rfl (fun _ => rfl) (fun _ _ _ => rfl)
    (fun t => by rw [after_2]; unfold Dat.blockOf blk; rw [A_eq]; try rfl) t d).trans
    (by unfold Dat.fetched Dat.blockOf blk; rw [A_eq]; try rfl)

/-! ### The schedule at the four points -/

/-- The grid is one axis of four points: a point's coordinate is its number. -/
theorem coord_val (t : Fin cfg1.N) : ((cfg1.grid.coords t) 0).val = t.val := by
  obtain rfl | rfl | rfl | rfl := fin_N1 t <;> rfl

/-- Away from the last point the result window is idle (the body stores nothing into it) … -/
theorem result_idle (t : Fin cfg1.N) (h : t.val ≠ 3) : cfg1.idle 3 (cfg1.grid.coords t) = true := by
  obtain rfl | rfl | rfl | rfl := fin_N1 t
  · decide
  · decide
  · decide
  · exact absurd rfl h

/-- … and is not written back; -/
theorem result_kept (t : Fin cfg1.N) (h : t.val ≠ 3) : (cfg1.win 3).flush t = false := by
  have hN : t.val < 4 := lt_of_lt_of_eq t.isLt N_1
  exact Bool.eq_false_iff.mpr fun hf => by have := (flush1_3 t).mp hf; omega

/-- at the last point it is live. -/
theorem result_live (t : Fin cfg1.N) (h : t.val = 3) : cfg1.idle 3 (cfg1.grid.coords t) = false := by
  obtain rfl | rfl | rfl | rfl := fin_N1 t
  · exact absurd h (by decide)
  · exact absurd h (by decide)
  · exact absurd h (by decide)
  · decide

theorem leaves_in (c : Dev nD) (w : Fin cfg1.W) (t : Fin cfg1.N) (h : cfg1.idle w (cfg1.grid.coords t) = false) :
    (dat V c).leavesExact w t = owns (c : Thread nD τ) ((cfg1.win w).stage (cfg1.slots t w)) fullShare ((dat V c).after w t) := by
  unfold Dat.leavesExact; rw [h]

/-- What the body is called with at point t, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d)))

/-- and what it returns. -/
def bodyPost (c : Dev nD) (t : Fin cfg1.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t)

set_option maxHeartbeats 2000000 in
/-- The first point: the bare invariant hands over the scratch cell at anything; the cell comes back at the first
    accumulator; the result buffer goes back as found. -/
theorem body_first (c : Dev nD) (t : Fin cfg1.N) (ht : t.val = 0) :
    bodyPre V c t ⊢ wp frame (wpE (defs₀ (F := F)) Variants.none c none) Set.univ (bodyAt1 t) (fun _ => bodyPost V c t) := by
  have h3 : t.val ≠ 3 := by omega
  unfold bodyPre bodyPost bodyAt1
  simp only [before_0, before_1, before_2]
  rw [show (dat V c).owesAt () t.succ = (dat V c).owesAt () t.castSucc from rfl,
    show (dat V c).Φ t.succ = Phi V c (t.val + 1) t.isLt from rfl, Phi_succ, acc_first V c t ht,
    Phi_start, Phi_zero V c _ _ ht, bare_split,
    leaves_in V c 0 t rfl, leaves_in V c 1 t rfl, leaves_in V c 2 t rfl, after_0, after_1, after_2,
    Dat.leavesExact_idle (dat V c) 3 t (result_idle t h3) (result_kept t h3)]
  iintro ⟨⟨⟨Hs, Hoth⟩, Hg⟩, Ho, ⟨%d0, H0⟩, ⟨%d1, H1⟩, ⟨%d2, H2⟩, ⟨%d3, H3⟩⟩
  iapply (first_triple c Set.univ _ _ _ _ _ _ _ _ _ _ _ (blk V c 0 t) (blk V c 1 t) (blk V c 2 t) _
    ((dat V c).before 3 t d3) ((coord_val t).trans ht))
  isplitl [H0]; · iexact H0
  isplitl [H1]; · iexact H1
  isplitl [H2]; · iexact H2
  isplitl [H3]; · iexact H3
  isplitl [Hs]; · iexact Hs
  iintro ⟨H0, H1, H2, H3, Hs⟩
  isplitl [Hs Hoth Hg]
  · isplitr [Hg]
    · isplitl [Hs]; · iexact Hs
      iexact Hoth
    iexact Hg
  isplitl [Ho]; · iexact Ho
  isplitl [H0]; · iexact H0
  isplitl [H1]; · iexact H1
  isplitl [H2]; · iexact H2
  iexists d3; iexact H3

set_option maxHeartbeats 2000000 in
/-- A middle point: the scratch cell goes from the previous accumulator to this point's; the result buffer goes
    back as found. -/
theorem body_middle (c : Dev nD) (t : Fin cfg1.N) (ht0 : t.val ≠ 0) (ht3 : t.val ≠ 3) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).owesAt () t.succ = (dat V c).owesAt () t.castSucc from rfl,
    show (dat V c).Φ t.succ = Phi V c (t.val + 1) t.isLt from rfl, Phi_succ, acc_later V c t ht0,
    Phi_start, Phi_pos V c _ _ ht0,
    leaves_in V c 0 t rfl, leaves_in V c 1 t rfl, leaves_in V c 2 t rfl, after_0, after_1, after_2,
    Dat.leavesExact_idle (dat V c) 3 t (result_idle t ht3) (result_kept t ht3)]
  iintro ⟨⟨⟨Hs, Hoth⟩, Hg⟩, Ho, ⟨%d0, H0⟩, ⟨%d1, H1⟩, ⟨%d2, H2⟩, ⟨%d3, H3⟩⟩
  iapply (middle_triple c Set.univ _ _ _ _ _ _ _ _ _ _ _ (blk V c 0 t) (blk V c 1 t) (blk V c 2 t) _
    ((dat V c).before 3 t d3) _ (by rw [coord_val]; exact ht0) (by rw [coord_val]; exact ht3))
  isplitl [H0]; · iexact H0
  isplitl [H1]; · iexact H1
  isplitl [H2]; · iexact H2
  isplitl [H3]; · iexact H3
  isplitl [Hs]; · iexact Hs
  iintro ⟨H0, H1, H2, H3, Hs⟩
  isplitl [Hs Hoth Hg]
  · isplitr [Hg]
    · isplitl [Hs]; · iexact Hs
      iexact Hoth
    iexact Hg
  isplitl [Ho]; · iexact Ho
  isplitl [H0]; · iexact H0
  isplitl [H1]; · iexact H1
  isplitl [H2]; · iexact H2
  iexists d3; iexact H3

theorem acc_at (c : Dev nD) (n n' : ℕ) (h : n = n') (hn : n < cfg1.N) (hn' : n' < cfg1.N) : acc V c n hn = acc V c n' hn' := by
  subst h; rfl

set_option maxHeartbeats 2000000 in
/-- The last point: the scratch cell goes from the previous accumulator to the last one, and the result buffer,
    whatever it held, ends at the last accumulator scaled. -/
theorem body_last (c : Dev nD) (t : Fin cfg1.N) (ht : t.val = 3) :
    bodyPre V c t ⊢ wp frame (wpE (defs₀ (F := F)) Variants.none c none) Set.univ (bodyAt1 t) (fun _ => bodyPost V c t) := by
  have ht0 : t.val ≠ 0 := by omega
  unfold bodyPre bodyPost bodyAt1
  simp only [before_0, before_1, before_2]
  rw [show (dat V c).owesAt () t.succ = (dat V c).owesAt () t.castSucc from rfl,
    show (dat V c).Φ t.succ = Phi V c (t.val + 1) t.isLt from rfl, Phi_succ,
    Phi_start, Phi_pos V c _ _ ht0,
    leaves_in V c 0 t rfl, leaves_in V c 1 t rfl, leaves_in V c 2 t rfl, leaves_in V c 3 t (result_live t ht),
    after_0, after_1, after_2, after_3,
    show result V c = k1_pay1 (acc V c t.val t.isLt) from by unfold result; rw [acc_at V c 3 t.val ht.symm],
    acc_later V c t ht0]
  iintro ⟨⟨⟨Hs, Hoth⟩, Hg⟩, Ho, ⟨%d0, H0⟩, ⟨%d1, H1⟩, ⟨%d2, H2⟩, ⟨%d3, H3⟩⟩
  iapply (last_triple c Set.univ _ _ _ _ _ _ _ _ _ _ _ (blk V c 0 t) (blk V c 1 t) (blk V c 2 t) _
    _ ((coord_val t).trans ht))
  isplitl [H0]; · iexact H0
  isplitl [H1]; · iexact H1
  isplitl [H2]; · iexact H2
  isplitl [H3]; · iexists _; iexact H3
  isplitl [Hs]; · iexact Hs
  iintro ⟨H0, H1, H2, H3, Hs⟩
  isplitl [Hs Hoth Hg]
  · isplitr [Hg]
    · isplitl [Hs]; · iexact Hs
      iexact Hoth
    iexact Hg
  isplitl [Ho]; · iexact Ho
  isplitl [H0]; · iexact H0
  isplitl [H1]; · iexact H1
  isplitl [H2]; · iexact H2
  iexact H3

/-- The pipeline's body obligation, at every point: by the point's number. -/
theorem body_obligation (c : Dev nD) : BodyObligation (dat (F := F) V c) (defs₀ (F := F)) Variants.none () Set.univ := fun t => by
  rw [bigSep_W1, bigSep_W1]
  by_cases h0 : t.val = 0
  · exact body_first V c t h0
  · by_cases h3 : t.val = 3
    · exact body_last V c t h3
    · exact body_middle V c t h0 h3

/-- What the launch hands the region is the invariant before the first point. -/
theorem inv_in (c : Dev nD) : Pipeline.ΦA spec1 c ⊢ (dat V c).Φ 0 := by
  rw [show (dat V c).Φ 0 = Phi V c 0 (Nat.zero_le _) from rfl, Phi_zero V c 0 _ rfl]

/-- After the last point the invariant gives the bare one back: the scratch cell's contents are forgotten. -/
theorem inv_out (c : Dev nD) : (dat V c).Φ (Fin.last cfg1.N) ⊢ Pipeline.ΦA spec1 c := by
  rw [show (dat V c).Φ (Fin.last cfg1.N) = Phi V c (Fin.last cfg1.N).val (Nat.le_of_lt_succ (Fin.last cfg1.N).isLt) from rfl,
    Phi_pos V c _ _ (by rw [Fin.val_last]; have : cfg1.N = 4 := N_1; omega), bare_split]
  iintro ⟨⟨Hs, Hoth⟩, Hg⟩
  isplitr [Hg]
  · isplitl [Hs]; · iexists _; iexact Hs
    iexact Hoth
  iexact Hg

end Body

end Cert.Kernel.Loss

end
-- ==== Proof.BitsWhole.lean ====
/-
  The whole run of @main, for any float instance: five segments — the host operations before the pooling call,
  the pooling call, the host operations between the calls, the loss call, the closing reshape — chained through
  the contents of the core's unscoped buffers at each boundary.

  A host stretch takes the buffers from a valuation W to the valuation after its operations; a call takes its
  windows' tables to what the pipeline's write-backs leave (the inputs as entered, the output table at the blocks
  written back) and every other buffer across unchanged. Beside the buffers each boundary carries the generator
  register at some state and the core owing nothing. The run's post reads EVERY unscoped buffer off the last
  valuation; the frame claim and the value claim are both read off that.
-/
import proofs.«136069_j31147102830628_1_alg».proof.Proof.BitsPool
import proofs.«136069_j31147102830628_1_alg».proof.Proof.BitsLoss
import proofs.«136069_j31147102830628_1_alg».proof.Proof.Gen.Kernel.Regions

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at the segment boundaries -/

/-- At launch. -/
abbrev W0 (c : Dev nD) : Valuation τ sig (Elt F) := fun b => m (c, b)
/-- After the first host stretch: the pooling call's entry. -/
abbrev W1 (c : Dev nD) : Valuation τ sig (Elt F) := StableHlo.after hostOps0 (W0 m c)
abbrev V1 : (c : Dev nD) → (b : Ref sig .tc) → Buf (Elt F) ((c : Thread nD τ).loc b) := fun c b => W1 m c b
/-- After the pooling call: its tables at what the pipeline leaves, every other buffer as entered. -/
def W2 (c : Dev nD) : Valuation τ sig (Elt F) :=
  Pipeline.withArrays spec0 c (W1 m c) fun w => (Pool.dat (V1 m) c).arrAt w cfg0.N
theorem W2_arr (c : Dev nD) (w : Fin cfg0.W) :
    W2 m c (Proc.devRef .tc (Pipeline.arrRef spec0 w)) = (Pool.dat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem left0 (c : Dev nD) (w : Fin cfg0.W) : (Pool.dat (V1 m) c).arrAt w cfg0.N = V2 m c (Pipeline.arrRef spec0 w) :=
  (W2_arr m c w).symm
theorem across0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch: the loss call's entry. -/
abbrev W3 (c : Dev nD) : Valuation τ sig (Elt F) := StableHlo.after hostOps1 (W2 m c)
abbrev V3 : (c : Dev nD) → (b : Ref sig .tc) → Buf (Elt F) ((c : Thread nD τ).loc b) := fun c b => W3 m c b
/-- After the loss call. -/
def W4 (c : Dev nD) : Valuation τ sig (Elt F) :=
  Pipeline.withArrays spec1 c (W3 m c) fun w => (Loss.dat (V3 m) c).arrAt w cfg1.N
theorem W4_arr (c : Dev nD) (w : Fin cfg1.W) :
    W4 m c (Proc.devRef .tc (Pipeline.arrRef spec1 w)) = (Loss.dat (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem left1 (c : Dev nD) (w : Fin cfg1.W) : (Loss.dat (V3 m) c).arrAt w cfg1.N = V4 m c (Pipeline.arrRef spec1 w) :=
  (W4_arr m c w).symm
theorem across1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the closing reshape: the end. -/
abbrev W5 (c : Dev nD) : Valuation τ sig (Elt F) := StableHlo.after hostOps2 (W4 m c)

/-! ## The proof data family and the thread state -/

/-- Both pipelines' proof data, each at its call's entry contents. -/
def pdats : (p : Fin 2) → (c : Dev nD) → Dat τ (Elt F) Unit ℕ (UR sig nD τ) ℕ (Pipeline.pin (pcfgs (F := F)) adm p) c
  | ⟨0, _⟩ => fun c => Pool.dat (V1 m) c
  | ⟨1, _⟩ => fun c => Loss.dat (V3 m) c

abbrev 𝒱₀ : Variants := Variants.none
abbrev L : GSem nD τ sig → Finset Unit := fun _ => ∅
abbrev lv : GSem nD τ sig → Unit → ℕ := fun _ _ => 0

/-- What rides beside the buffers: the generator register at some state, the core owing nothing. -/
abbrev R (c : Dev nD) : sProp 𝕄 := iprop((∃ r, prngReg c r) ∗ ∃ W, owes (c : Thread nD τ) (0 : CellTallies nD τ sig Unit) W)

/-- A host stretch as a segment over every unscoped buffer, from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The last thread state without the debts: every unscoped buffer at the last contents. -/
abbrev Tend (c : Dev nD) : sProp 𝕄 := StableHlo.held (c : Thread nD τ) (Pipeline.ucRefs τ sig) (W5 m c)

/-! ## The two calls as segments -/

set_option backward.isDefEq.respectTransparency.types false in
/-- The pooling call: entered with every unscoped buffer at W1, left with them at W2. Its tables are split out of
    the unscoped buffers at entry and put back at their final contents at exit; the register goes into the bare
    invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Pool.body_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (left0 m c) (across0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The loss call: entered with every unscoped buffer at W3, left with them at W4. As the pooling call, except that
    its invariant names the scratch cell between the points: it starts as the bare invariant and ends giving the bare
    invariant back. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Loss.body_obligation (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Loss.inv_in (V3 m) c)
    unfold Pipeline.ΦA
    iintro ⟨Hp, -, Hr⟩
    isplitl [Hr]; · iexact Hr
    iexact Hp
  hout c := by
    rw [Pipeline.ownSems0_none]
    refine BIBase.Entails.trans (Loss.inv_out (V3 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (left1 m c) (across1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as its segments, and the run -/

/-- @main's five segments in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]

/-- @main is the run of those segments: both are the same chain of five items. -/
theorem main_is_segs (c : Dev nD) : main (F := F) c = Pipeline.Seg.run (segs m) := by
  rw [main_chain c, Pipeline.Seg.run_eq_chain]; rfl

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN. From any memory with zero counters, every weakly fair execution of @main on the TensorCores terminates,
    nothing faulting, and in every final state each unscoped buffer of each core holds the last valuation's contents. -/
theorem run (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_is_segs m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tend m)
    (hch := ⟨fun _ => .rfl, fun _ => .rfl, fun _ => .rfl, fun _ => .rfl, fun _ => .rfl, fun c => sep_mono .rfl (by iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨Hh, HSI⟩
      unfold Tend StableHlo.held
      imodintro
      iapply (pointsTo_read_all (Pipeline.ucRefs τ sig) (fun b => (((c : Thread nD τ)).1, b)) (W5 m c) s')
      isplitl [Hh] <;> iassumption)
    (hQ := fun s h c => h c)

/-! ## What no segment writes -/

/-- A buffer that neither the first host stretch nor the pooling call writes is, after both, as launched. -/
theorem kept_to_2 (c : Dev nD) (b : Ref sig .tc) (h0 : b ∉ hostOps0_W) (h1 : ∀ w, Pipeline.arrRef spec0 w ≠ b) :
    W2 m c (Proc.devRef .tc b) = m ((c : Thread nD τ).loc b) :=
  (W2_of_ne m c b h1).trans (StableHlo.after_of_writes_sub hostOps0 _ hostOps0_writes h0)

/-- A buffer no segment writes is, at the end, as launched. -/
theorem kept_to_end (c : Dev nD) (b : Ref sig .tc) (h0 : b ∉ hostOps0_W) (h1 : ∀ w, Pipeline.arrRef spec0 w ≠ b)
    (h2 : b ∉ hostOps1_W) (h3 : ∀ w, Pipeline.arrRef spec1 w ≠ b) (h4 : b ∉ hostOps2_W) :
    W5 m c (Proc.devRef .tc b) = m ((c : Thread nD τ).loc b) :=
  (StableHlo.after_of_writes_sub hostOps2 _ hostOps2_writes h4).trans <|
    (W4_of_ne m c b h3).trans <| (StableHlo.after_of_writes_sub hostOps1 _ hostOps1_writes h2).trans (kept_to_2 m c b h0 h1)

/-- THE FRAME: every weakly fair execution of @main terminates, nothing faulting, with every argument array as launched —
    no host operation writes an argument and no call has one as its output table. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (kept_to_end m c main_arg0 (by decide) (by decide) (by decide) (by decide) (by decide)),
      (h c _ (mem_uc main_arg1 (by decide))).trans (kept_to_end m c main_arg1 (by decide) (by decide) (by decide) (by decide) (by decide)),
      (h c _ (mem_uc main_arg2 (by decide))).trans (kept_to_end m c main_arg2 (by decide) (by decide) (by decide) (by decide) (by decide)),
      (h c _ (mem_uc main_arg3 (by decide))).trans (kept_to_end m c main_arg3 (by decide) (by decide) (by decide) (by decide) (by decide)),
      (h c _ (mem_uc main_arg4 (by decide))).trans (kept_to_end m c main_arg4 (by decide) (by decide) (by decide) (by decide) (by decide)),
      (h c _ (mem_uc main_arg5 (by decide))).trans (kept_to_end m c main_arg5 (by decide) (by decide) (by decide) (by decide) (by decide)),
      (h c _ (mem_uc main_arg6 (by decide))).trans (kept_to_end m c main_arg6 (by decide) (by decide) (by decide) (by decide) (by decide)),
      (h c _ (mem_uc main_arg7 (by decide))).trans (kept_to_end m c main_arg7 (by decide) (by decide) (by decide) (by decide) (by decide)),
      (h c _ (mem_uc main_arg8 (by decide))).trans (kept_to_end m c main_arg8 (by decide) (by decide) (by decide) (by decide) (by decide))⟩) (run m ρ)

end Cert.Kernel.Whole

end
-- ==== Proof.IdealPool.lean ====
/-
  Region 0 (the pooling call), for any float instance: what each grid point's body does to its five staging
  buffers, as the pipeline's proof data and body obligation.

  The grid has 75 points; point t stages rows [2000 t, 2000 t + 2000) of each of the four layer tables (windows
  0-3, inputs, fetched at every point) and of the pooled table (window 4, the output, written back at every
  point). The body loads the four input blocks whole, adds them from the left, scales the sum, and stores the
  result over the whole output block: one store whose rectangle is the block, so the block afterwards is that
  one payload. The region's invariant is the bare one: the scoped buffers it does not stage and the generator
  register pass through untouched, and the core owes nothing.
-/
import proofs.«136069_j31147102830628_1_alg».proof.Proof.Gen.KernelIdeal.Launch
import proofs.«136069_j31147102830628_1_alg».proof.Proof.Gen.KernelIdeal.Skeleton
import proofs.«136069_j31147102830628_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Pool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t: rows [2000 t, 2000 t + 2000) of its table, as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole [2000, 64] block as one rectangle. -/
abbrev whole : Rect S2000x64 := Rect.unit (s := S2000x64) ![0, 0] S2000x64.size inb_S2000x64_S2000x64_0_0

/-- The output block after the body, from the four input blocks: its one whole-block store read back. -/
def pooled (x0 x1 x2 x3 : Vec F S2000x64 .f32) : Vec F S2000x64 .f32 :=
  View.canon [⟨whole, k0_pay1 (View.ld x0 whole) (View.ld x1 whole) (View.ld x2 whole) (View.ld x3 whole)⟩]

/-- The one store's rectangle is the block: it covers every index. -/
theorem whole_covers (p : Vec F S2000x64 .f32) (y : S2000x64.Idx) :
    ∃ pc ∈ ([⟨whole, p⟩] : List (View.Piece (Elt F) S2000x64 .f32)), y ∈ pc.1.set :=
  View.cover_of_tiled [⟨whole, p⟩] S2000x64.size (by rfl) y

set_option maxHeartbeats 2000000 in
/-- The body on whole staging buffers: the four inputs at x0 … x3 and the output at anything; it ends with the
    inputs as they were and the output at `pooled x0 x1 x2 x3`. -/
theorem body_triple (c : Dev nD) (E : Set ℕ) (i : grid0.Coords)
    (a1 : Memref sig .tc .vmem S2000x64 .f32) (h1 : a1.IsWhole) (a2 : Memref sig .tc .vmem S2000x64 .f32) (h2 : a2.IsWhole)
    (a3 : Memref sig .tc .vmem S2000x64 .f32) (h3 : a3.IsWhole) (a4 : Memref sig .tc .vmem S2000x64 .f32) (h4 : a4.IsWhole)
    (a5 : Memref sig .tc .vmem S2000x64 .f32) (h5 : a5.IsWhole)
    (x0 x1 x2 x3 : Vec F S2000x64 .f32) (K : PUnit → sProp 𝕄) :
    iprop(owns (c : Thread nD τ) a1 fullShare x0 ∗ owns (c : Thread nD τ) a2 fullShare x1
        ∗ owns (c : Thread nD τ) a3 fullShare x2 ∗ owns (c : Thread nD τ) a4 fullShare x3
        ∗ (∃ d, owns (c : Thread nD τ) a5 fullShare d)
        ∗ (iprop(owns (c : Thread nD τ) a1 fullShare x0 ∗ owns (c : Thread nD τ) a2 fullShare x1
            ∗ owns (c : Thread nD τ) a3 fullShare x2 ∗ owns (c : Thread nD τ) a4 fullShare x3
            ∗ owns (c : Thread nD τ) a5 fullShare (pooled x0 x1 x2 x3)) -∗ K ⟨⟩))
      ⊢ wp frame (wpE (defs₀ (F := F)) Variants.none c none) E (cc0__meanpool_kernel i a1 h1 a2 h2 a3 h3 a4 h4 a5 h5) K := by
  simp only [cc0__meanpool_kernel_eq_skeleton]; unfold cc0__meanpool_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (whole_covers _)

/-- The proof data of the pooling pipeline on core c: the tables as the region finds them; after the body at
    point t each input buffer still at its block and the output buffer at the pooled block; the bare invariant;
    full shares; nothing owed. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => blk V c 3 t
    | ⟨4, _⟩ => pooled (blk V c 0 t) (blk V c 1 t) (blk V c 2 t) (blk V c 3 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = blk V c 0 t := by dsimp only [dat]
theorem after_1 (c : Dev nD) (t : Fin cfg0.N) : (dat V c).after 1 t = blk V c 1 t := by dsimp only [dat]
theorem after_2 (c : Dev nD) (t : Fin cfg0.N) : (dat V c).after 2 t = blk V c 2 t := by dsimp only [dat]
theorem after_3 (c : Dev nD) (t : Fin cfg0.N) : (dat V c).after 3 t = blk V c 3 t := by dsimp only [dat]
theorem after_4 (c : Dev nD) (t : Fin cfg0.N) :
    (dat V c).after 4 t = pooled (blk V c 0 t) (blk V c 1 t) (blk V c 2 t) (blk V c 3 t) := by dsimp only [dat]

/-- An input buffer holds its block when the body runs, fetched at this point or not: the body leaves the block in
    place and the window is never idle, so an unfetched buffer still holds the block of an unmoved index. -/
theorem before_0 (c : Dev nD) (t : Fin cfg0.N) (d) : (dat V c).before 0 t d = blk V c 0 t :=
  ((dat V c).before_in_eq_fetched 0 rfl (fun _ => rfl) (fun _ _ _ => rfl)
    (fun t => by rw [after_0]; unfold Dat.blockOf blk; rw [A_eq]; try rfl) t d).trans
    (by unfold Dat.fetched Dat.blockOf blk; rw [A_eq]; try rfl)
theorem before_1 (c : Dev nD) (t : Fin cfg0.N) (d) : (dat V c).before 1 t d = blk V c 1 t :=
  ((dat V c).before_in_eq_fetched 1 rfl (fun _ => rfl) (fun _ _ _ => rfl)
    (fun t => by rw [after_1]; unfold Dat.blockOf blk; rw [A_eq]; try rfl) t d).trans
    (by unfold Dat.fetched Dat.blockOf blk; rw [A_eq]; try rfl)
theorem before_2 (c : Dev nD) (t : Fin cfg0.N) (d) : (dat V c).before 2 t d = blk V c 2 t :=
  ((dat V c).before_in_eq_fetched 2 rfl (fun _ => rfl) (fun _ _ _ => rfl)
    (fun t => by rw [after_2]; unfold Dat.blockOf blk; rw [A_eq]; try rfl) t d).trans
    (by unfold Dat.fetched Dat.blockOf blk; rw [A_eq]; try rfl)
theorem before_3 (c : Dev nD) (t : Fin cfg0.N) (d) : (dat V c).before 3 t d = blk V c 3 t :=
  ((dat V c).before_in_eq_fetched 3 rfl (fun _ => rfl) (fun _ _ _ => rfl)
    (fun t => by rw [after_3]; unfold Dat.blockOf blk; rw [A_eq]; try rfl) t d).trans
    (by unfold Dat.fetched Dat.blockOf blk; rw [A_eq]; try rfl)

/-- The body at any point: its inputs hold their blocks, so the triple applies; the invariant and the core's
    debts pass through unread. -/
theorem body_at (c : Dev nD) (t : Fin cfg0.N) :
    iprop((dat V c).Φ t.castSucc ∗ (dat V c).owesAt () t.castSucc
      ∗ (∃ d, owns (c : Thread nD τ) (st0_0 t) fullShare ((dat V c).before 0 t d))
      ∗ (∃ d, owns (c : Thread nD τ) (st0_1 t) fullShare ((dat V c).before 1 t d))
      ∗ (∃ d, owns (c : Thread nD τ) (st0_2 t) fullShare ((dat V c).before 2 t d))
      ∗ (∃ d, owns (c : Thread nD τ) (st0_3 t) fullShare ((dat V c).before 3 t d))
      ∗ (∃ d, owns (c : Thread nD τ) (st0_4 t) fullShare ((dat V c).before 4 t d)))
    ⊢ wp frame (wpE (defs₀ (F := F)) Variants.none c none) Set.univ (bodyAt0 t) (fun _ =>
      iprop((dat V c).Φ t.succ ∗ (dat V c).owesAt () t.succ
        ∗ owns (c : Thread nD τ) (st0_0 t) fullShare ((dat V c).after 0 t)
        ∗ owns (c : Thread nD τ) (st0_1 t) fullShare ((dat V c).after 1 t)
        ∗ owns (c : Thread nD τ) (st0_2 t) fullShare ((dat V c).after 2 t)
        ∗ owns (c : Thread nD τ) (st0_3 t) fullShare ((dat V c).after 3 t)
        ∗ owns (c : Thread nD τ) (st0_4 t) fullShare ((dat V c).after 4 t))) := by
  unfold bodyAt0
  simp only [before_0, before_1, before_2, before_3]
  rw [show (dat V c).Φ t.succ = (dat V c).Φ t.castSucc from rfl,
    show (dat V c).owesAt () t.succ = (dat V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (body_triple c Set.univ _ _ _ _ _ _ _ _ _ _ _ (blk V c 0 t) (blk V c 1 t) (blk V c 2 t) (blk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation (c : Dev nD) : BodyObligation (dat (F := F) V c) (defs₀ (F := F)) Variants.none () Set.univ := fun t => by
  rw [bigSep_W0, bigSep_W0]
  exact body_at V c t

end Cert.KernelIdeal.Pool

end
-- ==== Proof.IdealLoss.lean ====
/-
  Region 1 (the loss call), for any float instance: what each of its four grid points does to its staging buffers
  and to the one-cell scratch accumulator it carries from point to point.

  Point t stages rows [2048 t, 2048 t + 2048) of the three gathered embedding tables (windows 0-2: user, adjacent
  item, strong item; inputs fetched at every point); window 3, the [1, 1] result, keeps one block for the whole
  grid and is written back after the last point only. The body: at the first point it resets the accumulator to
  zero; at every point it adds the block's summed row losses to the accumulator; at the last point it stores the
  accumulator, scaled, into the result block. So after point n the accumulator holds the n-fold nested block
  payload over the zero payload, and the result block is named only at the last point — at the other points the
  window is idle and its buffer is handed back as found.

  The invariant before the first point is the bare one (every scoped buffer the call does not stage at some
  contents, the generator register at some state); after point n it holds the scratch cell at the accumulator's
  value, the other scoped buffers unopened, and the register.
-/
import proofs.«136069_j31147102830628_1_alg».proof.Proof.Gen.KernelIdeal.Launch
import proofs.«136069_j31147102830628_1_alg».proof.Proof.Gen.KernelIdeal.Skeleton
import proofs.«136069_j31147102830628_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Loss

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Whole-block rectangles -/

theorem off0 : (![0, 0] : Fin 2 → Nat) = fun _ => 0 := by funext a; fin_cases a <;> rfl

/-- A rectangle at offset zero with the shape's own extents holds every index. -/
theorem mem_whole_rect {S : Shape} {off : Fin S.rank → Nat} (h : off = fun _ => 0) (inb : ∀ a, off a + S.size a ≤ S.size a)
    (y : S.Idx) : y ∈ (Rect.unit off S.size inb).set := by
  subst h; show y ∈ (Rect.whole S).set; rw [Rect.set_whole]; exact Finset.mem_univ y

/-- After a list of stores whose LAST is a whole-block store of w, the buffer reads w. -/
theorem read_after_whole_store {sg : RefSig} {κ : Kind} {sp : Space} {S : Shape} {e : EltTy} (v : View sg κ sp S e)
    (f : v.ty.Contents (Elt F)) {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self .., mem_whole_rect h inb y⟩),
    View.canon_cons_unit_zero h inb]

/-! ## The body's three cases -/

set_option maxHeartbeats 4000000 in
/-- The first point: the accumulator, whatever it held, is reset and then holds the first block's payload over zero;
    the result block keeps what it held. -/
theorem first_triple (c : Dev nD) (E : Set ℕ) (i : grid1.Coords)
    (a1 : Memref sig .tc .vmem S2048x64 .f32) (h1 : a1.IsWhole) (a2 : Memref sig .tc .vmem S2048x64 .f32) (h2 : a2.IsWhole)
    (a3 : Memref sig .tc .vmem S2048x64 .f32) (h3 : a3.IsWhole) (a4 : Memref sig .tc .vmem S1x1 .f32) (h4 : a4.IsWhole)
    (a5 : Memref sig .tc .vmem S1x1 .f32) (h5 : a5.IsWhole)
    (x0 x1 x2 : Vec F S2048x64 .f32) (K : PUnit → sProp 𝕄) (y : Vec F S1x1 .f32) (hi : (i 0).val = 0) :
    iprop(owns (c : Thread nD τ) a1 fullShare x0 ∗ owns (c : Thread nD τ) a2 fullShare x1
        ∗ owns (c : Thread nD τ) a3 fullShare x2 ∗ owns (c : Thread nD τ) a4 fullShare y
        ∗ (∃ d, owns (c : Thread nD τ) a5 fullShare d)
        ∗ (iprop(owns (c : Thread nD τ) a1 fullShare x0 ∗ owns (c : Thread nD τ) a2 fullShare x1
            ∗ owns (c : Thread nD τ) a3 fullShare x2 ∗ owns (c : Thread nD τ) a4 fullShare y
            ∗ owns (c : Thread nD τ) a5 fullShare (k1_pay3 x0 x1 x2 k1_pay2)) -∗ K ⟨⟩))
      ⊢ wp frame (wpE (defs₀ (F := F)) Variants.none c none) E (cc1__loss_kernel i a1 h1 a2 h2 a3 h3 a4 h4 a5 h5) K := by
  have hr : Scalar.cmpi .ne (Scalar.extui (Scalar.cmpi .eq (BitVec.ofNat 32 (i 0).val) 0#32)) 0#32 = 1#1 := by rw [hi]; decide
  have hl : ¬ (k1_cond2 i = 1#1) := by unfold k1_cond2; rw [hi]; decide
  simp only [cc1__loss_kernel_eq_skeleton]; unfold cc1__loss_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  sl_unfold_words
  rw [read_after_whole_store _ _ off0, View.readCov_unit_zero _ off0]
  simp only [View.readAt_eq_ld, View.ld_unit_zero (S := S2048x64) off0]

set_option maxHeartbeats 4000000 in
/-- A middle point: the accumulator at a ends at this block's payload over a; the result block keeps what it held. -/
theorem middle_triple (c : Dev nD) (E : Set ℕ) (i : grid1.Coords)
    (a1 : Memref sig .tc .vmem S2048x64 .f32) (h1 : a1.IsWhole) (a2 : Memref sig .tc .vmem S2048x64 .f32) (h2 : a2.IsWhole)
    (a3 : Memref sig .tc .vmem S2048x64 .f32) (h3 : a3.IsWhole) (a4 : Memref sig .tc .vmem S1x1 .f32) (h4 : a4.IsWhole)
    (a5 : Memref sig .tc .vmem S1x1 .f32) (h5 : a5.IsWhole)
    (x0 x1 x2 : Vec F S2048x64 .f32) (K : PUnit → sProp 𝕄) (y a : Vec F S1x1 .f32) (hi0 : (i 0).val ≠ 0) (hi3 : (i 0).val ≠ 3) :
    iprop(owns (c : Thread nD τ) a1 fullShare x0 ∗ owns (c : Thread nD τ) a2 fullShare x1
        ∗ owns (c : Thread nD τ) a3 fullShare x2 ∗ owns (c : Thread nD τ) a4 fullShare y
        ∗ owns (c : Thread nD τ) a5 fullShare a
        ∗ (iprop(owns (c : Thread nD τ) a1 fullShare x0 ∗ owns (c : Thread nD τ) a2 fullShare x1
            ∗ owns (c : Thread nD τ) a3 fullShare x2 ∗ owns (c : Thread nD τ) a4 fullShare y
            ∗ owns (c : Thread nD τ) a5 fullShare (k1_pay3 x0 x1 x2 a)) -∗ K ⟨⟩))
      ⊢ wp frame (wpE (defs₀ (F := F)) Variants.none c none) E (cc1__loss_kernel i a1 h1 a2 h2 a3 h3 a4 h4 a5 h5) K := by
  have hlt : (i 0).val < 4 := (i 0).isLt
  have hr : ¬ (Scalar.cmpi .ne (Scalar.extui (Scalar.cmpi .eq (BitVec.ofNat 32 (i 0).val) 0#32)) 0#32 = 1#1) := by
    have : (i 0).val = 1 ∨ (i 0).val = 2 := by omega
    rcases this with h | h <;> rw [h] <;> decide
  have hl : ¬ (k1_cond2 i = 1#1) := by
    have : (i 0).val = 1 ∨ (i 0).val = 2 := by omega
    unfold k1_cond2
    rcases this with h | h <;> rw [h] <;> decide
  simp only [cc1__loss_kernel_eq_skeleton]; unfold cc1__loss_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  rw [read_after_whole_store _ _ off0]
  simp only [View.readAt_eq_ld, View.ld_unit_zero (S := S2048x64) off0, View.ld_unit_zero (S := S1x1) off0]

set_option maxHeartbeats 4000000 in
/-- The last point: the accumulator at a ends at this block's payload over a, and the result block, whatever it
    held, ends at that value scaled. -/
theorem last_triple (c : Dev nD) (E : Set ℕ) (i : grid1.Coords)
    (a1 : Memref sig .tc .vmem S2048x64 .f32) (h1 : a1.IsWhole) (a2 : Memref sig .tc .vmem S2048x64 .f32) (h2 : a2.IsWhole)
    (a3 : Memref sig .tc .vmem S2048x64 .f32) (h3 : a3.IsWhole) (a4 : Memref sig .tc .vmem S1x1 .f32) (h4 : a4.IsWhole)
    (a5 : Memref sig .tc .vmem S1x1 .f32) (h5 : a5.IsWhole)
    (x0 x1 x2 : Vec F S2048x64 .f32) (K : PUnit → sProp 𝕄) (a : Vec F S1x1 .f32) (hi : (i 0).val = 3) :
    iprop(owns (c : Thread nD τ) a1 fullShare x0 ∗ owns (c : Thread nD τ) a2 fullShare x1
        ∗ owns (c : Thread nD τ) a3 fullShare x2 ∗ (∃ d, owns (c : Thread nD τ) a4 fullShare d)
        ∗ owns (c : Thread nD τ) a5 fullShare a
        ∗ (iprop(owns (c : Thread nD τ) a1 fullShare x0 ∗ owns (c : Thread nD τ) a2 fullShare x1
            ∗ owns (c : Thread nD τ) a3 fullShare x2 ∗ owns (c : Thread nD τ) a4 fullShare (k1_pay1 (k1_pay3 x0 x1 x2 a))
            ∗ owns (c : Thread nD τ) a5 fullShare (k1_pay3 x0 x1 x2 a)) -∗ K ⟨⟩))
      ⊢ wp frame (wpE (defs₀ (F := F)) Variants.none c none) E (cc1__loss_kernel i a1 h1 a2 h2 a3 h3 a4 h4 a5 h5) K := by
  have hr : ¬ (Scalar.cmpi .ne (Scalar.extui (Scalar.cmpi .eq (BitVec.ofNat 32 (i 0).val) 0#32)) 0#32 = 1#1) := by rw [hi]; decide
  have hl : k1_cond2 i = 1#1 := by unfold k1_cond2; rw [hi]; decide
  simp only [cc1__loss_kernel_eq_skeleton]; unfold cc1__loss_kernel_skel
  simp only [k1_part1_eq_skeleton]; unfold k1_part1_skel
  unfold owns
  iintro ⟨⟨%f0, %hf0, H0⟩, ⟨%f1, %hf1, H1⟩, ⟨%f2, %hf2, H2⟩, ⟨%d3, %f3, -, H3⟩, ⟨%f4, %hf4, H4⟩, Hk⟩
  subst hf0; subst hf1; subst hf2; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_words
    refine (read_after_whole_store (S := S1x1) a4.view f3 off0 inb_S1x1_S1x1_0_0 _ []).trans ?_
    refine congrArg k1_pay1 ?_
    refine (View.readCov_unit_zero (S := S1x1) a5.view off0 inb_S1x1_S1x1_0_0 _).trans ?_
    simp only [View.readAt_eq_ld, View.ld_unit_zero (S := S2048x64) off0, View.ld_unit_zero (S := S1x1) off0]
  iexists _; isplitr
  swap; · iexact H4
  ipureintro
  sl_unfold_words
  rw [read_after_whole_store _ _ off0]
  simp only [View.readAt_eq_ld, View.ld_unit_zero (S := S2048x64) off0, View.ld_unit_zero (S := S1x1) off0]

/-! ## The blocks, the accumulator and the invariant -/

section Data

-- the TensorCore's buffer contents when the region is entered
variable (V : (c : Dev nD) → (b : Ref sig .tc) → Buf (Elt F) ((c : Thread nD τ).loc b))

/-- Window w's block at point t: rows [2048 t, 2048 t + 2048) of its table (the one result cell for window 3). -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem three_lt : 3 < cfg1.N := lt_of_lt_of_eq (by decide : 3 < 4) N_1.symm

/-- The accumulator after point n: the block payload of point n over the accumulator after point n - 1, over the
    zero payload at the first point. -/
def acc (c : Dev nD) : (n : ℕ) → n < cfg1.N → Vec F S1x1 .f32
  | 0, h => k1_pay3 (blk V c 0 ⟨0, h⟩) (blk V c 1 ⟨0, h⟩) (blk V c 2 ⟨0, h⟩) k1_pay2
  | n + 1, h => k1_pay3 (blk V c 0 ⟨n + 1, h⟩) (blk V c 1 ⟨n + 1, h⟩) (blk V c 2 ⟨n + 1, h⟩) (acc c n (Nat.lt_of_succ_lt h))

theorem acc_first (c : Dev nD) (t : Fin cfg1.N) (ht : t.val = 0) :
    acc V c t.val t.isLt = k1_pay3 (blk V c 0 t) (blk V c 1 t) (blk V c 2 t) k1_pay2 := by
  obtain ⟨n, hn⟩ := t; dsimp only at ht; subst ht; rfl

theorem acc_later (c : Dev nD) (t : Fin cfg1.N) (ht : t.val ≠ 0) :
    acc V c t.val t.isLt
      = k1_pay3 (blk V c 0 t) (blk V c 1 t) (blk V c 2 t) (acc V c (t.val - 1) (Nat.lt_of_le_of_lt (Nat.sub_le _ _) t.isLt)) := by
  obtain ⟨n, hn⟩ := t
  cases n with
  | zero => exact absurd rfl ht
  | succ n => rfl

/-- The result block after the last point: the last accumulator, scaled. -/
def result (c : Dev nD) : Vec F S1x1 .f32 := k1_pay1 (acc V c 3 three_lt)

/-- The scratch cell as a whole memref. -/
abbrev scr : Memref sig .tc .vmem S1x1 .f32 := Memref.whole cc1_scratch0

/-- The scoped buffers of the core other than this call's staging buffers and its scratch cell, unopened. -/
abbrev others (c : Dev nD) : sProp 𝕄 :=
  Pipeline.scopedRestBut (Ix := Unit) (Name := ℕ) (U := UR sig nD τ) (Lvl := ℕ) (Val := Elt F) spec1 c [cc1_scratch0]

/-- The invariant before position n: the bare one before the first point; then the scratch cell at the accumulator
    after point n - 1, the other scoped buffers unopened, the generator register at some state. -/
def Phi (c : Dev nD) : (n : ℕ) → n ≤ cfg1.N → sProp 𝕄
  | 0, _ => Pipeline.ΦA spec1 c
  | n + 1, hn => iprop((owns (c : Thread nD τ) scr fullShare (acc V c n hn) ∗ others c) ∗ ∃ r, prngReg c r)

theorem Phi_zero (c : Dev nD) (n : ℕ) (h : n ≤ cfg1.N) (hz : n = 0) : Phi V c n h = Pipeline.ΦA spec1 c := by
  subst hz; rfl

theorem Phi_succ (c : Dev nD) (n : ℕ) (hn : n < cfg1.N) :
    Phi V c (n + 1) hn = iprop((owns (c : Thread nD τ) scr fullShare (acc V c n hn) ∗ others c) ∗ ∃ r, prngReg c r) := rfl

theorem Phi_pos (c : Dev nD) (n : ℕ) (h : n ≤ cfg1.N) (hz : n ≠ 0) :
    Phi V c n h = iprop((owns (c : Thread nD τ) scr fullShare (acc V c (n - 1) (by omega)) ∗ others c) ∗ ∃ r, prngReg c r) := by
  cases n with
  | zero => exact absurd rfl hz
  | succ n => rfl

/-- The bare invariant with the scratch cell split off the scoped rest and owned, at some contents, as a memref. -/
theorem bare_split (c : Dev nD) :
    (Pipeline.ΦA spec1 c : sProp 𝕄)
      = iprop(((∃ d, owns (c : Thread nD τ) scr fullShare d) ∗ others c) ∗ ∃ r, prngReg c r) := by
  unfold Pipeline.ΦA
  rw [Pipeline.scopedRest_split_of_list spec1 c [cc1_scratch0] (by decide) (by decide)]
  simp only [bigSepL_singleton, scr, owns_whole]
  try rfl

end Data

/-! ## The proof data and the body obligation -/

section Body

-- the TensorCore's buffer contents when the region is entered
variable (V : (c : Dev nD) → (b : Ref sig .tc) → Buf (Elt F) ((c : Thread nD τ).loc b))

/-- The proof data of the loss pipeline on core c: the tables as the region finds them; after the body at point t
    each input buffer still at its block; the result buffer, where it is named at all (the last point), at the scaled
    last accumulator; the invariant above; full shares; nothing owed. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => result V c
  Φ t := Phi V c t.val (Nat.le_of_lt_succ t.isLt)
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) : (dat V c).after 2 t = blk V c 2 t := by dsimp only [dat]
theorem after_3 (c : Dev nD) (t : Fin cfg1.N) : (dat V c).after 3 t = result V c := by dsimp only [dat]

theorem Phi_start (c : Dev nD) (t : Fin cfg1.N) :
    (dat V c).Φ t.castSucc = Phi V c t.val (Nat.le_of_lt t.isLt) := by
  dsimp only [dat]; simp only [Fin.coe_castSucc]

/-- An input buffer holds its block when the body runs, fetched at this point or not. -/
theorem before_0 (c : Dev nD) (t : Fin cfg1.N) (d) : (dat V c).before 0 t d = blk V c 0 t :=
  ((dat V c).before_in_eq_fetched 0 rfl (fun _ => rfl) (fun _ _ _ => rfl)
    (fun t => by rw [after_0]; unfold Dat.blockOf blk; rw [A_eq]; try rfl) t d).trans
    (by unfold Dat.fetched Dat.blockOf blk; rw [A_eq]; try rfl)
theorem before_1 (c : Dev nD) (t : Fin cfg1.N) (d) : (dat V c).before 1 t d = blk V c 1 t :=
  ((dat V c).before_in_eq_fetched 1 rfl (fun _ => rfl) (fun _ _ _ => rfl)
    (fun t => by rw [after_1]; unfold Dat.blockOf blk; rw [A_eq]; try rfl) t d).trans
    (by unfold Dat.fetched Dat.blockOf blk; rw [A_eq]; try rfl)
theorem before_2 (c : Dev nD) (t : Fin cfg1.N) (d) : (dat V c).before 2 t d = blk V c 2 t :=
  ((dat V c).before_in_eq_fetched 2 rfl (fun _ => rfl) (fun _ _ _ => rfl)
    (fun t => by rw [after_2]; unfold Dat.blockOf blk; rw [A_eq]; try rfl) t d).trans
    (by unfold Dat.fetched Dat.blockOf blk; rw [A_eq]; try rfl)

/-! ### The schedule at the four points -/

/-- The grid is one axis of four points: a point's coordinate is its number. -/
theorem coord_val (t : Fin cfg1.N) : ((cfg1.grid.coords t) 0).val = t.val := by
  obtain rfl | rfl | rfl | rfl := fin_N1 t <;> rfl

/-- Away from the last point the result window is idle (the body stores nothing into it) … -/
theorem result_idle (t : Fin cfg1.N) (h : t.val ≠ 3) : cfg1.idle 3 (cfg1.grid.coords t) = true := by
  obtain rfl | rfl | rfl | rfl := fin_N1 t
  · decide
  · decide
  · decide
  · exact absurd rfl h

/-- … and is not written back; -/
theorem result_kept (t : Fin cfg1.N) (h : t.val ≠ 3) : (cfg1.win 3).flush t = false := by
  have hN : t.val < 4 := lt_of_lt_of_eq t.isLt N_1
  exact Bool.eq_false_iff.mpr fun hf => by have := (flush1_3 t).mp hf; omega

/-- at the last point it is live. -/
theorem result_live (t : Fin cfg1.N) (h : t.val = 3) : cfg1.idle 3 (cfg1.grid.coords t) = false := by
  obtain rfl | rfl | rfl | rfl := fin_N1 t
  · exact absurd h (by decide)
  · exact absurd h (by decide)
  · exact absurd h (by decide)
  · decide

theorem leaves_in (c : Dev nD) (w : Fin cfg1.W) (t : Fin cfg1.N) (h : cfg1.idle w (cfg1.grid.coords t) = false) :
    (dat V c).leavesExact w t = owns (c : Thread nD τ) ((cfg1.win w).stage (cfg1.slots t w)) fullShare ((dat V c).after w t) := by
  unfold Dat.leavesExact; rw [h]

/-- What the body is called with at point t, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d)))

/-- and what it returns. -/
def bodyPost (c : Dev nD) (t : Fin cfg1.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t)

set_option maxHeartbeats 2000000 in
/-- The first point: the bare invariant hands over the scratch cell at anything; the cell comes back at the first
    accumulator; the result buffer goes back as found. -/
theorem body_first (c : Dev nD) (t : Fin cfg1.N) (ht : t.val = 0) :
    bodyPre V c t ⊢ wp frame (wpE (defs₀ (F := F)) Variants.none c none) Set.univ (bodyAt1 t) (fun _ => bodyPost V c t) := by
  have h3 : t.val ≠ 3 := by omega
  unfold bodyPre bodyPost bodyAt1
  simp only [before_0, before_1, before_2]
  rw [show (dat V c).owesAt () t.succ = (dat V c).owesAt () t.castSucc from rfl,
    show (dat V c).Φ t.succ = Phi V c (t.val + 1) t.isLt from rfl, Phi_succ, acc_first V c t ht,
    Phi_start, Phi_zero V c _ _ ht, bare_split,
    leaves_in V c 0 t rfl, leaves_in V c 1 t rfl, leaves_in V c 2 t rfl, after_0, after_1, after_2,
    Dat.leavesExact_idle (dat V c) 3 t (result_idle t h3) (result_kept t h3)]
  iintro ⟨⟨⟨Hs, Hoth⟩, Hg⟩, Ho, ⟨%d0, H0⟩, ⟨%d1, H1⟩, ⟨%d2, H2⟩, ⟨%d3, H3⟩⟩
  iapply (first_triple c Set.univ _ _ _ _ _ _ _ _ _ _ _ (blk V c 0 t) (blk V c 1 t) (blk V c 2 t) _
    ((dat V c).before 3 t d3) ((coord_val t).trans ht))
  isplitl [H0]; · iexact H0
  isplitl [H1]; · iexact H1
  isplitl [H2]; · iexact H2
  isplitl [H3]; · iexact H3
  isplitl [Hs]; · iexact Hs
  iintro ⟨H0, H1, H2, H3, Hs⟩
  isplitl [Hs Hoth Hg]
  · isplitr [Hg]
    · isplitl [Hs]; · iexact Hs
      iexact Hoth
    iexact Hg
  isplitl [Ho]; · iexact Ho
  isplitl [H0]; · iexact H0
  isplitl [H1]; · iexact H1
  isplitl [H2]; · iexact H2
  iexists d3; iexact H3

set_option maxHeartbeats 2000000 in
/-- A middle point: the scratch cell goes from the previous accumulator to this point's; the result buffer goes
    back as found. -/
theorem body_middle (c : Dev nD) (t : Fin cfg1.N) (ht0 : t.val ≠ 0) (ht3 : t.val ≠ 3) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).owesAt () t.succ = (dat V c).owesAt () t.castSucc from rfl,
    show (dat V c).Φ t.succ = Phi V c (t.val + 1) t.isLt from rfl, Phi_succ, acc_later V c t ht0,
    Phi_start, Phi_pos V c _ _ ht0,
    leaves_in V c 0 t rfl, leaves_in V c 1 t rfl, leaves_in V c 2 t rfl, after_0, after_1, after_2,
    Dat.leavesExact_idle (dat V c) 3 t (result_idle t ht3) (result_kept t ht3)]
  iintro ⟨⟨⟨Hs, Hoth⟩, Hg⟩, Ho, ⟨%d0, H0⟩, ⟨%d1, H1⟩, ⟨%d2, H2⟩, ⟨%d3, H3⟩⟩
  iapply (middle_triple c Set.univ _ _ _ _ _ _ _ _ _ _ _ (blk V c 0 t) (blk V c 1 t) (blk V c 2 t) _
    ((dat V c).before 3 t d3) _ (by rw [coord_val]; exact ht0) (by rw [coord_val]; exact ht3))
  isplitl [H0]; · iexact H0
  isplitl [H1]; · iexact H1
  isplitl [H2]; · iexact H2
  isplitl [H3]; · iexact H3
  isplitl [Hs]; · iexact Hs
  iintro ⟨H0, H1, H2, H3, Hs⟩
  isplitl [Hs Hoth Hg]
  · isplitr [Hg]
    · isplitl [Hs]; · iexact Hs
      iexact Hoth
    iexact Hg
  isplitl [Ho]; · iexact Ho
  isplitl [H0]; · iexact H0
  isplitl [H1]; · iexact H1
  isplitl [H2]; · iexact H2
  iexists d3; iexact H3

theorem acc_at (c : Dev nD) (n n' : ℕ) (h : n = n') (hn : n < cfg1.N) (hn' : n' < cfg1.N) : acc V c n hn = acc V c n' hn' := by
  subst h; rfl

set_option maxHeartbeats 2000000 in
/-- The last point: the scratch cell goes from the previous accumulator to the last one, and the result buffer,
    whatever it held, ends at the last accumulator scaled. -/
theorem body_last (c : Dev nD) (t : Fin cfg1.N) (ht : t.val = 3) :
    bodyPre V c t ⊢ wp frame (wpE (defs₀ (F := F)) Variants.none c none) Set.univ (bodyAt1 t) (fun _ => bodyPost V c t) := by
  have ht0 : t.val ≠ 0 := by omega
  unfold bodyPre bodyPost bodyAt1
  simp only [before_0, before_1, before_2]
  rw [show (dat V c).owesAt () t.succ = (dat V c).owesAt () t.castSucc from rfl,
    show (dat V c).Φ t.succ = Phi V c (t.val + 1) t.isLt from rfl, Phi_succ,
    Phi_start, Phi_pos V c _ _ ht0,
    leaves_in V c 0 t rfl, leaves_in V c 1 t rfl, leaves_in V c 2 t rfl, leaves_in V c 3 t (result_live t ht),
    after_0, after_1, after_2, after_3,
    show result V c = k1_pay1 (acc V c t.val t.isLt) from by unfold result; rw [acc_at V c 3 t.val ht.symm],
    acc_later V c t ht0]
  iintro ⟨⟨⟨Hs, Hoth⟩, Hg⟩, Ho, ⟨%d0, H0⟩, ⟨%d1, H1⟩, ⟨%d2, H2⟩, ⟨%d3, H3⟩⟩
  iapply (last_triple c Set.univ _ _ _ _ _ _ _ _ _ _ _ (blk V c 0 t) (blk V c 1 t) (blk V c 2 t) _
    _ ((coord_val t).trans ht))
  isplitl [H0]; · iexact H0
  isplitl [H1]; · iexact H1
  isplitl [H2]; · iexact H2
  isplitl [H3]; · iexists _; iexact H3
  isplitl [Hs]; · iexact Hs
  iintro ⟨H0, H1, H2, H3, Hs⟩
  isplitl [Hs Hoth Hg]
  · isplitr [Hg]
    · isplitl [Hs]; · iexact Hs
      iexact Hoth
    iexact Hg
  isplitl [Ho]; · iexact Ho
  isplitl [H0]; · iexact H0
  isplitl [H1]; · iexact H1
  isplitl [H2]; · iexact H2
  iexact H3

/-- The pipeline's body obligation, at every point: by the point's number. -/
theorem body_obligation (c : Dev nD) : BodyObligation (dat (F := F) V c) (defs₀ (F := F)) Variants.none () Set.univ := fun t => by
  rw [bigSep_W1, bigSep_W1]
  by_cases h0 : t.val = 0
  · exact body_first V c t h0
  · by_cases h3 : t.val = 3
    · exact body_last V c t h3
    · exact body_middle V c t h0 h3

/-- What the launch hands the region is the invariant before the first point. -/
theorem inv_in (c : Dev nD) : Pipeline.ΦA spec1 c ⊢ (dat V c).Φ 0 := by
  rw [show (dat V c).Φ 0 = Phi V c 0 (Nat.zero_le _) from rfl, Phi_zero V c 0 _ rfl]

/-- After the last point the invariant gives the bare one back: the scratch cell's contents are forgotten. -/
theorem inv_out (c : Dev nD) : (dat V c).Φ (Fin.last cfg1.N) ⊢ Pipeline.ΦA spec1 c := by
  rw [show (dat V c).Φ (Fin.last cfg1.N) = Phi V c (Fin.last cfg1.N).val (Nat.le_of_lt_succ (Fin.last cfg1.N).isLt) from rfl,
    Phi_pos V c _ _ (by rw [Fin.val_last]; have : cfg1.N = 4 := N_1; omega), bare_split]
  iintro ⟨⟨Hs, Hoth⟩, Hg⟩
  isplitr [Hg]
  · isplitl [Hs]; · iexists _; iexact Hs
    iexact Hoth
  iexact Hg

end Body

end Cert.KernelIdeal.Loss

end
-- ==== Proof.IdealWhole.lean ====
/-
  The whole run of @main, for any float instance: five segments — the host operations before the pooling call,
  the pooling call, the host operations between the calls, the loss call, the closing reshape — chained through
  the contents of the core's unscoped buffers at each boundary.

  A host stretch takes the buffers from a valuation W to the valuation after its operations; a call takes its
  windows' tables to what the pipeline's write-backs leave (the inputs as entered, the output table at the blocks
  written back) and every other buffer across unchanged. Beside the buffers each boundary carries the generator
  register at some state and the core owing nothing. The run's post reads EVERY unscoped buffer off the last
  valuation; the frame claim and the value claim are both read off that.
-/
import proofs.«136069_j31147102830628_1_alg».proof.Proof.IdealPool
import proofs.«136069_j31147102830628_1_alg».proof.Proof.IdealLoss
import proofs.«136069_j31147102830628_1_alg».proof.Proof.Gen.KernelIdeal.Regions

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at the segment boundaries -/

/-- At launch. -/
abbrev W0 (c : Dev nD) : Valuation τ sig (Elt F) := fun b => m (c, b)
/-- After the first host stretch: the pooling call's entry. -/
abbrev W1 (c : Dev nD) : Valuation τ sig (Elt F) := StableHlo.after hostOps0 (W0 m c)
abbrev V1 : (c : Dev nD) → (b : Ref sig .tc) → Buf (Elt F) ((c : Thread nD τ).loc b) := fun c b => W1 m c b
/-- After the pooling call: its tables at what the pipeline leaves, every other buffer as entered. -/
def W2 (c : Dev nD) : Valuation τ sig (Elt F) :=
  Pipeline.withArrays spec0 c (W1 m c) fun w => (Pool.dat (V1 m) c).arrAt w cfg0.N
theorem W2_arr (c : Dev nD) (w : Fin cfg0.W) :
    W2 m c (Proc.devRef .tc (Pipeline.arrRef spec0 w)) = (Pool.dat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem left0 (c : Dev nD) (w : Fin cfg0.W) : (Pool.dat (V1 m) c).arrAt w cfg0.N = V2 m c (Pipeline.arrRef spec0 w) :=
  (W2_arr m c w).symm
theorem across0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch: the loss call's entry. -/
abbrev W3 (c : Dev nD) : Valuation τ sig (Elt F) := StableHlo.after hostOps1 (W2 m c)
abbrev V3 : (c : Dev nD) → (b : Ref sig .tc) → Buf (Elt F) ((c : Thread nD τ).loc b) := fun c b => W3 m c b
/-- After the loss call. -/
def W4 (c : Dev nD) : Valuation τ sig (Elt F) :=
  Pipeline.withArrays spec1 c (W3 m c) fun w => (Loss.dat (V3 m) c).arrAt w cfg1.N
theorem W4_arr (c : Dev nD) (w : Fin cfg1.W) :
    W4 m c (Proc.devRef .tc (Pipeline.arrRef spec1 w)) = (Loss.dat (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem left1 (c : Dev nD) (w : Fin cfg1.W) : (Loss.dat (V3 m) c).arrAt w cfg1.N = V4 m c (Pipeline.arrRef spec1 w) :=
  (W4_arr m c w).symm
theorem across1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the closing reshape: the end. -/
abbrev W5 (c : Dev nD) : Valuation τ sig (Elt F) := StableHlo.after hostOps2 (W4 m c)

/-! ## The proof data family and the thread state -/

/-- Both pipelines' proof data, each at its call's entry contents. -/
def pdats : (p : Fin 2) → (c : Dev nD) → Dat τ (Elt F) Unit ℕ (UR sig nD τ) ℕ (Pipeline.pin (pcfgs (F := F)) adm p) c
  | ⟨0, _⟩ => fun c => Pool.dat (V1 m) c
  | ⟨1, _⟩ => fun c => Loss.dat (V3 m) c

abbrev 𝒱₀ : Variants := Variants.none
abbrev L : GSem nD τ sig → Finset Unit := fun _ => ∅
abbrev lv : GSem nD τ sig → Unit → ℕ := fun _ _ => 0

/-- What rides beside the buffers: the generator register at some state, the core owing nothing. -/
abbrev R (c : Dev nD) : sProp 𝕄 := iprop((∃ r, prngReg c r) ∗ ∃ W, owes (c : Thread nD τ) (0 : CellTallies nD τ sig Unit) W)

/-- A host stretch as a segment over every unscoped buffer, from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The last thread state without the debts: every unscoped buffer at the last contents. -/
abbrev Tend (c : Dev nD) : sProp 𝕄 := StableHlo.held (c : Thread nD τ) (Pipeline.ucRefs τ sig) (W5 m c)

/-! ## The two calls as segments -/

set_option backward.isDefEq.respectTransparency.types false in
/-- The pooling call: entered with every unscoped buffer at W1, left with them at W2. Its tables are split out of
    the unscoped buffers at entry and put back at their final contents at exit; the register goes into the bare
    invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Pool.body_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (left0 m c) (across0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The loss call: entered with every unscoped buffer at W3, left with them at W4. As the pooling call, except that
    its invariant names the scratch cell between the points: it starts as the bare invariant and ends giving the bare
    invariant back. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Loss.body_obligation (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Loss.inv_in (V3 m) c)
    unfold Pipeline.ΦA
    iintro ⟨Hp, -, Hr⟩
    isplitl [Hr]; · iexact Hr
    iexact Hp
  hout c := by
    rw [Pipeline.ownSems0_none]
    refine BIBase.Entails.trans (Loss.inv_out (V3 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (left1 m c) (across1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as its segments, and the run -/

/-- @main's five segments in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]

/-- @main is the run of those segments: both are the same chain of five items. -/
theorem main_is_segs (c : Dev nD) : main (F := F) c = Pipeline.Seg.run (segs m) := by
  rw [main_chain c, Pipeline.Seg.run_eq_chain]; rfl

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN. From any memory with zero counters, every weakly fair execution of @main on the TensorCores terminates,
    nothing faulting, and in every final state each unscoped buffer of each core holds the last valuation's contents. -/
theorem run (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_is_segs m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tend m)
    (hch := ⟨fun _ => .rfl, fun _ => .rfl, fun _ => .rfl, fun _ => .rfl, fun _ => .rfl, fun c => sep_mono .rfl (by iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨Hh, HSI⟩
      unfold Tend StableHlo.held
      imodintro
      iapply (pointsTo_read_all (Pipeline.ucRefs τ sig) (fun b => (((c : Thread nD τ)).1, b)) (W5 m c) s')
      isplitl [Hh] <;> iassumption)
    (hQ := fun s h c => h c)

/-! ## What no segment writes -/

/-- A buffer that neither the first host stretch nor the pooling call writes is, after both, as launched. -/
theorem kept_to_2 (c : Dev nD) (b : Ref sig .tc) (h0 : b ∉ hostOps0_W) (h1 : ∀ w, Pipeline.arrRef spec0 w ≠ b) :
    W2 m c (Proc.devRef .tc b) = m ((c : Thread nD τ).loc b) :=
  (W2_of_ne m c b h1).trans (StableHlo.after_of_writes_sub hostOps0 _ hostOps0_writes h0)

/-- A buffer no segment writes is, at the end, as launched. -/
theorem kept_to_end (c : Dev nD) (b : Ref sig .tc) (h0 : b ∉ hostOps0_W) (h1 : ∀ w, Pipeline.arrRef spec0 w ≠ b)
    (h2 : b ∉ hostOps1_W) (h3 : ∀ w, Pipeline.arrRef spec1 w ≠ b) (h4 : b ∉ hostOps2_W) :
    W5 m c (Proc.devRef .tc b) = m ((c : Thread nD τ).loc b) :=
  (StableHlo.after_of_writes_sub hostOps2 _ hostOps2_writes h4).trans <|
    (W4_of_ne m c b h3).trans <| (StableHlo.after_of_writes_sub hostOps1 _ hostOps1_writes h2).trans (kept_to_2 m c b h0 h1)

/-- THE FRAME: every weakly fair execution of @main terminates, nothing faulting, with every argument array as launched —
    no host operation writes an argument and no call has one as its output table. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (kept_to_end m c main_arg0 (by decide) (by decide) (by decide) (by decide) (by decide)),
      (h c _ (mem_uc main_arg1 (by decide))).trans (kept_to_end m c main_arg1 (by decide) (by decide) (by decide) (by decide) (by decide)),
      (h c _ (mem_uc main_arg2 (by decide))).trans (kept_to_end m c main_arg2 (by decide) (by decide) (by decide) (by decide) (by decide)),
      (h c _ (mem_uc main_arg3 (by decide))).trans (kept_to_end m c main_arg3 (by decide) (by decide) (by decide) (by decide) (by decide)),
      (h c _ (mem_uc main_arg4 (by decide))).trans (kept_to_end m c main_arg4 (by decide) (by decide) (by decide) (by decide) (by decide)),
      (h c _ (mem_uc main_arg5 (by decide))).trans (kept_to_end m c main_arg5 (by decide) (by decide) (by decide) (by decide) (by decide)),
      (h c _ (mem_uc main_arg6 (by decide))).trans (kept_to_end m c main_arg6 (by decide) (by decide) (by decide) (by decide) (by decide)),
      (h c _ (mem_uc main_arg7 (by decide))).trans (kept_to_end m c main_arg7 (by decide) (by decide) (by decide) (by decide) (by decide)),
      (h c _ (mem_uc main_arg8 (by decide))).trans (kept_to_end m c main_arg8 (by decide) (by decide) (by decide) (by decide) (by decide))⟩) (run m ρ)

end Cert.KernelIdeal.Whole

end
-- ==== Proof.Spec.lean ====
/-
  The two scalar functions both programs compute, on the extended reals.

  * pooling: the four layer tables are added entry by entry, grouped from the left, and the sum is
    scaled by one quarter;
  * the loss of one batch row: with s = <u, strong> and a = <u, adjacent> (inner products over the 64
    embedding coordinates), softplus (s - a) = max (s - a) 0 + log (1 + exp (-|s - a|));
  * the mean loss: the row losses summed over the 8192 rows, scaled by 2^-13.

  The two scale factors are kept as the f32 words the kernel multiplies by: 0x3E800000 is exactly 1/4 and
  0x39000000 exactly 1/8192, so a quotient by 4 (by 8192) is the product with them.
-/
import Idealize.ShloMosaic.PureOps.Ideal
import Idealize.ShloMosaic.PureOps.Ideal.Laws
import Idealize.ShloMosaic.Lib.ValueIdx

noncomputable section

namespace Cert.Spec

open Idealize.ShloMosaic

/-- One quarter, as the f32 word of the pooling scale. -/
abbrev quarter : EReal := Ideal.ofBits .f32 0x3E800000#32

/-- 2^-13 = 1/8192, as the f32 word of the batch-mean scale. -/
abbrev invBatch : EReal := Ideal.ofBits .f32 0x39000000#32

/-- The pooled value of one entry of the four layer tables. -/
def pool (a b c d : EReal) : EReal := (((a + b) + c) + d) * quarter

/-- softplus on the extended reals: max x 0 + log (1 + exp (-|x|)), with |x| = max x (-x). -/
def softplus (x : EReal) : EReal := max x 0 + Ideal.log1p (Ideal.exp (-(max x (-x))))

/-- The loss of one batch row from the row's three embeddings (user, adjacent item, strong item). -/
def rowLoss (u adj strong : Fin 64 → EReal) : EReal :=
  softplus ((∑ d : Fin 64, u d * strong d) - (∑ d : Fin 64, u d * adj d))

/-- The mean loss over the 8192 batch rows. -/
def meanLoss (u adj strong : Fin 8192 → Fin 64 → EReal) : EReal :=
  (∑ r : Fin 8192, rowLoss (u r) (adj r) (strong r)) * invBatch

end Cert.Spec

end
-- ==== Proof.PayPool.lean ====
/-
  Three of the program's stored values read at an index, on the extended reals.

  * the pooled entry: the four tables' entries added from the left, times the word 0x3E800000 (one quarter);
  * the running sum's initial value: the zero word, which is the extended real 0;
  * the final scale: the running sum times the word 0x39000000 (2^-13).

  A cast to the same shape is the identity on the values, a splat reads its scalar everywhere, and sums and products of
  blocks are taken entry by entry; nothing else is used.
-/
import proofs.«136069_j31147102830628_1_alg».proof.Proof.Gen.KernelIdeal.Skeleton
import proofs.«136069_j31147102830628_1_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Pay

open Idealize.ShloMosaic Idealize.ShloMosaic.ValueIdx Cert.KernelIdeal Cert.KernelIdeal.Gen

/-- The pooled value at an entry: ((a + b) + c) + d of the four tables' entries there, times one quarter. The four
    same-shape casts are the identity, and the sums and the product by the splat read through at the index. -/
theorem pay_pool (v0 v2 v5 v8 : Vec Ideal S2000x64 .f32) (j : S2000x64.Idx) :
    k0_pay1 (F := Ideal) v0 v2 v5 v8 j = Cert.Spec.pool (v0 j) (v2 j) (v5 j) (v8 j) := by
  unfold k0_pay1
  simp only [shapeCast_self]
  rfl

/-- The running sum's initial value at its one entry: the splat of the zero word, through a same-shape cast, is `0`. -/
theorem pay_reset (j : S1x1.Idx) : k1_pay2 (F := Ideal) j = 0 := by
  unfold k1_pay2
  simp only [shapeCast_self]
  exact Ideal.ofBits_zero_f32

/-- The final scale at its one entry: the running sum times `2^-13`. -/
theorem pay_scale (v40 : Vec Ideal S1x1 .f32) (j : S1x1.Idx) :
    k1_pay1 (F := Ideal) v40 j = v40 j * Cert.Spec.invBatch := by
  unfold k1_pay1
  rfl

end Cert.KernelIdeal.Pay

end
-- ==== Proof.IdealPoolValue.lean ====
/-
  The pooled table after the pooling call, at the extended reals: one whole-array function of the four layer
  tables the call finds.

  Point t writes back rows [2000 t, 2000 t + 2000) of the output, and what it writes is, entry by entry, the pooled
  value of the same entries of the four input blocks; each input block sits at the same rows of its table. The 75
  blocks tile the 150000 rows (row r lies in block r / 2000), so the table after the run is the pooled value of the
  four tables at every entry.
-/
import proofs.«136069_j31147102830628_1_alg».proof.Proof.IdealPool
import proofs.«136069_j31147102830628_1_alg».proof.Proof.PayPool
import proofs.«136069_j31147102830628_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.PoolValue

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

-- the TensorCore's buffer contents when the pooling call is entered
variable (V : (c : Dev nD) → (b : Ref sig .tc) → Buf (Elt Ideal) ((c : Thread nD τ).loc b))

theorem off0 : (![0, 0] : Fin 2 → Nat) = fun _ => 0 := funext fun a => by fin_cases a <;> rfl

/-- The pooled table of four layer tables, entry by entry. -/
abbrev pooledTable (a b c d : S150000x64.Idx → EReal) : S150000x64.Idx → EReal :=
  fun i => Cert.Spec.pool (a i) (b i) (c i) (d i)

/-- The index maps over the grid: every input window moves with the output window, whose block index is the point's
    number on the rows and zero on the columns. -/
theorem idx_facts : ∀ t : Fin cfg0.N,
    win0_0.index t (0 : Fin 2) = win0_4.index t (0 : Fin 2) ∧ win0_0.index t (1 : Fin 2) = win0_4.index t (1 : Fin 2)
    ∧ win0_1.index t (0 : Fin 2) = win0_4.index t (0 : Fin 2) ∧ win0_1.index t (1 : Fin 2) = win0_4.index t (1 : Fin 2)
    ∧ win0_2.index t (0 : Fin 2) = win0_4.index t (0 : Fin 2) ∧ win0_2.index t (1 : Fin 2) = win0_4.index t (1 : Fin 2)
    ∧ win0_3.index t (0 : Fin 2) = win0_4.index t (0 : Fin 2) ∧ win0_3.index t (1 : Fin 2) = win0_4.index t (1 : Fin 2)
    ∧ win0_4.index t (0 : Fin 2) = t.val ∧ win0_4.index t (1 : Fin 2) = 0 :=
  (by decide +kernel : ∀ t : Fin grid0.N, _)

set_option maxHeartbeats 8000000 in
/-- WHAT POINT t WRITES BACK is block t of the pooled table of the four tables as the call finds them. -/
theorem flushed_eq (c : Dev nD) (t : Fin cfg0.N) :
    (Pool.dat V c).flushed 4 t = ((cfg0.win 4).blk t).view.read (Elt Ideal)
      (pooledTable (V c (Pipeline.arrRef spec0 0)) (V c (Pipeline.arrRef spec0 1)) (V c (Pipeline.arrRef spec0 2)) (V c (Pipeline.arrRef spec0 3))) := by
  show (cfg0.win 4).cut (grid0.coords t) ((Pool.dat V c).after 4 t) = _
  rw [Pool.after_4]
  unfold Pool.pooled
  rw [View.canon_unit_zero off0]
  simp only [View.ld_unit_zero (S := S2000x64) off0]
  obtain ⟨e00, e01, e10, e11, e20, e21, e30, e31, -, -⟩ := idx_facts t
  funext j
  show k0_pay1 (F := Ideal) (Pool.blk V c 0 t) (Pool.blk V c 1 t) (Pool.blk V c 2 t) (Pool.blk V c 3 t) j
    = Cert.Spec.pool (V c (Pipeline.arrRef spec0 0) (((cfg0.win 4).blk t).view.emb j)) (V c (Pipeline.arrRef spec0 1) (((cfg0.win 4).blk t).view.emb j))
        (V c (Pipeline.arrRef spec0 2) (((cfg0.win 4).blk t).view.emb j)) (V c (Pipeline.arrRef spec0 3) (((cfg0.win 4).blk t).view.emb j))
  rw [Cert.KernelIdeal.Pay.pay_pool]
  show Cert.Spec.pool (V c (Pipeline.arrRef spec0 0) (((cfg0.win 0).blk t).view.emb j)) (V c (Pipeline.arrRef spec0 1) (((cfg0.win 1).blk t).view.emb j))
        (V c (Pipeline.arrRef spec0 2) (((cfg0.win 2).blk t).view.emb j)) (V c (Pipeline.arrRef spec0 3) (((cfg0.win 3).blk t).view.emb j)) = _
  have h0 : ((cfg0.win 0).blk t).view.emb j = ((cfg0.win 4).blk t).view.emb j := by
    funext a; apply Fin.ext
    match a with
    | ⟨0, _⟩ => show win0_0.index t (0 : Fin 2) * 2000 + 1 * (j 0).val = win0_4.index t (0 : Fin 2) * 2000 + 1 * (j 0).val; omega
    | ⟨1, _⟩ => show win0_0.index t (1 : Fin 2) * 64 + 1 * (j 1).val = win0_4.index t (1 : Fin 2) * 64 + 1 * (j 1).val; omega
  have h1 : ((cfg0.win 1).blk t).view.emb j = ((cfg0.win 4).blk t).view.emb j := by
    funext a; apply Fin.ext
    match a with
    | ⟨0, _⟩ => show win0_1.index t (0 : Fin 2) * 2000 + 1 * (j 0).val = win0_4.index t (0 : Fin 2) * 2000 + 1 * (j 0).val; omega
    | ⟨1, _⟩ => show win0_1.index t (1 : Fin 2) * 64 + 1 * (j 1).val = win0_4.index t (1 : Fin 2) * 64 + 1 * (j 1).val; omega
  have h2 : ((cfg0.win 2).blk t).view.emb j = ((cfg0.win 4).blk t).view.emb j := by
    funext a; apply Fin.ext
    match a with
    | ⟨0, _⟩ => show win0_2.index t (0 : Fin 2) * 2000 + 1 * (j 0).val = win0_4.index t (0 : Fin 2) * 2000 + 1 * (j 0).val; omega
    | ⟨1, _⟩ => show win0_2.index t (1 : Fin 2) * 64 + 1 * (j 1).val = win0_4.index t (1 : Fin 2) * 64 + 1 * (j 1).val; omega
  have h3 : ((cfg0.win 3).blk t).view.emb j = ((cfg0.win 4).blk t).view.emb j := by
    funext a; apply Fin.ext
    match a with
    | ⟨0, _⟩ => show win0_3.index t (0 : Fin 2) * 2000 + 1 * (j 0).val = win0_4.index t (0 : Fin 2) * 2000 + 1 * (j 0).val; omega
    | ⟨1, _⟩ => show win0_3.index t (1 : Fin 2) * 64 + 1 * (j 1).val = win0_4.index t (1 : Fin 2) * 64 + 1 * (j 1).val; omega
  rw [h0, h1, h2, h3]

/-- An index of the table is in point t's block iff each coordinate is in the block's range on its axis. -/
theorem mem_blk (t : Fin cfg0.N) (i : S150000x64.Idx) :
    i ∈ ((cfg0.win 4).blk t).view.set ↔ ∀ a : Fin 2, win0_4.index t a * S2000x64.size a ≤ (i a).val ∧ (i a).val < win0_4.index t a * S2000x64.size a + S2000x64.size a := by
  show i ∈ ((View.whole main_v40).slice (win0_4.rect t)).set ↔ _
  rw [View.set_slice_whole, Rect.mem_set_unit]
  exact Iff.rfl

/-- Every entry of the table is in some point's block: row r in block r / 2000. -/
theorem covered (i : S150000x64.Idx) : ∃ t : Fin cfg0.N, (cfg0.win 4).flush t = true ∧ i ∈ ((cfg0.win 4).blk t).view.set := by
  have hi0 : (i 0).val < 150000 := (i 0).isLt
  have hi1 : (i 1).val < 64 := (i 1).isLt
  refine ⟨⟨(i 0).val / 2000, by rw [show cfg0.N = 75 from N_0]; omega⟩, flush0_4 _, ?_⟩
  rw [mem_blk]
  obtain ⟨-, -, -, -, -, -, -, -, q0, q1⟩ := idx_facts ⟨(i 0).val / 2000, by rw [show cfg0.N = 75 from N_0]; omega⟩
  intro a
  match a with
  | ⟨0, _⟩ =>
    show win0_4.index _ (0 : Fin 2) * 2000 ≤ (i 0).val ∧ (i 0).val < win0_4.index _ (0 : Fin 2) * 2000 + 2000
    rw [q0]; show (i 0).val / 2000 * 2000 ≤ (i 0).val ∧ (i 0).val < (i 0).val / 2000 * 2000 + 2000; omega
  | ⟨1, _⟩ =>
    show win0_4.index _ (1 : Fin 2) * 64 ≤ (i 1).val ∧ (i 1).val < win0_4.index _ (1 : Fin 2) * 64 + 64
    rw [q1]; omega

/-- THE TABLE after the pooling call: the pooled table of the four tables it finds. -/
theorem pooled_after (c : Dev nD) :
    (Pool.dat V c).arrAt 4 cfg0.N
      = pooledTable (V c (Pipeline.arrRef spec0 0)) (V c (Pipeline.arrRef spec0 1)) (V c (Pipeline.arrRef spec0 2)) (V c (Pipeline.arrRef spec0 3)) :=
  (Pool.dat V c).arrAt_eq_of_cover 4 _ (fun t _ => flushed_eq V c t) covered

end Cert.KernelIdeal.PoolValue

end
-- ==== Proof.PayLoss.lean ====
/-
  One block of the loss read at the running sum's one entry, on the extended reals.

  For a block of 2048 rows with embeddings u (user), a (adjacent item), s (strong item), each of 64 coordinates, the
  stored value is  acc + Σ_r softplus (<u_r, s_r> - <u_r, a_r>).

  The steps: (1) a vector of length n re-laid as an n × 1 column reads, at (i, 0), the vector at i; (2) the sum over the
  64 lanes of an entrywise product, kept as a column, is the inner product of the two rows; (3) softplus written as
  max x 0 + log1p (exp (0 - |x - 0|)) under a select on "x - 0 differs from itself" — never true on the extended reals —
  is max x 0 + log (1 + exp (-|x|)), because x - 0 = x and 0 - y = -y there; (4) the sum over axis 0 of the 2048 × 1
  column, re-laid 1 → 1 × 1, is the sum over the rows.
-/
import proofs.«136069_j31147102830628_1_alg».proof.Proof.Gen.KernelIdeal.Skeleton
import proofs.«136069_j31147102830628_1_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Pay

open Idealize.ShloMosaic Idealize.ShloMosaic.ValueIdx Cert.KernelIdeal Cert.KernelIdeal.Gen

/-! ## A trailing unit axis added by a shape cast, read at an index -/

section Layout
variable {α : Type}

/-- An `[a]` array cast to `[a, 1]` reads, at `(i, u)`, the operand at `i`, whatever the unit coordinate `u`: the two
    row-major positions are `i` and `i * 1 + u` with `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Layout

/-! ## The lane sum of a product of two blocks, kept as a column -/

/-- The sum over the 64 lanes of the entrywise product of two `[2048, 64]` blocks, re-laid `[2048] → [2048, 1]`, read at
    row `r`: the inner product of the two rows. The reduction over axis 1 is the `Fin 64`-indexed sum, and the index it
    inserts the lane `d` into is `(r, d)`. -/
theorem laneSum_apply (x y : FVec Ideal S2048x64 .f32) (h : S2048x64.Reduces [1] S2048) (hφ : FKind.Formats .f32)
    (hacc : (0x00000000#32 : BitVec 32) = FKind.add.neutral .f32 hφ) (hc : S2048.ShapeCasts S2048x1) (r : Fin 2048) (u : Fin 1) :
    shapeCast S2048x1 (multiReduction .add [1] S2048 (mulf x y) 0x00000000#32 h hφ hacc) hc (ix2 r u)
      = ∑ d : Fin 64, x (ix2 r d) * y (ix2 r d) := by
  rw [shapeCast_a_a1_apply, Ideal.multiReduction_add_single]
  refine Finset.sum_congr rfl fun (d : Fin 64) _ => ?_
  have hl : h.lift (ix1 r) d = ix2 r d := by
    funext a
    match a with
    | ⟨0, _⟩ => rfl
    | ⟨1, _⟩ => rfl
  rw [hl]
  rfl

/-! ## softplus as the program writes it -/

/-- On the extended reals `x ≠ x` never holds, so the comparison "ordered and not equal" of a value with itself is the
    bit `0`. -/
theorem cmp_one_self (x : EReal) : Ideal.cmp .one x x = 0#1 := by
  simp [Ideal.cmp]

/-- The program's softplus at one element: under a select on "`x - 0` differs from itself", which is never taken,
    `max x 0 + log1p (exp (0 - |x - 0|))` with `|y| = max y (-y)`; `x - 0 = x` and `0 - y = -y` on the extended reals. -/
theorem softplus_apply {s : Shape} (x : FVec Ideal s .f32) (i : s.Idx) :
    select (cmpf .one (subf x (broadcast s (Scalar.ofBits .f32 0x00000000#32))) (subf x (broadcast s (Scalar.ofBits .f32 0x00000000#32))))
        (addf x (broadcast s (Scalar.ofBits .f32 0x00000000#32)))
        (addf (maximumf x (broadcast s (Scalar.ofBits .f32 0x00000000#32)))
          (log1p (exp (subf (broadcast s (Scalar.ofBits .f32 0x00000000#32))
            (absf (subf x (broadcast s (Scalar.ofBits .f32 0x00000000#32)))))))) i
      = Cert.Spec.softplus (x i) := by
  rw [select_apply, cmpf_apply, Ideal.cmpf_def, cmp_one_self, select_zero]
  show max (x i) (Ideal.ofBits .f32 0x00000000#32)
      + Ideal.log1p (Ideal.exp (Ideal.ofBits .f32 0x00000000#32
          - max (x i - Ideal.ofBits .f32 0x00000000#32) (-(x i - Ideal.ofBits .f32 0x00000000#32))))
    = Cert.Spec.softplus (x i)
  rw [Ideal.ofBits_zero_f32, sub_zero, zero_sub]
  rfl

/-! ## One block of the loss -/

/-- The running sum after one block of 2048 rows: the carried value plus the sum over the block's rows of the row loss.
    The same-shape casts are the identity; the sum over the rows is the reduction over axis 0 of the `[2048, 1]` column
    of softplus values, re-laid `[1] → [1, 1]`; each entry of the column is softplus of the difference of the two inner
    products, strong minus adjacent. -/
theorem pay_acc (v3 v5 v7 : Vec Ideal S2048x64 .f32) (v30 : Vec Ideal S1x1 .f32) (j : S1x1.Idx) :
    k1_pay3 (F := Ideal) v3 v5 v7 v30 j
      = v30 j + ∑ r : Fin 2048, Cert.Spec.rowLoss (fun d => v3 (ix2 r d)) (fun d => v5 (ix2 r d)) (fun d => v7 (ix2 r d)) := by
  obtain ⟨a, b, rfl⟩ : ∃ a b, j = ix2 a b := ⟨_, _, eq_ix2 j⟩
  unfold k1_pay3
  simp only [shapeCast_self]
  rw [addf_apply]
  congr 1
  rw [shapeCast_a_a1_apply]
  refine (Ideal.multiReduction_add_single _ _ reduces_S2048x1_S1 _ _ (ix1 a)).trans ?_
  refine Finset.sum_congr rfl fun (r : Fin 2048) _ => ?_
  have hl : reduces_S2048x1_S1.lift (ix1 a) r = ix2 r a := by
    funext c
    match c with
    | ⟨0, _⟩ => rfl
    | ⟨1, _⟩ => rfl
  rw [hl, softplus_apply, subf_apply]
  unfold Cert.Spec.rowLoss
  exact congrArg Cert.Spec.softplus
    (congrArg₂ (· - ·) (laneSum_apply v3 v7 _ _ _ _ r a) (laneSum_apply v3 v5 _ _ _ _ r a))

end Cert.KernelIdeal.Pay

end
-- ==== Proof.LibWhole.lean ====
/-
  Two general facts used when a kernel body fills a whole buffer in one store and reads it back.

  * A buffer whose LAST write covers the whole shape (the unit rectangle at zero offsets, of the shape's own sizes) reads
    back as that write's payload, whatever was written before and whatever the buffer held.
  * One plane broadcast over many: an array of shape [1, a, b] broadcast to [m, a, b] reads, at (p, i, j), the plane at
    (0, i, j).
  * A sum over `a * b` consecutive indices is the sum over `a` chunks of the sums over the `b` indices of each chunk.
-/
import Idealize.ShloMosaic.Lib.Pipeline.Value
import Idealize.ShloMosaic.Lib.ValueIdx
import Idealize.ShloMosaic.Lib.ValueLayout

set_option maxRecDepth 16384

noncomputable section

namespace Cert.NonLocal.Lib

open Idealize.ShloMosaic Idealize.ShloMosaic.ValueIdx
open scoped BigOperators

variable {Val : EltTy → Type} {S : Shape} {e : EltTy}

/-- After a last write through the whole-shape rectangle, the buffer reads as that write's payload. -/
theorem read_writes_cons_whole [∀ e, Nonempty (Val e)] {sig : RefSig} {κ : Kind} {sp : Space}
    (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h inb]

/-- A `[1, a, b]` array broadcast to `[m, a, b]` reads, at `(p, i, j)`, the operand's one plane at `(i, j)`. -/
theorem broadcastTo_1ab_mab_apply {α : Type} {m a b : ℕ} (v : (⟨3, ![1, a, b]⟩ : Shape).Idx → α)
    (h : (⟨3, ![1, a, b]⟩ : Shape).Broadcasts ⟨3, ![m, a, b]⟩) (p : Fin m) (i : Fin a) (j : Fin b) :
    broadcastTo ⟨3, ![m, a, b]⟩ v h (ix3 p i j) = v (ix3 (0 : Fin 1) i j) := by
  refine broadcastTo_apply v h (ix3 p i j) (ix3 (0 : Fin 1) i j) fun ax => ?_
  match ax with
  | ⟨0, _⟩ => rfl
  | ⟨1, _⟩ =>
    show i.val = if a = 1 then 0 else i.val
    split
    · have := i.isLt; omega
    · rfl
  | ⟨2, _⟩ =>
    show j.val = if b = 1 then 0 else j.val
    split
    · have := j.isLt; omega
    · rfl

/-- Summing over `a * b` indices chunk by chunk: chunk `q` holds the indices `b * q + r`, `r < b`. -/
theorem sum_chunks {M : Type*} [AddCommMonoid M] (a b : ℕ) (f : Fin (a * b) → M) :
    ∑ n : Fin (a * b), f n
      = ∑ q : Fin a, ∑ r : Fin b, f ⟨b * q.val + r.val, by
          have hq := q.isLt; have hr := r.isLt
          calc b * q.val + r.val < b * q.val + b := by omega
            _ = b * (q.val + 1) := by ring
            _ ≤ b * a := Nat.mul_le_mul_left b hq
            _ = a * b := Nat.mul_comm b a⟩ := by
  refine ((finProdFinEquiv (m := a) (n := b)).sum_comp f).symm.trans ?_
  rw [Fintype.sum_prod_type]
  refine Finset.sum_congr rfl fun q _ => Finset.sum_congr rfl fun r _ => congrArg f (Fin.ext ?_)
  show r.val + b * q.val = b * q.val + r.val
  omega

end Cert.NonLocal.Lib

end
-- ==== Proof.IdealLossValue.lean ====
/-
  The result cell after the loss call, at the extended reals: the mean loss over the 8192 batch rows of the three
  gathered tables the call finds.

  Row r of point t's block is row 2048 t + r of its table. After point n the accumulator holds the zero payload plus
  the block sums of points 0 … n, each block sum the sum over its 2048 rows of the row loss; after the last point
  that is the sum over all 8192 rows, taken block by block, and the result cell holds it scaled by 2^-13. The cell
  is written back once, after the last point.
-/
import proofs.«136069_j31147102830628_1_alg».proof.Proof.IdealLoss
import proofs.«136069_j31147102830628_1_alg».proof.Proof.PayPool
import proofs.«136069_j31147102830628_1_alg».proof.Proof.PayLoss
import proofs.«136069_j31147102830628_1_alg».proof.Proof.Spec
import proofs.«136069_j31147102830628_1_alg».proof.Proof.LibWhole
import Idealize.ShloMosaic.Lib.Pipeline.Value
import Idealize.ShloMosaic.Lib.ValueIdx
import Idealize.ShloMosaic.PureOps.Ideal.Laws

set_option maxRecDepth 16384

noncomputable section

namespace Cert.KernelIdeal.LossValue

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

open Cert.KernelIdeal.Pay

-- the TensorCore's buffer contents when the loss call is entered
variable (V : (c : Dev nD) → (b : Ref sig .tc) → Buf (Elt Ideal) ((c : Thread nD τ).loc b))

/-- The index maps over the four points: each input window's block index is the point's number on the rows and zero
    on the columns; the result window stays at its one block. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0 :=
  (by decide +kernel : ∀ t : Fin grid1.N, _)

/-- Row r of point t's block, as a row of the whole table. -/
def absRow (t : Fin cfg1.N) (r : Fin 2048) : Fin 8192 :=
  ⟨2048 * t.val + r.val, by have ht : t.val < 4 := lt_of_lt_of_eq t.isLt N_1; have hr := r.isLt; omega⟩

theorem blk_row_0 (c : Dev nD) (t : Fin cfg1.N) (r : Fin 2048) (d : Fin 64) :
    Loss.blk V c 0 t (ix2 r d) = V c (Pipeline.arrRef spec1 0) (ix2 (absRow t r) d) := by
  obtain ⟨a0, a1, b0, b1, c0, c1, -, -⟩ := idx_facts t
  show V c (Pipeline.arrRef spec1 0) (((cfg1.win 0).blk t).view.emb (ix2 r d)) = _
  refine congrArg (V c (Pipeline.arrRef spec1 0)) ?_
  funext a; apply Fin.ext
  match a with
  | ⟨0, _⟩ => show win1_0.index t (0 : Fin 2) * 2048 + 1 * r.val = 2048 * t.val + r.val; omega
  | ⟨1, _⟩ => show win1_0.index t (1 : Fin 2) * 64 + 1 * d.val = d.val; omega

theorem blk_row_1 (c : Dev nD) (t : Fin cfg1.N) (r : Fin 2048) (d : Fin 64) :
    Loss.blk V c 1 t (ix2 r d) = V c (Pipeline.arrRef spec1 1) (ix2 (absRow t r) d) := by
  obtain ⟨a0, a1, b0, b1, c0, c1, -, -⟩ := idx_facts t
  show V c (Pipeline.arrRef spec1 1) (((cfg1.win 1).blk t).view.emb (ix2 r d)) = _
  refine congrArg (V c (Pipeline.arrRef spec1 1)) ?_
  funext a; apply Fin.ext
  match a with
  | ⟨0, _⟩ => show win1_1.index t (0 : Fin 2) * 2048 + 1 * r.val = 2048 * t.val + r.val; omega
  | ⟨1, _⟩ => show win1_1.index t (1 : Fin 2) * 64 + 1 * d.val = d.val; omega

theorem blk_row_2 (c : Dev nD) (t : Fin cfg1.N) (r : Fin 2048) (d : Fin 64) :
    Loss.blk V c 2 t (ix2 r d) = V c (Pipeline.arrRef spec1 2) (ix2 (absRow t r) d) := by
  obtain ⟨a0, a1, b0, b1, c0, c1, -, -⟩ := idx_facts t
  show V c (Pipeline.arrRef spec1 2) (((cfg1.win 2).blk t).view.emb (ix2 r d)) = _
  refine congrArg (V c (Pipeline.arrRef spec1 2)) ?_
  funext a; apply Fin.ext
  match a with
  | ⟨0, _⟩ => show win1_2.index t (0 : Fin 2) * 2048 + 1 * r.val = 2048 * t.val + r.val; omega
  | ⟨1, _⟩ => show win1_2.index t (1 : Fin 2) * 64 + 1 * d.val = d.val; omega

/-- The loss of row q of the three tables the call finds (user, adjacent item, strong item). -/
def rowTerm (c : Dev nD) (q : Fin 8192) : EReal :=
  Cert.Spec.rowLoss (fun d => V c (Pipeline.arrRef spec1 0) (ix2 q d)) (fun d => V c (Pipeline.arrRef spec1 1) (ix2 q d))
    (fun d => V c (Pipeline.arrRef spec1 2) (ix2 q d))

/-- The summed row losses of point t's block. -/
def blockSum (c : Dev nD) (t : Fin cfg1.N) : EReal := ∑ r : Fin 2048, rowTerm V c (absRow t r)

/-- The running sum of the block sums of points 0 … n, from zero. -/
def partialSum (c : Dev nD) : (n : ℕ) → n < cfg1.N → EReal
  | 0, h => 0 + blockSum V c ⟨0, h⟩
  | n + 1, h => partialSum c n (Nat.lt_of_succ_lt h) + blockSum V c ⟨n + 1, h⟩

/-- One block's payload over an accumulator value: the value plus the block sum. -/
theorem step_apply (c : Dev nD) (t : Fin cfg1.N) (a : Vec Ideal S1x1 .f32) (j : S1x1.Idx) :
    k1_pay3 (F := Ideal) (Loss.blk V c 0 t) (Loss.blk V c 1 t) (Loss.blk V c 2 t) a j = a j + blockSum V c t := by
  rw [pay_acc]
  refine congrArg (a j + ·) ?_
  unfold blockSum rowTerm
  refine Finset.sum_congr rfl fun r _ => ?_
  simp only [blk_row_0, blk_row_1, blk_row_2]

/-- The accumulator after point n is the running sum, at its one index. -/
theorem acc_apply (c : Dev nD) : ∀ (n : ℕ) (hn : n < cfg1.N) (j : S1x1.Idx), Loss.acc V c n hn j = partialSum V c n hn
  | 0, hn, j => by
    show k1_pay3 (F := Ideal) (Loss.blk V c 0 ⟨0, hn⟩) (Loss.blk V c 1 ⟨0, hn⟩) (Loss.blk V c 2 ⟨0, hn⟩) (k1_pay2 (F := Ideal)) j = _
    rw [step_apply, pay_reset]; rfl
  | n + 1, hn, j => by
    show k1_pay3 (F := Ideal) (Loss.blk V c 0 ⟨n + 1, hn⟩) (Loss.blk V c 1 ⟨n + 1, hn⟩) (Loss.blk V c 2 ⟨n + 1, hn⟩)
      (Loss.acc V c n (Nat.lt_of_succ_lt hn)) j = _
    rw [step_apply, acc_apply c n (Nat.lt_of_succ_lt hn) j]; rfl

/-- The four block sums, from zero, are the sum over all 8192 rows. -/
theorem partial_last (c : Dev nD) : partialSum V c 3 Loss.three_lt = ∑ q : Fin 8192, rowTerm V c q := by
  have hs := Cert.NonLocal.Lib.sum_chunks 4 2048 (fun n : Fin (4 * 2048) => rowTerm V c n)
  refine Eq.trans ?_ hs.symm
  rw [Fin.sum_univ_four]
  show ((0 + blockSum V c ⟨0, _⟩ + blockSum V c ⟨1, _⟩) + blockSum V c ⟨2, _⟩) + blockSum V c ⟨3, _⟩ = _
  rw [zero_add]
  rfl

/-- The result block, where it is written back, is the mean loss of the rows the call finds. -/
theorem result_apply (c : Dev nD) (j : S1x1.Idx) :
    Loss.result V c j = (∑ q : Fin 8192, rowTerm V c q) * Cert.Spec.invBatch := by
  unfold Loss.result
  rw [pay_scale, acc_apply, partial_last]

/-- The mean loss of the three tables the call finds. -/
def meanOf (c : Dev nD) : EReal :=
  Cert.Spec.meanLoss (fun q d => V c (Pipeline.arrRef spec1 0) (ix2 q d)) (fun q d => V c (Pipeline.arrRef spec1 1) (ix2 q d))
    (fun q d => V c (Pipeline.arrRef spec1 2) (ix2 q d))

theorem result_mean (c : Dev nD) (j : S1x1.Idx) : Loss.result V c j = meanOf V c := by
  rw [result_apply]; rfl

/-- The one point that writes the result back is the last. -/
def lastPoint : Fin cfg1.N := ⟨3, Loss.three_lt⟩

/-- THE RESULT CELL after the loss call: the mean loss, at its one index. -/
theorem result_after (c : Dev nD) : (Loss.dat V c).arrAt 3 cfg1.N = fun _ => meanOf V c := by
  refine (Loss.dat V c).arrAt_eq_of_cover 3 (fun _ => meanOf V c) (fun t _ => ?_) (fun i => ⟨lastPoint, (flush1_3 lastPoint).mpr rfl, ?_⟩)
  · show (cfg1.win 3).cut (grid1.coords t) ((Loss.dat V c).after 3 t) = _
    rw [Loss.after_3]
    funext j
    exact result_mean V c _
  · show i ∈ ((View.whole main_v66).slice (win1_3.rect lastPoint)).set
    rw [View.set_slice_whole, Rect.mem_set_unit]
    obtain ⟨-, -, -, -, -, -, z0, z1⟩ := idx_facts lastPoint
    intro a
    match a with
    | ⟨0, _⟩ =>
      show win1_3.index lastPoint (0 : Fin 2) * 1 ≤ (i 0).val ∧ (i 0).val < win1_3.index lastPoint (0 : Fin 2) * 1 + 1
      have hb : (i 0).val < 1 := (i 0).isLt
      rw [z0]; omega
    | ⟨1, _⟩ =>
      show win1_3.index lastPoint (1 : Fin 2) * 1 ≤ (i 1).val ∧ (i 1).val < win1_3.index lastPoint (1 : Fin 2) * 1 + 1
      have hb : (i 1).val < 1 := (i 1).isLt
      rw [z1]; omega

end Cert.KernelIdeal.LossValue

end
-- ==== Proof.RefConsts.lean ====
/-
  The float constants the reference program spells, as the extended reals their f32 words denote. Each word is
  evaluated here once; the modules that use them cite these lemmas and unfold nothing.

  * 0x40800000 is 4 and 0x3E800000 is 1/4: the pooling divides by the first, the specification multiplies by the second;
  * 0x46000000 is 8192 and 0x39000000 is 1/8192: the batch mean divides by the first, the specification multiplies by
    the second.
-/
import Idealize.ShloMosaic.PureOps.Ideal

noncomputable section

namespace Cert.ReferenceIdeal.RefValue

open Idealize.ShloMosaic

/-- The word 0x40800000 denotes the real 4. -/
theorem ofBits_four : Ideal.ofBits .f32 0x40800000#32 = ((4 : ℝ) : EReal) := by
  simp [Ideal.ofBits, Ideal.ieee, -EReal.coe_mul]; norm_num

/-- The word 0x3E800000 denotes the real 1/4. -/
theorem ofBits_quarter : Ideal.ofBits .f32 0x3E800000#32 = ((1 / 4 : ℝ) : EReal) := by
  simp [Ideal.ofBits, Ideal.ieee, -EReal.coe_mul]; norm_num

/-- The word 0x46000000 denotes the real 8192. -/
theorem ofBits_8192 : Ideal.ofBits .f32 0x46000000#32 = ((8192 : ℝ) : EReal) := by
  simp [Ideal.ofBits, Ideal.ieee, -EReal.coe_mul]; norm_num

/-- The word 0x39000000 denotes the real 1/8192. -/
theorem ofBits_invBatch : Ideal.ofBits .f32 0x39000000#32 = ((1 / 8192 : ℝ) : EReal) := by
  simp [Ideal.ofBits, Ideal.ieee, -EReal.coe_mul]; norm_num

end Cert.ReferenceIdeal.RefValue

end
-- ==== Proof.RefPool.lean ====
/-
  The reference's pooled table at the ideal values.

  The reference adds the four layer tables entry by entry, grouped from the left, and divides the sum by a table
  filled with the constant 4 (the f32 word 0x40800000). On the extended reals a quotient by a real that is not zero
  is the product with its reciprocal, at the infinities too, and the reciprocal 1/4 is exactly the f32 word
  0x3E800000 the specification multiplies by. So every entry of the quotient is the specification's pooled value
  of the four entries. No finiteness of the entries is used.
-/
import proofs.«136069_j31147102830628_1_alg».proof.Proof.Gen.ReferenceIdeal
import proofs.«136069_j31147102830628_1_alg».proof.Proof.Spec
import proofs.«136069_j31147102830628_1_alg».proof.Proof.RefConsts
import Idealize.ShloMosaic.Lib.ValueIdx
import Idealize.ShloMosaic.PureOps.Ideal.Laws

noncomputable section

namespace Cert.ReferenceIdeal.RefValue

open Cert.ReferenceIdeal Cert.ReferenceIdeal.Gen Idealize.ShloMosaic Idealize.ShloMosaic.ValueIdx

/-- The reference's pooling of four tables: the three additions, then the quotient by the constant table of 4. -/
def pooled {F : FTy → Type} [FloatOps F] (P L1 L2 L3 : FVec F S150000x64 .f32) : FVec F S150000x64 .f32 :=
  Host.divf (addf (addf (addf P L1) L2) L3)
    (broadcastInDim S150000x64 ![] bcast_S_S150000x64 (constant S_ .f32 0x40800000#32))

/-- At the ideal values every entry of the pooled table is the specification's pooled value of the four entries:
    the quotient by 4 is the product with 1/4. -/
theorem pooled_eq (P L1 L2 L3 : FVec Ideal S150000x64 .f32) :
    pooled P L1 L2 L3 = fun i => Cert.Spec.pool (P i) (L1 i) (L2 i) (L3 i) := by
  funext i
  simp only [pooled, Cert.Spec.pool, Cert.Spec.quarter, Host.divf, addf, broadcastInDim, broadcast, constant,
    Ideal.hostDivf_def, Ideal.addf_def, Ideal.ofBits_def, ofBits_four, ofBits_quarter,
    Ideal.div_coe (by norm_num : (4 : ℝ) ≠ 0)]

end Cert.ReferenceIdeal.RefValue

end
-- ==== Proof.RefLoss.lean ====
/-
  The reference's tail at the ideal values: from the three gathered row tables to the mean loss.

  For the batch's user rows U, adjacent-item rows ADJ and strong-item rows STRONG (8192 rows of 64 coordinates each)
  the reference forms the row sums a = <U, ADJ> and s = <U, STRONG> of the entrywise products (sums from a zero
  initial value), the difference x = s - a, the softplus of x spelt as

      select (d ≠ d) (x + 0) (max x 0 + log1p (exp (-|d|)))      with d = x - 0,

  the sum of the 8192 values from a zero initial value, and the quotient of that sum by 8192 (the f32 word 0x46000000).

  On the extended reals: the zero initial values vanish; d = x; the comparison "d ≠ d" is false for every extended
  real, so the select takes its last operand; |d| is max d (-d); and the quotient by 8192 is the product with
  1/8192, which is exactly the f32 word 0x39000000 the specification multiplies by. So the result is the
  specification's mean loss of the three row tables. No finiteness of the entries is used.
-/
import proofs.«136069_j31147102830628_1_alg».proof.Proof.Gen.ReferenceIdeal
import proofs.«136069_j31147102830628_1_alg».proof.Proof.Spec
import proofs.«136069_j31147102830628_1_alg».proof.Proof.RefConsts
import Idealize.ShloMosaic.Lib.ValueIdx
import Idealize.ShloMosaic.Lib.IdealHost
import Idealize.ShloMosaic.PureOps.Ideal.Laws

noncomputable section

namespace Cert.ReferenceIdeal.RefValue

open Cert.ReferenceIdeal Cert.ReferenceIdeal.Gen Idealize.ShloMosaic Idealize.ShloMosaic.ValueIdx
open scoped BigOperators

/-! ## The reference's operations -/

section Ops
variable {F : FTy → Type} [FloatOps F]

/-- The row sums of the entrywise product of two row tables, summed from a zero initial value. -/
def rowDots (A B : FVec F S8192x64 .f32) : FVec F S8192 .f32 :=
  Host.reduceAdd (mulf A B) (constant S_ .f32 0x00000000#32) reducesTo_S8192x64_S8192_d1 h_S_

/-- The reference's softplus of a vector `x`, operation by operation: with `z` the zero vector and `d = x - z`, the select
    on "d ≠ d" between `x + z` and `max x z + log1p (exp (-|d|))`. -/
def softplusV (x : FVec F S8192 .f32) : FVec F S8192 .f32 :=
  select
    (cmpf .une (subf x (broadcastInDim S8192 ![] bcast_S_S8192 (constant S_ .f32 0x00000000#32)))
      (subf x (broadcastInDim S8192 ![] bcast_S_S8192 (constant S_ .f32 0x00000000#32))))
    (addf x (broadcastInDim S8192 ![] bcast_S_S8192 (constant S_ .f32 0x00000000#32)))
    (addf (maximumf x (broadcastInDim S8192 ![] bcast_S_S8192 (constant S_ .f32 0x00000000#32)))
      (Host.log1p (Host.exp (Host.negf (Host.absf
        (subf x (broadcastInDim S8192 ![] bcast_S_S8192 (constant S_ .f32 0x00000000#32))))))))

/-- The reference's tail: the softplus of <U, STRONG> - <U, ADJ> row by row, summed over the rows from a zero initial
    value, divided by the constant 8192. -/
def tail (U ADJ STRONG : FVec F S8192x64 .f32) : FVec F S_ .f32 :=
  Host.divf
    (Host.reduceAdd (softplusV (subf (rowDots U STRONG) (rowDots U ADJ)))
      (constant S_ .f32 0x00000000#32) reducesTo_S8192_S_d0 h_S_)
    (constant S_ .f32 0x46000000#32)

end Ops

/-! ## Sums over a rank-1 index set -/

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## The operations at the ideal values -/

/-- A row sum of a product at row `r` is the inner product of the two rows: the zero initial value vanishes. -/
theorem rowDots_apply (A B : FVec Ideal S8192x64 .f32) (r : Fin 8192) :
    rowDots A B (ix1 r) = ∑ d : Fin 64, A (ix2 r d) * B (ix2 r d) := by
  unfold rowDots
  rw [hostReduceAdd_apply, Ideal.hostReduceAdd_single reducesTo_S8192x64_S8192_d1 (by decide)]
  rw [constant_apply, Ideal.ofBits_zero_f32, zero_add]
  refine Finset.sum_congr rfl fun (k : Fin 64) _ => ?_
  have hidx : (by decide : S8192x64.Reduces [1] S8192).lift (ix1 r) k = ix2 r k :=
    funext fun a => Fin.ext (by match a with | ⟨0, _⟩ => rfl | ⟨1, _⟩ => rfl)
  rw [hidx]
  rfl

/-- The reference's softplus at an index is the specification's softplus of the entry: `x - 0 = x`, and "d ≠ d" is
    false on the extended reals, so the select takes `max x 0 + log1p (exp (-(max x (-x))))`. -/
theorem softplusV_apply (x : FVec Ideal S8192 .f32) (j : S8192.Idx) :
    softplusV x j = Cert.Spec.softplus (x j) := by
  have hz : ∀ j : S8192.Idx,
      (broadcastInDim S8192 ![] bcast_S_S8192 (constant (F := Ideal) S_ .f32 0x00000000#32)) j = 0 := by
    intro j; rw [broadcastInDim_scalar_apply, constant_apply, Ideal.ofBits_zero_f32]
  unfold softplusV Cert.Spec.softplus
  rw [select_apply, cmpf_apply, Ideal.cmpf_def]
  have hc : Ideal.cmp .une
      (subf x (broadcastInDim S8192 ![] bcast_S_S8192 (constant (F := Ideal) S_ .f32 0x00000000#32)) j)
      (subf x (broadcastInDim S8192 ![] bcast_S_S8192 (constant (F := Ideal) S_ .f32 0x00000000#32)) j) = 0#1 := by
    simp only [Ideal.cmp, ne_eq, not_true_eq_false, decide_false]; rfl
  rw [hc, select_zero, addf_apply, maximumf_apply, hz]
  show _ + Ideal.hostUnary .log1p (Ideal.hostUnary .exp (FloatOps.hostNegf (FloatOps.hostAbsf (subf x _ j)))) = _
  rw [subf_apply, hz, sub_zero]
  rfl

/-- At the ideal values the reference's tail is the specification's mean loss of the three row tables: the zero
    initial value of the sum over the rows vanishes, and the quotient by 8192 is the product with 1/8192. -/
theorem tail_eq (U ADJ STRONG : FVec Ideal S8192x64 .f32) :
    tail U ADJ STRONG = fun _ => Cert.Spec.meanLoss (fun r d => U (ix2 r d)) (fun r d => ADJ (ix2 r d))
      (fun r d => STRONG (ix2 r d)) := by
  funext i
  unfold tail Cert.Spec.meanLoss
  rw [hostDivf_apply, hostReduceAdd_apply, Ideal.hostReduceAdd_total reducesTo_S8192_S_d0 (fun b => b.elim0)]
  rw [constant_apply, constant_apply, Ideal.ofBits_zero_f32, zero_add, ofBits_8192,
    Ideal.div_coe (by norm_num : (8192 : ℝ) ≠ 0), ← ofBits_invBatch]
  refine congrArg (· * Ideal.ofBits .f32 0x39000000#32) ?_
  rw [sum_idx1]
  refine Finset.sum_congr rfl fun r _ => ?_
  rw [softplusV_apply, subf_apply, rowDots_apply, rowDots_apply]
  rfl

end Cert.ReferenceIdeal.RefValue

end
-- ==== Proof.RefValue.lean ====
/-
  The reference program's value at the ideal values, as a function of its argument arrays.

  The reference
    * joins the two embedding tables into one table of 150000 rows (`table`);
    * propagates it three times (`step`: gather the rows at the normalised column indices, scale each by its edge
      value, add them into a zero table at the row indices), each step applied to the previous step's result;
    * pools the four tables: adds them entry by entry, grouped from the left, and divides by 4;
    * gathers from the pooled table the batch's user rows, adjacent-item rows and strong-item rows
      (`userRows`, `adjRows`, `strongRows`);
    * and returns the mean over the 8192 batch rows of softplus (<u, strong> - <u, adjacent>).

  The index-dependent operations (the join, the gathers, the scatter-adds, the slices, the index normalisation) are
  only NAMED here, each as the reference's own operations applied to its operands; nothing about them is used. What
  is computed is the arithmetic around them, at the ideal values: the pooling is the specification's `pool` of the four
  tables entry by entry (Proof/RefPool.lean) and the tail is the specification's `meanLoss` of the three row tables
  (Proof/RefLoss.lean). `ref_value` puts the two together.
-/
import proofs.«136069_j31147102830628_1_alg».proof.Proof.RefRead
import proofs.«136069_j31147102830628_1_alg».proof.Proof.Spec
import proofs.«136069_j31147102830628_1_alg».proof.Proof.RefPool
import proofs.«136069_j31147102830628_1_alg».proof.Proof.RefLoss
import Idealize.ShloMosaic.Lib.ValueIdx

noncomputable section

namespace Cert.ReferenceIdeal.RefValue

open Cert.ReferenceIdeal Cert.ReferenceIdeal.Gen Idealize.ShloMosaic Idealize.ShloMosaic.ValueIdx

/-! ## The reference's index-dependent pieces, named and left unopened -/

section Pieces

variable {F : FTy → Type} [FloatOps F]

/-- The two embedding tables joined along the rows: 100000 user rows, then 50000 item rows. -/
def table (a0 : FVec F S100000x64 .f32) (a1 : FVec F S50000x64 .f32) : FVec F S150000x64 .f32 :=
  concatenate S150000x64 0 [⟨S100000x64, a0⟩, ⟨S50000x64, a1⟩] concatenates_S100000x64_S50000x64_S150000x64_d0

/-- One propagation step: the rows of `cur` at the normalised column indices `a3`, each scaled by its edge value
    `a4`, added into a zero table at the row indices `a2`. -/
def step (cur : FVec F S150000x64 .f32) (a2 a3 : IVec S2000000 32) (a4 : FVec F S2000000 .f32) :
    FVec F S150000x64 .f32 :=
  Host.scatterAdd scatter_S150000x64_S2000000x1_S2000000x64_1_0_0_1
    (broadcastInDim S150000x64 ![] bcast_S_S150000x64 (constant S_ .f32 0x00000000#32))
    (broadcastInDim S2000000x1 ![0] bcast_S2000000_S2000000x1_0 a2)
    (mulf
      (broadcastInDim S2000000x64 ![0, 1] bcast_S2000000x1_S2000000x64_0_1
        (broadcastInDim S2000000x1 ![0] bcast_S2000000_S2000000x1_0 a4))
      (Host.gather gather_S150000x64_S2000000x1_S2000000x64_1_0_n_n_0_1_164 cur
        (broadcastInDim S2000000x1 ![0] bcast_S2000000_S2000000x1_0
          (select (cmpi .slt a3 (broadcastInDim S2000000 ![] bcast_S_S2000000 (constantI S_ 32 0#32)))
            (addi a3 (broadcastInDim S2000000 ![] bcast_S_S2000000 (constantI S_ 32 150000#32)))
            a3))))

/-- The batch's user rows: the rows of the first 100000 rows of `merged` at the normalised indices `a5`. -/
def userRows (merged : FVec F S150000x64 .f32) (a5 : IVec S8192 32) : FVec F S8192x64 .f32 :=
  Host.gather gather_S100000x64_S8192x1_S8192x64_1_0_n_n_0_1_164
    (extractStridedSlice S100000x64 ![0, 0] merged slices_S150000x64_S100000x64_0_0)
    (broadcastInDim S8192x1 ![0] bcast_S8192_S8192x1_0
      (select (cmpi .slt a5 (broadcastInDim S8192 ![] bcast_S_S8192 (constantI S_ 32 0#32)))
        (addi a5 (broadcastInDim S8192 ![] bcast_S_S8192 (constantI S_ 32 100000#32)))
        a5))

/-- The batch's adjacent-item rows: the rows of the last 50000 rows of `merged` at the normalised indices `a6`. -/
def adjRows (merged : FVec F S150000x64 .f32) (a6 : IVec S8192 32) : FVec F S8192x64 .f32 :=
  Host.gather gather_S50000x64_S8192x1_S8192x64_1_0_n_n_0_1_164
    (extractStridedSlice S50000x64 ![100000, 0] merged slices_S150000x64_S50000x64_100000_0)
    (broadcastInDim S8192x1 ![0] bcast_S8192_S8192x1_0
      (select (cmpi .slt a6 (broadcastInDim S8192 ![] bcast_S_S8192 (constantI S_ 32 0#32)))
        (addi a6 (broadcastInDim S8192 ![] bcast_S_S8192 (constantI S_ 32 50000#32)))
        a6))

/-- The batch's strong-item rows: the rows of the last 50000 rows of `merged` at the normalised indices read from
    column 1 of the index pairs `a7`. -/
def strongRows (merged : FVec F S150000x64 .f32) (a7 : IVec S8192x2 32) : FVec F S8192x64 .f32 :=
  Host.gather gather_S50000x64_S8192x1_S8192x64_1_0_n_n_0_1_164
    (extractStridedSlice S50000x64 ![100000, 0] merged slices_S150000x64_S50000x64_100000_0)
    (broadcastInDim S8192x1 ![0] bcast_S8192_S8192x1_0
      (select
        (cmpi .slt (shapeCast _ (extractStridedSlice S8192x1 ![0, 1] a7 slices_S8192x2_S8192x1_0_1) shapeCasts_S8192x1_S8192)
          (broadcastInDim S8192 ![] bcast_S_S8192 (constantI S_ 32 0#32)))
        (addi (shapeCast _ (extractStridedSlice S8192x1 ![0, 1] a7 slices_S8192x2_S8192x1_0_1) shapeCasts_S8192x1_S8192)
          (broadcastInDim S8192 ![] bcast_S_S8192 (constantI S_ 32 50000#32)))
        (shapeCast _ (extractStridedSlice S8192x1 ![0, 1] a7 slices_S8192x2_S8192x1_0_1) shapeCasts_S8192x1_S8192)))

end Pieces

/-! ## The generated stages are these pieces, for every float instance (all by unfolding) -/

section Stages
variable {F : FTy → Type} [FloatOps F]
variable (a0 : FVec F S100000x64 .f32) (a1 : FVec F S50000x64 .f32) (a2 a3 : IVec S2000000 32)
  (a4 : FVec F S2000000 .f32) (a5 a6 : IVec S8192 32) (a7 : IVec S8192x2 32)

theorem v0_eq : ReadP.val_main_v0 (F := F) a0 a1 = table a0 a1 := rfl
theorem v13_eq : ReadP.val_main_v13 (F := F) a0 a1 a2 a3 a4 = step (ReadP.val_main_v0 (F := F) a0 a1) a2 a3 a4 := rfl
theorem v27_eq : ReadP.val_main_v27 (F := F) a0 a1 a2 a3 a4 = step (ReadP.val_main_v13 (F := F) a0 a1 a2 a3 a4) a2 a3 a4 := rfl
theorem v41_eq : ReadP.val_main_v41 (F := F) a0 a1 a2 a3 a4 = step (ReadP.val_main_v27 (F := F) a0 a1 a2 a3 a4) a2 a3 a4 := rfl
theorem v44_eq : ReadP.val_main_v44 (F := F) a0 a1 a2 a3 a4
    = pooled (ReadP.val_main_v0 (F := F) a0 a1) (ReadP.val_main_v13 (F := F) a0 a1 a2 a3 a4)
        (ReadP.val_main_v27 (F := F) a0 a1 a2 a3 a4) (ReadP.val_main_v41 (F := F) a0 a1 a2 a3 a4) := rfl
theorem v57_eq : ReadP.val_main_v57 (F := F) a0 a1 a2 a3 a4 a5 = userRows (ReadP.val_main_v44 (F := F) a0 a1 a2 a3 a4) a5 := rfl
theorem v64_eq : ReadP.val_main_v64 (F := F) a0 a1 a2 a3 a4 a6 = adjRows (ReadP.val_main_v44 (F := F) a0 a1 a2 a3 a4) a6 := rfl
theorem v71_eq : ReadP.val_main_v71 (F := F) a0 a1 a2 a3 a4 a7 = strongRows (ReadP.val_main_v44 (F := F) a0 a1 a2 a3 a4) a7 := rfl
theorem v79_eq : ReadP.val_main_v79 (F := F) a0 a1 a2 a3 a4 a5 a6 a7
    = tail (ReadP.val_main_v57 (F := F) a0 a1 a2 a3 a4 a5) (ReadP.val_main_v64 (F := F) a0 a1 a2 a3 a4 a6)
        (ReadP.val_main_v71 (F := F) a0 a1 a2 a3 a4 a7) := rfl
end Stages

/-! ## The value at the ideal values -/

section AtIdeal
variable (a0 : FVec Ideal S100000x64 .f32) (a1 : FVec Ideal S50000x64 .f32) (a2 a3 : IVec S2000000 32)
  (a4 : FVec Ideal S2000000 .f32) (a5 a6 : IVec S8192 32) (a7 : IVec S8192x2 32)

/-- The pooled table of the specification: entry by entry the `pool` of the joined table `P` and its three
    propagations `L1 = step P`, `L2 = step L1`, `L3 = step L2`. -/
def merged : FVec Ideal S150000x64 .f32 := fun i =>
  Cert.Spec.pool (table a0 a1 i)
    (step (table a0 a1) a2 a3 a4 i)
    (step (step (table a0 a1) a2 a3 a4) a2 a3 a4 i)
    (step (step (step (table a0 a1) a2 a3 a4) a2 a3 a4) a2 a3 a4 i)

/-- The reference's pooled table (its stage after the division by 4) is `merged`. -/
theorem v44_merged : ReadP.val_main_v44 (F := Ideal) a0 a1 a2 a3 a4 = merged a0 a1 a2 a3 a4 := by
  rw [v44_eq, v41_eq, v27_eq, v13_eq, v0_eq, pooled_eq]
  rfl

/-- THE REFERENCE'S VALUE: the result stage of the reference, of its argument arrays, is the specification's mean loss
    of the user, adjacent-item and strong-item rows gathered from the pooled table. -/
theorem ref_value :
    ReadP.val_main_v79 (F := Ideal) a0 a1 a2 a3 a4 a5 a6 a7 = fun _ => Cert.Spec.meanLoss
      (fun r d => userRows (merged a0 a1 a2 a3 a4) a5 (ix2 r d))
      (fun r d => adjRows (merged a0 a1 a2 a3 a4) a6 (ix2 r d))
      (fun r d => strongRows (merged a0 a1 a2 a3 a4) a7 (ix2 r d)) := by
  rw [v79_eq, v57_eq, v64_eq, v71_eq, v44_merged, tail_eq]

end AtIdeal

end Cert.ReferenceIdeal.RefValue

end
-- ==== Proof.IdealResult.lean ====
/-
  The kernel program's result at the extended reals, as a function of the nine argument arrays — and it is the
  reference's.

  Reading the run's last valuation backwards: the result is the reshape of the loss call's result cell; that cell is
  the mean loss of the three gathered tables the call finds; those are the host gathers of the slices of the pooled
  table; the pooled table after the pooling call is, entry by entry, the pooled value of the joined embedding table
  and its three propagation steps, which the host operations before the call compute from the arguments. Every host
  operation here is the same operation, on the same operands, as in the reference program, so the two results are
  the same term of the arguments.
-/
import proofs.«136069_j31147102830628_1_alg».proof.Proof.IdealWhole
import proofs.«136069_j31147102830628_1_alg».proof.Proof.IdealPoolValue
import proofs.«136069_j31147102830628_1_alg».proof.Proof.IdealLossValue
import proofs.«136069_j31147102830628_1_alg».proof.Proof.RefValue
import proofs.«136069_j31147102830628_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Result

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

open Cert.KernelIdeal.Whole

variable (m : (ℓ : Loc nD τ sig) → Buf (Elt Ideal) ℓ) (c : Dev nD)

/-! ## The argument arrays as the launch memory holds them on core c, at the types the host operations take -/

abbrev A0 : FVec Ideal Cert.ReferenceIdeal.S100000x64 .f32 := m ((c : Thread nD τ).loc main_arg0)
abbrev A1 : FVec Ideal Cert.ReferenceIdeal.S50000x64 .f32 := m ((c : Thread nD τ).loc main_arg1)
abbrev A2 : IVec Cert.ReferenceIdeal.S2000000 32 := m ((c : Thread nD τ).loc main_arg2)
abbrev A3 : IVec Cert.ReferenceIdeal.S2000000 32 := m ((c : Thread nD τ).loc main_arg3)
abbrev A4 : FVec Ideal Cert.ReferenceIdeal.S2000000 .f32 := m ((c : Thread nD τ).loc main_arg4)
abbrev A5 : IVec Cert.ReferenceIdeal.S8192 32 := m ((c : Thread nD τ).loc main_arg5)
abbrev A6 : IVec Cert.ReferenceIdeal.S8192 32 := m ((c : Thread nD τ).loc main_arg6)
abbrev A7 : IVec Cert.ReferenceIdeal.S8192x2 32 := m ((c : Thread nD τ).loc main_arg7)

/-- The joined table and its three propagation steps, of the arguments. -/
abbrev P0 : FVec Ideal Cert.ReferenceIdeal.S150000x64 .f32 := Cert.ReferenceIdeal.RefValue.table (A0 m c) (A1 m c)
abbrev P1 : FVec Ideal Cert.ReferenceIdeal.S150000x64 .f32 := Cert.ReferenceIdeal.RefValue.step (P0 m c) (A2 m c) (A3 m c) (A4 m c)
abbrev P2 : FVec Ideal Cert.ReferenceIdeal.S150000x64 .f32 := Cert.ReferenceIdeal.RefValue.step (P1 m c) (A2 m c) (A3 m c) (A4 m c)
abbrev P3 : FVec Ideal Cert.ReferenceIdeal.S150000x64 .f32 := Cert.ReferenceIdeal.RefValue.step (P2 m c) (A2 m c) (A3 m c) (A4 m c)
/-- The pooled table, of the arguments. -/
abbrev M : FVec Ideal Cert.ReferenceIdeal.S150000x64 .f32 := Cert.ReferenceIdeal.RefValue.merged (A0 m c) (A1 m c) (A2 m c) (A3 m c) (A4 m c)

/-! ## Before the pooling call -/

theorem layer0 : (W1 m c (Proc.devRef .tc main_v0) : FVec Ideal Cert.ReferenceIdeal.S150000x64 .f32) = P0 m c := by
  show StableHlo.after hostOps0 (W0 m c) (Proc.devRef .tc main_v0) = _
  after_results; rfl

set_option maxHeartbeats 16000000 in
theorem layer1 : (W1 m c (Proc.devRef .tc main_v13) : FVec Ideal Cert.ReferenceIdeal.S150000x64 .f32) = P1 m c := by
  show StableHlo.after hostOps0 (W0 m c) (Proc.devRef .tc main_v13) = _
  after_results; rfl

set_option maxHeartbeats 16000000 in
theorem layer2 : (W1 m c (Proc.devRef .tc main_v26) : FVec Ideal Cert.ReferenceIdeal.S150000x64 .f32) = P2 m c := by
  show StableHlo.after hostOps0 (W0 m c) (Proc.devRef .tc main_v26) = _
  after_results; rfl

set_option maxHeartbeats 16000000 in
theorem layer3 : (W1 m c (Proc.devRef .tc main_v39) : FVec Ideal Cert.ReferenceIdeal.S150000x64 .f32) = P3 m c := by
  show StableHlo.after hostOps0 (W0 m c) (Proc.devRef .tc main_v39) = _
  after_results; rfl

/-! ## After the pooling call: the pooled table -/

set_option maxHeartbeats 16000000 in
theorem pooled_is_merged : (W2 m c (Proc.devRef .tc main_v40) : FVec Ideal Cert.ReferenceIdeal.S150000x64 .f32) = M m c := by
  refine (W2_arr m c 4).trans ?_
  rw [PoolValue.pooled_after]
  show PoolValue.pooledTable (W1 m c (Proc.devRef .tc main_v0)) (W1 m c (Proc.devRef .tc main_v13))
    (W1 m c (Proc.devRef .tc main_v26)) (W1 m c (Proc.devRef .tc main_v39)) = _
  rw [layer0, layer1, layer2, layer3]
  rfl

/-! ## Before the loss call: the three gathered tables -/

set_option maxHeartbeats 16000000 in
theorem users_eq : (W3 m c (Proc.devRef .tc main_v51) : FVec Ideal Cert.ReferenceIdeal.S8192x64 .f32) = Cert.ReferenceIdeal.RefValue.userRows (M m c) (A5 m c) := by
  have e : (W3 m c (Proc.devRef .tc main_v51) : FVec Ideal Cert.ReferenceIdeal.S8192x64 .f32)
      = Cert.ReferenceIdeal.RefValue.userRows (F := Ideal) (W2 m c (Proc.devRef .tc main_v40) : FVec Ideal Cert.ReferenceIdeal.S150000x64 .f32)
          (W2 m c (Proc.devRef .tc main_arg5) : IVec Cert.ReferenceIdeal.S8192 32) := by
    show StableHlo.after hostOps1 (W2 m c) (Proc.devRef .tc main_v51) = _
    after_results; rfl
  rw [e, pooled_is_merged, kept_to_2 m c main_arg5 (by decide) (by decide)]

set_option maxHeartbeats 16000000 in
theorem adjacent_eq : (W3 m c (Proc.devRef .tc main_v58) : FVec Ideal Cert.ReferenceIdeal.S8192x64 .f32) = Cert.ReferenceIdeal.RefValue.adjRows (M m c) (A6 m c) := by
  have e : (W3 m c (Proc.devRef .tc main_v58) : FVec Ideal Cert.ReferenceIdeal.S8192x64 .f32)
      = Cert.ReferenceIdeal.RefValue.adjRows (F := Ideal) (W2 m c (Proc.devRef .tc main_v40) : FVec Ideal Cert.ReferenceIdeal.S150000x64 .f32)
          (W2 m c (Proc.devRef .tc main_arg6) : IVec Cert.ReferenceIdeal.S8192 32) := by
    show StableHlo.after hostOps1 (W2 m c) (Proc.devRef .tc main_v58) = _
    after_results; rfl
  rw [e, pooled_is_merged, kept_to_2 m c main_arg6 (by decide) (by decide)]

set_option maxHeartbeats 16000000 in
theorem strong_eq : (W3 m c (Proc.devRef .tc main_v65) : FVec Ideal Cert.ReferenceIdeal.S8192x64 .f32) = Cert.ReferenceIdeal.RefValue.strongRows (M m c) (A7 m c) := by
  have e : (W3 m c (Proc.devRef .tc main_v65) : FVec Ideal Cert.ReferenceIdeal.S8192x64 .f32)
      = Cert.ReferenceIdeal.RefValue.strongRows (F := Ideal) (W2 m c (Proc.devRef .tc main_v40) : FVec Ideal Cert.ReferenceIdeal.S150000x64 .f32)
          (W2 m c (Proc.devRef .tc main_arg7) : IVec Cert.ReferenceIdeal.S8192x2 32) := by
    show StableHlo.after hostOps1 (W2 m c) (Proc.devRef .tc main_v65) = _
    after_results; rfl
  rw [e, pooled_is_merged, kept_to_2 m c main_arg7 (by decide) (by decide)]

/-! ## After the loss call, and the result -/

/-- The mean loss of the specification, of the rows gathered from the pooled table. -/
def value : EReal :=
  Cert.Spec.meanLoss
    (fun r d => Cert.ReferenceIdeal.RefValue.userRows (M m c) (A5 m c) (ix2 r d))
    (fun r d => Cert.ReferenceIdeal.RefValue.adjRows (M m c) (A6 m c) (ix2 r d))
    (fun r d => Cert.ReferenceIdeal.RefValue.strongRows (M m c) (A7 m c) (ix2 r d))

set_option maxHeartbeats 16000000 in
theorem cell_eq : (W4 m c (Proc.devRef .tc main_v66) : S1x1.Idx → EReal) = fun _ => value m c := by
  refine (W4_arr m c 3).trans ?_
  rw [LossValue.result_after]
  funext _
  unfold LossValue.meanOf value
  show Cert.Spec.meanLoss
      (fun q d => (W3 m c (Proc.devRef .tc main_v51) : FVec Ideal Cert.ReferenceIdeal.S8192x64 .f32) (ix2 q d))
      (fun q d => (W3 m c (Proc.devRef .tc main_v58) : FVec Ideal Cert.ReferenceIdeal.S8192x64 .f32) (ix2 q d))
      (fun q d => (W3 m c (Proc.devRef .tc main_v65) : FVec Ideal Cert.ReferenceIdeal.S8192x64 .f32) (ix2 q d)) = _
  rw [users_eq, adjacent_eq, strong_eq]

set_option maxHeartbeats 16000000 in
/-- THE KERNEL'S RESULT: the closing reshape of the result cell. -/
theorem result_eq : (W5 m c (Proc.devRef .tc main_v67) : S_.Idx → EReal) = fun _ => value m c := by
  have e : (W5 m c (Proc.devRef .tc main_v67) : S_.Idx → EReal)
      = shapeCast S_ (W4 m c (Proc.devRef .tc main_v66) : S1x1.Idx → EReal) shapeCasts_S1x1_S_ := by
    show StableHlo.after hostOps2 (W4 m c) (Proc.devRef .tc main_v67) = _
    after_results; rfl
  rw [e, cell_eq]
  funext i
  rfl

/-- THE KERNEL PROGRAM'S RUN, read: every weakly fair execution terminates with the result at the mean loss of the rows
    gathered from the pooled table, and the argument arrays as launched. -/
theorem kernel_run (ρ : Dev nD → PrngReg) :
    θ_run defs (onTc (τ := τ) (main (F := Ideal))) ⟨m, fun _ => 0, ρ⟩ (fun r => ∀ c : Dev nD,
      r.2.mem ((c.tc : Thread nD τ).loc main_v67) = (fun _ => value m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_v67 (by decide))).trans (result_eq m c),
      (h c _ (mem_uc main_arg0 (by decide))).trans (kept_to_end m c main_arg0 (by decide) (by decide) (by decide) (by decide) (by decide)),
      (h c _ (mem_uc main_arg1 (by decide))).trans (kept_to_end m c main_arg1 (by decide) (by decide) (by decide) (by decide) (by decide)),
      (h c _ (mem_uc main_arg2 (by decide))).trans (kept_to_end m c main_arg2 (by decide) (by decide) (by decide) (by decide) (by decide)),
      (h c _ (mem_uc main_arg3 (by decide))).trans (kept_to_end m c main_arg3 (by decide) (by decide) (by decide) (by decide) (by decide)),
      (h c _ (mem_uc main_arg4 (by decide))).trans (kept_to_end m c main_arg4 (by decide) (by decide) (by decide) (by decide) (by decide)),
      (h c _ (mem_uc main_arg5 (by decide))).trans (kept_to_end m c main_arg5 (by decide) (by decide) (by decide) (by decide) (by decide)),
      (h c _ (mem_uc main_arg6 (by decide))).trans (kept_to_end m c main_arg6 (by decide) (by decide) (by decide) (by decide) (by decide)),
      (h c _ (mem_uc main_arg7 (by decide))).trans (kept_to_end m c main_arg7 (by decide) (by decide) (by decide) (by decide) (by decide)),
      (h c _ (mem_uc main_arg8 (by decide))).trans (kept_to_end m c main_arg8 (by decide) (by decide) (by decide) (by decide) (by decide))⟩) (Whole.run m ρ)

end Cert.KernelIdeal.Result

end
-- ==== Proof.lean ====
/-
  The five claims.

  Both kernel programs' frames are read off one run of @main: @main is five segments (host operations, the pooling
  call, host operations, the loss call, a reshape); each call's body obligation is proved point by point (the
  pooling call's one whole-block store; the loss call's accumulator, reset at the first point, added to at every
  point, scaled into the result at the last), and no segment writes an argument array. The reference has no call;
  its frame is its run with the result dropped. The idealization rewrote nothing, so there is nothing to preserve.

  At the extended reals both programs end at the mean loss of the specification: the softplus of <u, strong> - <u,
  adjacent> summed over the 8192 batch rows and scaled by 2^-13, the three row tables gathered from the pooled
  table, whose entries are ((p + l1) + l2) + l3 scaled by 1/4 of the joined embedding table p and its three
  propagation steps. The kernel multiplies by the words 1/4 and 2^-13 where the reference divides by 4 and 8192 — the
  same extended real —, and sums the rows in four blocks of 2048 where the reference sums them at once — addition of
  extended reals is commutative and associative. No finiteness is used.
-/
import proofs.«136069_j31147102830628_1_alg».proof.Defs
import proofs.«136069_j31147102830628_1_alg».proof.Proof.Gen.Kernel
import proofs.«136069_j31147102830628_1_alg».proof.Proof.Gen.KernelIdeal
import proofs.«136069_j31147102830628_1_alg».proof.Proof.Gen.ReferenceIdeal
import proofs.«136069_j31147102830628_1_alg».proof.Proof.Gen.Pre_finite_inputs
import proofs.«136069_j31147102830628_1_alg».proof.Proof.BitsWhole
import proofs.«136069_j31147102830628_1_alg».proof.Proof.IdealWhole
import proofs.«136069_j31147102830628_1_alg».proof.Proof.IdealResult
import proofs.«136069_j31147102830628_1_alg».proof.Proof.RefValue
import Idealize.ShloMosaic.Adequacy
import Idealize.ShloMosaic.Init

noncomputable section

namespace Cert.Proof

open Idealize.ShloMosaic Idealize.SL.Sem

/-- The kernel program as printed: @main runs to the end, faults nowhere, leaves its arguments unchanged. -/
theorem frame_kernel : Cert.frame_Kernel := fun m ρ _ => Cert.Kernel.Whole.frame (F := Bits) m ρ

/-- The same of its idealization. -/
theorem frame_kernel_ideal : Cert.frame_KernelIdeal := fun m ρ _ => Cert.KernelIdeal.Whole.frame (F := Ideal) m ρ

/-- The reference: its run, the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories agreeing on the arguments both programs end at the specification's mean loss of the rows gathered
    from the pooled table. -/
theorem algebraic : Cert.algebraic_KernelIdeal_ReferenceIdeal := by
  intro m ρ m' ρ' _ hagree
  refine ⟨fun c => fun _ => Cert.KernelIdeal.Result.value m c, Cert.KernelIdeal.Result.kernel_run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v79_eq, Cert.ReferenceIdeal.RefValue.ref_value,
    (hagree c).1, (hagree c).2.1, (hagree c).2.2.1, (hagree c).2.2.2.1, (hagree c).2.2.2.2.1, (hagree c).2.2.2.2.2.1, (hagree c).2.2.2.2.2.2.1, (hagree c).2.2.2.2.2.2.2.1]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
